-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S3072x1024 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S16x64x1024 : Shape := ⟨3, ![16, 64, 1024]⟩
abbrev S2x16x2048x64 : Shape := ⟨4, ![2, 16, 2048, 64]⟩
abbrev S1x2048x1024 : Shape := ⟨3, ![1, 2048, 1024]⟩
abbrev S4x64x1024 : Shape := ⟨3, ![4, 64, 1024]⟩
abbrev S1x4x2048x64 : Shape := ⟨4, ![1, 4, 2048, 64]⟩
abbrev S2048x1024 : Shape := ⟨2, ![2048, 1024]⟩
abbrev S1x64x1024 : Shape := ⟨3, ![1, 64, 1024]⟩
abbrev S64x1024 : Shape := ⟨2, ![64, 1024]⟩
abbrev S2048x64 : Shape := ⟨2, ![2048, 64]⟩
abbrev S1x1x2048x64 : Shape := ⟨4, ![1, 1, 2048, 64]⟩
abbrev S1x4x512x64 : Shape := ⟨4, ![1, 4, 512, 64]⟩
abbrev S4x2048x1 : Shape := ⟨3, ![4, 2048, 1]⟩
abbrev S4x2048x64 : Shape := ⟨3, ![4, 2048, 64]⟩
abbrev S4x512x64 : Shape := ⟨3, ![4, 512, 64]⟩
abbrev S4x2048x512 : Shape := ⟨3, ![4, 2048, 512]⟩
abbrev S4x2048 : Shape := ⟨2, ![4, 2048]⟩
abbrev S2x2048x16x64 : Shape := ⟨4, ![2, 2048, 16, 64]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 22
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2x2048x1024, .bf16⟩
  | .hbm, ⟨5, _⟩ => ⟨S3072x1024, .bf16⟩
  | .hbm, ⟨6, _⟩ => ⟨S1024x1024, .bf16⟩
  | .hbm, ⟨7, _⟩ => ⟨S1024x1024, .bf16⟩
  | .hbm, ⟨8, _⟩ => ⟨S16x64x1024, .bf16⟩
  | .hbm, ⟨9, _⟩ => ⟨S1024x1024, .bf16⟩
  | .hbm, ⟨10, _⟩ => ⟨S16x64x1024, .bf16⟩
  | .hbm, ⟨11, _⟩ => ⟨S1024x1024, .bf16⟩
  | .hbm, ⟨12, _⟩ => ⟨S16x64x1024, .bf16⟩
  | .hbm, ⟨13, _⟩ => ⟨S2x16x2048x64, .bf16⟩
  | .hbm, ⟨14, _⟩ => ⟨S2x16x2048x64, .bf16⟩
  | .hbm, ⟨15, _⟩ => ⟨S2x16x2048x64, .bf16⟩
  | .hbm, ⟨16, _⟩ => ⟨S2x16x2048x64, .bf16⟩
  | .hbm, ⟨17, _⟩ => ⟨S2x2048x16x64, .bf16⟩
  | .hbm, ⟨18, _⟩ => ⟨S4096x1024, .bf16⟩
  | .hbm, ⟨19, _⟩ => ⟨S1x1024, .f32⟩
  | .hbm, ⟨20, _⟩ => ⟨S4096x1024, .f32⟩
  | .hbm, ⟨21, _⟩ => ⟨S2x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S4x64x1024, .bf16⟩
  | .local _ .vmem, ⟨3, _⟩ => ⟨S4x64x1024, .bf16⟩
  | .local _ .vmem, ⟨4, _⟩ => ⟨S4x64x1024, .bf16⟩
  | .local _ .vmem, ⟨5, _⟩ => ⟨S4x64x1024, .bf16⟩
  | .local _ .vmem, ⟨6, _⟩ => ⟨S4x64x1024, .bf16⟩
  | .local _ .vmem, ⟨7, _⟩ => ⟨S4x64x1024, .bf16⟩
  | .local _ .vmem, ⟨8, _⟩ => ⟨S1x4x2048x64, .bf16⟩
  | .local _ .vmem, ⟨9, _⟩ => ⟨S1x4x2048x64, .bf16⟩
  | .local _ .vmem, ⟨10, _⟩ => ⟨S1x4x2048x64, .bf16⟩
  | .local _ .vmem, ⟨11, _⟩ => ⟨S1x4x2048x64, .bf16⟩
  | .local _ .vmem, ⟨12, _⟩ => ⟨S1x4x2048x64, .bf16⟩
  | .local _ .vmem, ⟨13, _⟩ => ⟨S1x4x2048x64, .bf16⟩
  | .local _ .vmem, ⟨14, _⟩ => ⟨S1x4x2048x64, .bf16⟩
  | .local _ .vmem, ⟨15, _⟩ => ⟨S1x4x2048x64, .bf16⟩
  | .local _ .vmem, ⟨16, _⟩ => ⟨S1x4x512x64, .bf16⟩
  | .local _ .vmem, ⟨17, _⟩ => ⟨S1x4x512x64, .bf16⟩
  | .local _ .vmem, ⟨18, _⟩ => ⟨S1x4x512x64, .bf16⟩
  | .local _ .vmem, ⟨19, _⟩ => ⟨S1x4x512x64, .bf16⟩
  | .local _ .vmem, ⟨20, _⟩ => ⟨S1x4x2048x64, .bf16⟩
  | .local _ .vmem, ⟨21, _⟩ => ⟨S1x4x2048x64, .bf16⟩
  | .local _ .vmem, ⟨22, _⟩ => ⟨S4x2048x1, .f32⟩
  | .local _ .vmem, ⟨23, _⟩ => ⟨S4x2048x1, .f32⟩
  | .local _ .vmem, ⟨24, _⟩ => ⟨S4x2048x64, .f32⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![2, 4, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_37 : BitVec 32 := 0#32
  let v44 : BitVec 1 := Scalar.cmpi .ne v43 c0_i32_37
  v44

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x4x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x4x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x4x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x4x2048x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  slices_S3072x1024_S1024x1024_0_0 : S3072x1024.Slices ![0, 0] S1024x1024
  shapeCasts_S1024x1024_S16x64x1024 : S1024x1024.ShapeCasts S16x64x1024
  slices_S3072x1024_S1024x1024_1024_0 : S3072x1024.Slices ![1024, 0] S1024x1024
  slices_S3072x1024_S1024x1024_2048_0 : S3072x1024.Slices ![2048, 0] S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S4x64x1024_S1x64x1024_0_0_0 : ∀ a, (![0, 0, 0] : Fin 3 → Nat) a + S1x64x1024.size a ≤ S4x64x1024.size a
  h_S1x64x1024 : 0 < S1x64x1024.numel
  shapeCasts_S1x64x1024_S64x1024 : S1x64x1024.ShapeCasts S64x1024
  inb_S1x4x2048x64_S1x1x2048x64_0_0_0_0 : ∀ a, (![0, 0, 0, 0] : Fin 4 → Nat) a + S1x1x2048x64.size a ≤ S1x4x2048x64.size a
  h_S1x1x2048x64 : 0 < S1x1x2048x64.numel
  shapeCasts_S1x1x2048x64_S2048x64 : S1x1x2048x64.ShapeCasts S2048x64
  shapeCasts_S2048x64_S1x1x2048x64 : S2048x64.ShapeCasts S1x1x2048x64
  packedbf16_S1x4x2048x64_S1x1x2048x64_0_0_0_0 : (Rect.unit (s := S1x4x2048x64) ![0, 0, 0, 0] S1x1x2048x64.size inb_S1x4x2048x64_S1x1x2048x64_0_0_0_0).PackedRows (EltTy.packing .bf16)
  inb_S4x64x1024_S1x64x1024_1_0_0 : ∀ a, (![1, 0, 0] : Fin 3 → Nat) a + S1x64x1024.size a ≤ S4x64x1024.size a
  inb_S1x4x2048x64_S1x1x2048x64_0_1_0_0 : ∀ a, (![0, 1, 0, 0] : Fin 4 → Nat) a + S1x1x2048x64.size a ≤ S1x4x2048x64.size a
  packedbf16_S1x4x2048x64_S1x1x2048x64_0_1_0_0 : (Rect.unit (s := S1x4x2048x64) ![0, 1, 0, 0] S1x1x2048x64.size inb_S1x4x2048x64_S1x1x2048x64_0_1_0_0).PackedRows (EltTy.packing .bf16)
  inb_S4x64x1024_S1x64x1024_2_0_0 : ∀ a, (![2, 0, 0] : Fin 3 → Nat) a + S1x64x1024.size a ≤ S4x64x1024.size a
  inb_S1x4x2048x64_S1x1x2048x64_0_2_0_0 : ∀ a, (![0, 2, 0, 0] : Fin 4 → Nat) a + S1x1x2048x64.size a ≤ S1x4x2048x64.size a
  packedbf16_S1x4x2048x64_S1x1x2048x64_0_2_0_0 : (Rect.unit (s := S1x4x2048x64) ![0, 2, 0, 0] S1x1x2048x64.size inb_S1x4x2048x64_S1x1x2048x64_0_2_0_0).PackedRows (EltTy.packing .bf16)
  inb_S4x64x1024_S1x64x1024_3_0_0 : ∀ a, (![3, 0, 0] : Fin 3 → Nat) a + S1x64x1024.size a ≤ S4x64x1024.size a
  inb_S1x4x2048x64_S1x1x2048x64_0_3_0_0 : ∀ a, (![0, 3, 0, 0] : Fin 4 → Nat) a + S1x1x2048x64.size a ≤ S1x4x2048x64.size a
  packedbf16_S1x4x2048x64_S1x1x2048x64_0_3_0_0 : (Rect.unit (s := S1x4x2048x64) ![0, 3, 0, 0] S1x1x2048x64.size inb_S1x4x2048x64_S1x1x2048x64_0_3_0_0).PackedRows (EltTy.packing .bf16)
  inb_S4x2048x1_S4x2048x1_0_0_0 : ∀ a, (![0, 0, 0] : Fin 3 → Nat) a + S4x2048x1.size a ≤ S4x2048x1.size a
  h_S4x2048x1 : 0 < S4x2048x1.numel
  shapeCasts_S4x2048x1_S4x2048x1 : S4x2048x1.ShapeCasts S4x2048x1
  inb_S4x2048x64_S4x2048x64_0_0_0 : ∀ a, (![0, 0, 0] : Fin 3 → Nat) a + S4x2048x64.size a ≤ S4x2048x64.size a
  h_S4x2048x64 : 0 < S4x2048x64.numel
  shapeCasts_S4x2048x64_S4x2048x64 : S4x2048x64.ShapeCasts S4x2048x64
  inb_S1x4x2048x64_S1x4x2048x64_0_0_0_0 : ∀ a, (![0, 0, 0, 0] : Fin 4 → Nat) a + S1x4x2048x64.size a ≤ S1x4x2048x64.size a
  h_S1x4x2048x64 : 0 < S1x4x2048x64.numel
  shapeCasts_S1x4x2048x64_S4x2048x64 : S1x4x2048x64.ShapeCasts S4x2048x64
  inb_S1x4x512x64_S1x4x512x64_0_0_0_0 : ∀ a, (![0, 0, 0, 0] : Fin 4 → Nat) a + S1x4x512x64.size a ≤ S1x4x512x64.size a
  h_S1x4x512x64 : 0 < S1x4x512x64.numel
  shapeCasts_S1x4x512x64_S4x512x64 : S1x4x512x64.ShapeCasts S4x512x64
  reduces_S4x2048x512_S4x2048 : S4x2048x512.Reduces [2] S4x2048
  shapeCasts_S4x2048_S4x2048x1 : S4x2048.ShapeCasts S4x2048x1
  broadcasts_S4x2048x1_S4x2048x512 : S4x2048x1.Broadcasts S4x2048x512
  broadcasts_S4x2048x1_S4x2048x64 : S4x2048x1.Broadcasts S4x2048x64
  shapeCasts_S4x2048x64_S1x4x2048x64 : S4x2048x64.ShapeCasts S1x4x2048x64
  packedbf16_S1x4x2048x64_S1x4x2048x64_0_0_0_0 : (Rect.unit (s := S1x4x2048x64) ![0, 0, 0, 0] S1x4x2048x64.size inb_S1x4x2048x64_S1x4x2048x64_0_0_0_0).PackedRows (EltTy.packing .bf16)
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S2048x1024_S64x1024_S2048x64_1_1_0_0_n_n_wf : DotDims.WF S2048x1024 S64x1024 S2048x64 [1] [1] [0] [0] [] []
  dot_S4x2048x64_S4x512x64_S4x2048x512_2_2_1_1_0_0_wf : DotDims.WF S4x2048x64 S4x512x64 S4x2048x512 [2] [2] [1] [1] [0] [0]
  dot_S4x2048x512_S4x512x64_S4x2048x64_2_1_1_2_0_0_wf : DotDims.WF S4x2048x512 S4x512x64 S4x2048x64 [2] [1] [1] [2] [0] [0]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .bf16 = 32 ∨ (Rect.block (s := S2x2048x1024) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x1024.size a ≤ S16x64x1024.size a
  hwx0_1 : ∀ i : grid0.Coords, EltTy.bits .bf16 = 32 ∨ (Rect.block (s := S16x64x1024) S4x64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x1024.size a ≤ S16x64x1024.size a
  hwx0_2 : ∀ i : grid0.Coords, EltTy.bits .bf16 = 32 ∨ (Rect.block (s := S16x64x1024) S4x64x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x1024.size a ≤ S16x64x1024.size a
  hwx0_3 : ∀ i : grid0.Coords, EltTy.bits .bf16 = 32 ∨ (Rect.block (s := S16x64x1024) S4x64x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x2048x64.size a ≤ S2x16x2048x64.size a
  hwx0_4 : ∀ i : grid0.Coords, EltTy.bits .bf16 = 32 ∨ (Rect.block (s := S2x16x2048x64) S1x4x2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x2048x64.size a ≤ S2x16x2048x64.size a
  hwx0_5 : ∀ i : grid0.Coords, EltTy.bits .bf16 = 32 ∨ (Rect.block (s := S2x16x2048x64) S1x4x2048x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x2048x64.size a ≤ S2x16x2048x64.size a
  hwx0_6 : ∀ i : grid0.Coords, EltTy.bits .bf16 = 32 ∨ (Rect.block (s := S2x16x2048x64) S1x4x2048x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x2048x64.size a ≤ S2x16x2048x64.size a
  hwx1_0 : ∀ i : grid1.Coords, EltTy.bits .bf16 = 32 ∨ (Rect.block (s := S2x16x2048x64) S1x4x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x512x64.size a ≤ S2x16x2048x64.size a
  hwx1_1 : ∀ i : grid1.Coords, EltTy.bits .bf16 = 32 ∨ (Rect.block (s := S2x16x2048x64) S1x4x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x512x64.size a ≤ S2x16x2048x64.size a
  hwx1_2 : ∀ i : grid1.Coords, EltTy.bits .bf16 = 32 ∨ (Rect.block (s := S2x16x2048x64) S1x4x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4x2048x64.size a ≤ S2x16x2048x64.size a
  hwx1_3 : ∀ i : grid1.Coords, EltTy.bits .bf16 = 32 ∨ (Rect.block (s := S2x16x2048x64) S1x4x2048x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S4x2048x64_S4x512x64_S4x2048x512_2_2_1_1_0_0 : DotDims S4x2048x64 S4x512x64 S4x2048x512 where
  lhsContracting := [2]
  rhsContracting := [2]
  lhsNonContracting := [1]
  rhsNonContracting := [1]
  lhsBatch := [0]
  rhsBatch := [0]
  wf := dot_S4x2048x64_S4x512x64_S4x2048x512_2_2_1_1_0_0_wf
def dot_S4x2048x512_S4x512x64_S4x2048x64_2_1_1_2_0_0 : DotDims S4x2048x512 S4x512x64 S4x2048x64 where
  lhsContracting := [2]
  rhsContracting := [1]
  lhsNonContracting := [1]
  rhsNonContracting := [2]
  lhsBatch := [0]
  rhsBatch := [0]
  wf := dot_S4x2048x512_S4x512x64_S4x2048x64_2_1_1_2_0_0_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4x64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1x4x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x4x2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S1x4x2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9_0) S1x4x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x4x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x4x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x4x2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v12) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S2x2048x3072 : Shape := ⟨3, ![2, 2048, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x3x16x64, .f32⟩
  | .hbm, ⟨6, _⟩ => ⟨S2x2048x1x16x64, .f32⟩
  | .hbm, ⟨7, _⟩ => ⟨S2x2048x16x64, .f32⟩
  | .hbm, ⟨8, _⟩ => ⟨S2x16x2048x64, .f32⟩
  | .hbm, ⟨9, _⟩ => ⟨S2x2048x1x16x64, .f32⟩
  | .hbm, ⟨10, _⟩ => ⟨S2x2048x16x64, .f32⟩
  | .hbm, ⟨11, _⟩ => ⟨S2x16x2048x64, .f32⟩
  | .hbm, ⟨12, _⟩ => ⟨S2x2048x1x16x64, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KReg0.lean ====
import proofs.«108477_j14860586844639_2_alg».proof.Proof.Gen.Kernel.Launch
import proofs.«108477_j14860586844639_2_alg».proof.Proof.Gen.Kernel.Skeleton
import proofs.«108477_j14860586844639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the fused q/k/v projection, one grid point at a time

The first pallas_call walks a grid of 2 batches by 4 head groups. At a point it is handed one batch row of the
activations (a [1,2048,1024] block) and, for each of q, k and v, the weight rows of four heads (a [4,64,1024]
block); for every head of the group it multiplies the activations by that head's 64 weight rows (contracting
the 1024 features) and stores the [2048,64] product in the head's quarter of the output block [1,4,2048,64].

This module states, for ANY contents `V` of the core's buffers at the region's entry, what each window's
staging buffer holds before and after the body at every grid point, and proves the body's Hoare triple against
that description: the activation block and the three weight blocks are left in place, and each output block is
the overlay of four head slabs, each a pure function of the blocks read.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there
or kept the previous copy because the block index did not move (the activations change only with the batch): for
any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- The whole activation block. -/
abbrev rX0 : Rect S1x2048x1024 := Rect.unit (s := S1x2048x1024) ![0, 0, 0] S1x2048x1024.size inb_S1x2048x1024_S1x2048x1024_0_0_0
/-- Head `h`'s 64 weight rows inside a [4,64,1024] weight block. -/
abbrev rW0_0 : Rect S4x64x1024 := Rect.unit (s := S4x64x1024) ![0, 0, 0] S1x64x1024.size inb_S4x64x1024_S1x64x1024_0_0_0
abbrev rW0_1 : Rect S4x64x1024 := Rect.unit (s := S4x64x1024) ![1, 0, 0] S1x64x1024.size inb_S4x64x1024_S1x64x1024_1_0_0
abbrev rW0_2 : Rect S4x64x1024 := Rect.unit (s := S4x64x1024) ![2, 0, 0] S1x64x1024.size inb_S4x64x1024_S1x64x1024_2_0_0
abbrev rW0_3 : Rect S4x64x1024 := Rect.unit (s := S4x64x1024) ![3, 0, 0] S1x64x1024.size inb_S4x64x1024_S1x64x1024_3_0_0
/-- Head `h`'s [2048,64] slab inside a [1,4,2048,64] output block. -/
abbrev rO0_0 : Rect S1x4x2048x64 := Rect.unit (s := S1x4x2048x64) ![0, 0, 0, 0] S1x1x2048x64.size inb_S1x4x2048x64_S1x1x2048x64_0_0_0_0
abbrev rO0_1 : Rect S1x4x2048x64 := Rect.unit (s := S1x4x2048x64) ![0, 1, 0, 0] S1x1x2048x64.size inb_S1x4x2048x64_S1x1x2048x64_0_1_0_0
abbrev rO0_2 : Rect S1x4x2048x64 := Rect.unit (s := S1x4x2048x64) ![0, 2, 0, 0] S1x1x2048x64.size inb_S1x4x2048x64_S1x1x2048x64_0_2_0_0
abbrev rO0_3 : Rect S1x4x2048x64 := Rect.unit (s := S1x4x2048x64) ![0, 3, 0, 0] S1x1x2048x64.size inb_S1x4x2048x64_S1x1x2048x64_0_3_0_0

/-! ## What the body leaves in each output window's buffer

Each output block is written by four stores, one per head of the group; listed last store first. Every payload is
the product of the activation block (its leading unit axis dropped) with one head's weight rows, rounded to the
output format and given two leading unit axes. -/

/-- The q block after the body, from the activation block `x0` and the q weight block `x1`. -/
def out0_4 (x0 : Vec F S1x2048x1024 .bf16) (x1 : Vec F S4x64x1024 .bf16) : Vec F S1x4x2048x64 .bf16 :=
  View.canon [⟨rO0_3, k0_pay19 (k0_pay3 (View.ld x0 rX0)) (View.ld x1 rW0_3)⟩,
    ⟨rO0_2, k0_pay14 (k0_pay13 (k0_pay3 (View.ld x0 rX0)) (View.ld x1 rW0_2))⟩,
    ⟨rO0_1, k0_pay8 (k0_pay3 (View.ld x0 rX0)) (k0_pay7 (View.ld x1 rW0_1))⟩,
    ⟨rO0_0, k0_pay4 (View.ld x0 rX0) (View.ld x1 rW0_0)⟩]

/-- The k block after the body, from the activation block `x0` and the k weight block `x2`. -/
def out0_5 (x0 : Vec F S1x2048x1024 .bf16) (x2 : Vec F S4x64x1024 .bf16) : Vec F S1x4x2048x64 .bf16 :=
  View.canon [⟨rO0_3, k0_pay1 (k0_pay17 (k0_pay3 (View.ld x0 rX0)) (View.ld x2 rW0_3))⟩,
    ⟨rO0_2, k0_pay15 (k0_pay3 (View.ld x0 rX0)) (k0_pay11 (View.ld x2 rW0_2))⟩,
    ⟨rO0_1, k0_pay9 (k0_pay3 (View.ld x0 rX0)) (View.ld x2 rW0_1)⟩,
    ⟨rO0_0, k0_pay5 (View.ld x0 rX0) (View.ld x2 rW0_0)⟩]

/-- The v block after the body, from the activation block `x0` and the v weight block `x3`. -/
def out0_6 (x0 : Vec F S1x2048x1024 .bf16) (x3 : Vec F S4x64x1024 .bf16) : Vec F S1x4x2048x64 .bf16 :=
  View.canon [⟨rO0_3, k0_pay2 (k0_pay18 (k0_pay3 (View.ld x0 rX0)) (View.ld x3 rW0_3))⟩,
    ⟨rO0_2, k0_pay16 (k0_pay3 (View.ld x0 rX0)) (k0_pay12 (View.ld x3 rW0_2))⟩,
    ⟨rO0_1, k0_pay10 (k0_pay3 (View.ld x0 rX0)) (View.ld x3 rW0_1)⟩,
    ⟨rO0_0, k0_pay6 (View.ld x0 rX0) (View.ld x3 rW0_0)⟩]

/-- The four head slabs tile an output block, whatever they hold: every index of the block lies in one of them. -/
theorem cover0_out (p3 p2 p1 p0 : Vec F S1x1x2048x64 .bf16) (y : S1x4x2048x64.Idx) :
    ∃ pc ∈ ([⟨rO0_3, p3⟩, ⟨rO0_2, p2⟩, ⟨rO0_1, p1⟩, ⟨rO0_0, p0⟩] : List (View.Piece (Elt F) S1x4x2048x64 .bf16)), y ∈ pc.1.set :=
  View.cover_of_tiled [⟨rO0_3, p3⟩, ⟨rO0_2, p2⟩, ⟨rO0_1, p1⟩, ⟨rO0_0, p0⟩] S1x1x2048x64.size (by rfl) y

set_option maxHeartbeats 4000000 in
/-- The body on whole staging buffers: the four inputs at contents `x0 … x3` and the three outputs at anything run, without
    fault, to the continuation holding the inputs as they were and each output at the overlay of its four head slabs. -/
theorem sound_kernel0 (c : Dev nD) (E : Set ℕ) (i : grid0.Coords)
    (arg2 : Memref sig .tc .vmem S1x2048x1024 .bf16) (harg2 : arg2.IsWhole)
    (arg3 : Memref sig .tc .vmem S4x64x1024 .bf16) (harg3 : arg3.IsWhole)
    (arg4 : Memref sig .tc .vmem S4x64x1024 .bf16) (harg4 : arg4.IsWhole)
    (arg5 : Memref sig .tc .vmem S4x64x1024 .bf16) (harg5 : arg5.IsWhole)
    (arg6 : Memref sig .tc .vmem S1x4x2048x64 .bf16) (harg6 : arg6.IsWhole)
    (arg7 : Memref sig .tc .vmem S1x4x2048x64 .bf16) (harg7 : arg7.IsWhole)
    (arg8 : Memref sig .tc .vmem S1x4x2048x64 .bf16) (harg8 : arg8.IsWhole)
    (x0 : Vec F S1x2048x1024 .bf16) (x1 x2 x3 : Vec F S4x64x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E
          (cc0__qkv_proj_kernel i arg2 harg2 arg3 harg3 arg4 harg4 arg5 harg5 arg6 harg6 arg7 harg7 arg8 harg8) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _ _ _ _)
  isplitl [H5]
  · iexists _; isplitr
    swap; · iexact H5
    ipureintro
    exact View.read_writes_eq_canon _ _ _ (cover0_out _ _ _ _)
  iexists _; isplitr
  swap; · iexact H6
  ipureintro
  exact View.read_writes_eq_canon _ _ _ (cover0_out _ _ _ _)

/-! ## The pipeline's proof data -/

/-- The proof data of region 0 on core `c`: the arrays as the region finds them; after the body at point `t` each
    input window's buffer still at its block and each output window's at the overlay of the four head slabs computed
    from the input blocks; the invariant is the untouched rest of the core's memory; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debt, and every window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1Base.lean ====
/-
  The attention region (the second kernel call): what its three control cases share.
  The grid is [2, 4, 4], row-major, so a point's last coordinate (the key/value tile) is its number mod 4.
  The body resets its three carried buffers (running maximum, denominator, numerator) at tile 0, folds one
  tile of 512 keys into them at every tile, and at tile 3 divides numerator by denominator into the output block.
-/
import proofs.«108477_j14860586844639_2_alg».proof.Proof.Gen.Kernel.Launch
import proofs.«108477_j14860586844639_2_alg».proof.Proof.Gen.Kernel.Skeleton
import proofs.«108477_j14860586844639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept from the
    point before (the query block moves only when the head group does). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is the first key/value tile": the reset branch. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last key/value tile": the normalising branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last tile the output window is idle: nothing is stored into it and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1x4x2048x64 .bf16 := (Memref.whole cc1_stg3_0 : Memref sig .tc .vmem S1x4x2048x64 .bf16).view
abbrev ms1_0 (t : Fin cfg1.N) : Memref sig .tc .vmem S1x4x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4x2048x64 .bf16 := win1_3.stage (cfg1.slots t 3)
abbrev hs1_3 (t : Fin cfg1.N) : (ms1_3 t).IsWhole := hstage1_3 ((cfg1.slots t 3).cast nbuf1_3)
/-- The three carried buffers: the running row maximum, the running denominator, the running numerator. -/
abbrev scM1_0 : Memref sig .tc .vmem S4x2048x1 .f32 := Memref.whole cc1_scratch0
abbrev scM1_1 : Memref sig .tc .vmem S4x2048x1 .f32 := Memref.whole cc1_scratch1
abbrev scM1_2 : Memref sig .tc .vmem S4x2048x64 .f32 := Memref.whole cc1_scratch2
abbrev VS1_0 : View sig .tc .vmem S4x2048x1 .f32 := scM1_0.view
abbrev VS1_1 : View sig .tc .vmem S4x2048x1 .f32 := scM1_1.view
abbrev VS1_2 : View sig .tc .vmem S4x2048x64 .f32 := scM1_2.view

/-- Every other scoped buffer of the core (the other two calls' staging buffers), at some contents each: carried through
    this region unopened. -/
abbrev otherScoped (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's invariant before its first point, with the three carried buffers taken out as memrefs owned at some
    contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ otherScoped c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole, bigSepL]
  try rfl

end Cert.Kernel.Hand

end
-- ==== Proof.KReg1A.lean ====
/-
  The attention body run whole at the FIRST key/value tile (the reset branch taken, the normalising branch not): what its stores leave in the three carried buffers,
  as pieces, with the triple that says so. The pieces are whatever the run finds; later modules read them back.
-/
import proofs.«108477_j14860586844639_2_alg».proof.Proof.KReg1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the query, key and value blocks at their contents, the output block untouched (idle here), the carried
    buffers at anything (they are overwritten before they are read) — the body runs to its return, handing the input blocks back
    as they were and each buffer it stored into with its pieces written. -/
noncomputable def kernelRun1_A (c : Dev nD) (i : grid1.Coords) (arg3 : Memref sig .tc .vmem S1x4x2048x64 .bf16) (harg3 : arg3.IsWhole) (arg4 : Memref sig .tc .vmem S1x4x512x64 .bf16) (harg4 : arg4.IsWhole) (arg5 : Memref sig .tc .vmem S1x4x512x64 .bf16) (harg5 : arg5.IsWhole) (arg6 : Memref sig .tc .vmem S1x4x2048x64 .bf16) (harg6 : arg6.IsWhole) (arg7 : Memref sig .tc .vmem S4x2048x1 .f32) (harg7 : arg7.IsWhole) (arg8 : Memref sig .tc .vmem S4x2048x1 .f32) (harg8 : arg8.IsWhole) (arg9 : Memref sig .tc .vmem S4x2048x64 .f32) (harg9 : arg9.IsWhole) (hc0 : cond1_0 i) (hc1 : ¬cond1_1 i)
    (x0 : Vec F S1x4x2048x64 .bf16) (x1 : Vec F S1x4x512x64 .bf16) (x2 : Vec F S1x4x512x64 .bf16) :
    Σ' (LS0 : List (View.Piece (Elt F) S4x2048x1 .f32)) (LS1 : List (View.Piece (Elt F) S4x2048x1 .f32)), { LS2 : List (View.Piece (Elt F) S4x2048x64 .f32) //
      ∀ (xi3 : Vec F S1x4x2048x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3

    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KReg1B.lean ====
/-
  The attention body run whole at a MIDDLE key/value tile (neither branch taken): what its stores leave in the three carried buffers,
  as pieces, with the triple that says so. The pieces are whatever the run finds; later modules read them back.
-/
import proofs.«108477_j14860586844639_2_alg».proof.Proof.KReg1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the query, key and value blocks at their contents, the output block untouched (idle here), the carried
    buffers at what the point before left — the body runs to its return, handing the input blocks back
    as they were and each buffer it stored into with its pieces written. -/
noncomputable def kernelRun1_B (c : Dev nD) (i : grid1.Coords) (arg3 : Memref sig .tc .vmem S1x4x2048x64 .bf16) (harg3 : arg3.IsWhole) (arg4 : Memref sig .tc .vmem S1x4x512x64 .bf16) (harg4 : arg4.IsWhole) (arg5 : Memref sig .tc .vmem S1x4x512x64 .bf16) (harg5 : arg5.IsWhole) (arg6 : Memref sig .tc .vmem S1x4x2048x64 .bf16) (harg6 : arg6.IsWhole) (arg7 : Memref sig .tc .vmem S4x2048x1 .f32) (harg7 : arg7.IsWhole) (arg8 : Memref sig .tc .vmem S4x2048x1 .f32) (harg8 : arg8.IsWhole) (arg9 : Memref sig .tc .vmem S4x2048x64 .f32) (harg9 : arg9.IsWhole) (hc0 : ¬cond1_0 i) (hc1 : ¬cond1_1 i)
    (x0 : Vec F S1x4x2048x64 .bf16) (x1 : Vec F S1x4x512x64 .bf16) (x2 : Vec F S1x4x512x64 .bf16) (xs0 : Vec F S4x2048x1 .f32) (xs1 : Vec F S4x2048x1 .f32) (xs2 : Vec F S4x2048x64 .f32) :
    Σ' (LS0 : List (View.Piece (Elt F) S4x2048x1 .f32)) (LS1 : List (View.Piece (Elt F) S4x2048x1 .f32)), { LS2 : List (View.Piece (Elt F) S4x2048x64 .f32) //
      ∀ (xi3 : Vec F S1x4x2048x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KReg1C.lean ====
/-
  The attention body run whole at the LAST key/value tile (the normalising branch taken, the reset branch not): what its stores leave in the three carried buffers and in the output block,
  as pieces, with the triple that says so. The pieces are whatever the run finds; later modules read them back.
-/
import proofs.«108477_j14860586844639_2_alg».proof.Proof.KReg1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the query, key and value blocks at their contents, the output block at anything, the carried
    buffers at what the point before left — the body runs to its return, handing the input blocks back
    as they were and each buffer it stored into with its pieces written. -/
noncomputable def kernelRun1_C (c : Dev nD) (i : grid1.Coords) (arg3 : Memref sig .tc .vmem S1x4x2048x64 .bf16) (harg3 : arg3.IsWhole) (arg4 : Memref sig .tc .vmem S1x4x512x64 .bf16) (harg4 : arg4.IsWhole) (arg5 : Memref sig .tc .vmem S1x4x512x64 .bf16) (harg5 : arg5.IsWhole) (arg6 : Memref sig .tc .vmem S1x4x2048x64 .bf16) (harg6 : arg6.IsWhole) (arg7 : Memref sig .tc .vmem S4x2048x1 .f32) (harg7 : arg7.IsWhole) (arg8 : Memref sig .tc .vmem S4x2048x1 .f32) (harg8 : arg8.IsWhole) (arg9 : Memref sig .tc .vmem S4x2048x64 .f32) (harg9 : arg9.IsWhole) (hc0 : ¬cond1_0 i) (hc1 : cond1_1 i)
    (x0 : Vec F S1x4x2048x64 .bf16) (x1 : Vec F S1x4x512x64 .bf16) (x2 : Vec F S1x4x512x64 .bf16) (xs0 : Vec F S4x2048x1 .f32) (xs1 : Vec F S4x2048x1 .f32) (xs2 : Vec F S4x2048x64 .f32) :
    Σ' (L3 : List (View.Piece (Elt F) S1x4x2048x64 .bf16)) (LS0 : List (View.Piece (Elt F) S4x2048x1 .f32)) (LS1 : List (View.Piece (Elt F) S4x2048x1 .f32)), { LS2 : List (View.Piece (Elt F) S4x2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2

    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KReg1.lean ====
/-
  The attention region: what its carried buffers and its output block hold point by point, its proof data and its
  body obligation. A point's key/value tile is its number mod 4. At tile 0 the body starts the three carried buffers
  afresh and folds the tile in; at tiles 1 and 2 it folds the tile into what the point before left; at tile 3 it folds
  the tile in and stores numerator / denominator into the output block, the only point of the four that writes it back.
-/
import proofs.«108477_j14860586844639_2_alg».proof.Proof.KReg1A
import proofs.«108477_j14860586844639_2_alg».proof.Proof.KReg1B
import proofs.«108477_j14860586844639_2_alg».proof.Proof.KReg1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces read back -/

section Cases
variable (c : Dev nD) (i : grid1.Coords) (arg3 : Memref sig .tc .vmem S1x4x2048x64 .bf16) (harg3 : arg3.IsWhole) (arg4 : Memref sig .tc .vmem S1x4x512x64 .bf16) (harg4 : arg4.IsWhole) (arg5 : Memref sig .tc .vmem S1x4x512x64 .bf16) (harg5 : arg5.IsWhole) (arg6 : Memref sig .tc .vmem S1x4x2048x64 .bf16) (harg6 : arg6.IsWhole) (arg7 : Memref sig .tc .vmem S4x2048x1 .f32) (harg7 : arg7.IsWhole) (arg8 : Memref sig .tc .vmem S4x2048x1 .f32) (harg8 : arg8.IsWhole) (arg9 : Memref sig .tc .vmem S4x2048x64 .f32) (harg9 : arg9.IsWhole)
  (x0 : Vec F S1x4x2048x64 .bf16) (x1 : Vec F S1x4x512x64 .bf16) (x2 : Vec F S1x4x512x64 .bf16)

/-- The run of the first-tile case, named. -/
abbrev rA (hc0 : cond1_0 i) (hc1 : ¬cond1_1 i) := kernelRun1_A (F := F) c i arg3 harg3 arg4 harg4 arg5 harg5 arg6 harg6 arg7 harg7 arg8 harg8 arg9 harg9 hc0 hc1 x0 x1 x2
theorem scover1_A_0 (hc0 : cond1_0 i) (hc1 : ¬cond1_1 i) (y : S4x2048x1.Idx) : ∃ pc ∈ (rA c i arg3 harg3 arg4 harg4 arg5 harg5 arg6 harg6 arg7 harg7 arg8 harg8 arg9 harg9 x0 x1 x2 hc0 hc1).1, y ∈ pc.1.set :=
  View.cover_of_tiledL _ S4x2048x1.size (by sl_kernel_rfl) y
theorem scover1_A_1 (hc0 : cond1_0 i) (hc1 : ¬cond1_1 i) (y : S4x2048x1.Idx) : ∃ pc ∈ (rA c i arg3 harg3 arg4 harg4 arg5 harg5 arg6 harg6 arg7 harg7 arg8 harg8 arg9 harg9 x0 x1 x2 hc0 hc1).2.1, y ∈ pc.1.set :=
  View.cover_of_tiledL _ S4x2048x1.size (by sl_kernel_rfl) y
theorem scover1_A_2 (hc0 : cond1_0 i) (hc1 : ¬cond1_1 i) (y : S4x2048x64.Idx) : ∃ pc ∈ (rA c i arg3 harg3 arg4 harg4 arg5 harg5 arg6 harg6 arg7 harg7 arg8 harg8 arg9 harg9 x0 x1 x2 hc0 hc1).2.2.1, y ∈ pc.1.set :=
  View.cover_of_tiledL _ S4x2048x64.size (by sl_kernel_rfl) y
/-- What the first-tile case leaves in the running maximum, the denominator and the numerator. -/
def sout1_A_0 (hc0 : cond1_0 i) (hc1 : ¬cond1_1 i) : Vec F S4x2048x1 .f32 :=
  VS1_0.read (Elt F) (VS1_0.writes (Elt F) VS1_0.junk (rA c i arg3 harg3 arg4 harg4 arg5 harg5 arg6 harg6 arg7 harg7 arg8 harg8 arg9 harg9 x0 x1 x2 hc0 hc1).1)
def sout1_A_1 (hc0 : cond1_0 i) (hc1 : ¬cond1_1 i) : Vec F S4x2048x1 .f32 :=
  VS1_1.read (Elt F) (VS1_1.writes (Elt F) VS1_1.junk (rA c i arg3 harg3 arg4 harg4 arg5 harg5 arg6 harg6 arg7 harg7 arg8 harg8 arg9 harg9 x0 x1 x2 hc0 hc1).2.1)
def sout1_A_2 (hc0 : cond1_0 i) (hc1 : ¬cond1_1 i) : Vec F S4x2048x64 .f32 :=
  VS1_2.read (Elt F) (VS1_2.writes (Elt F) VS1_2.junk (rA c i arg3 harg3 arg4 harg4 arg5 harg5 arg6 harg6 arg7 harg7 arg8 harg8 arg9 harg9 x0 x1 x2 hc0 hc1).2.2.1)

variable (xs0 : Vec F S4x2048x1 .f32) (xs1 : Vec F S4x2048x1 .f32) (xs2 : Vec F S4x2048x64 .f32)

/-- The run of the middle-tile case, named. -/
abbrev rB (hc0 : ¬cond1_0 i) (hc1 : ¬cond1_1 i) := kernelRun1_B (F := F) c i arg3 harg3 arg4 harg4 arg5 harg5 arg6 harg6 arg7 harg7 arg8 harg8 arg9 harg9 hc0 hc1 x0 x1 x2 xs0 xs1 xs2
theorem scover1_B_0 (hc0 : ¬cond1_0 i) (hc1 : ¬cond1_1 i) (y : S4x2048x1.Idx) : ∃ pc ∈ (rB c i arg3 harg3 arg4 harg4 arg5 harg5 arg6 harg6 arg7 harg7 arg8 harg8 arg9 harg9 x0 x1 x2 xs0 xs1 xs2 hc0 hc1).1, y ∈ pc.1.set :=
  View.cover_of_tiledL _ S4x2048x1.size (by sl_kernel_rfl) y
theorem scover1_B_1 (hc0 : ¬cond1_0 i) (hc1 : ¬cond1_1 i) (y : S4x2048x1.Idx) : ∃ pc ∈ (rB c i arg3 harg3 arg4 harg4 arg5 harg5 arg6 harg6 arg7 harg7 arg8 harg8 arg9 harg9 x0 x1 x2 xs0 xs1 xs2 hc0 hc1).2.1, y ∈ pc.1.set :=
  View.cover_of_tiledL _ S4x2048x1.size (by sl_kernel_rfl) y
theorem scover1_B_2 (hc0 : ¬cond1_0 i) (hc1 : ¬cond1_1 i) (y : S4x2048x64.Idx) : ∃ pc ∈ (rB c i arg3 harg3 arg4 harg4 arg5 harg5 arg6 harg6 arg7 harg7 arg8 harg8 arg9 harg9 x0 x1 x2 xs0 xs1 xs2 hc0 hc1).2.2.1, y ∈ pc.1.set :=
  View.cover_of_tiledL _ S4x2048x64.size (by sl_kernel_rfl) y
def sout1_B_0 (hc0 : ¬cond1_0 i) (hc1 : ¬cond1_1 i) : Vec F S4x2048x1 .f32 :=
  VS1_0.read (Elt F) (VS1_0.writes (Elt F) VS1_0.junk (rB c i arg3 harg3 arg4 harg4 arg5 harg5 arg6 harg6 arg7 harg7 arg8 harg8 arg9 harg9 x0 x1 x2 xs0 xs1 xs2 hc0 hc1).1)
def sout1_B_1 (hc0 : ¬cond1_0 i) (hc1 : ¬cond1_1 i) : Vec F S4x2048x1 .f32 :=
  VS1_1.read (Elt F) (VS1_1.writes (Elt F) VS1_1.junk (rB c i arg3 harg3 arg4 harg4 arg5 harg5 arg6 harg6 arg7 harg7 arg8 harg8 arg9 harg9 x0 x1 x2 xs0 xs1 xs2 hc0 hc1).2.1)
def sout1_B_2 (hc0 : ¬cond1_0 i) (hc1 : ¬cond1_1 i) : Vec F S4x2048x64 .f32 :=
  VS1_2.read (Elt F) (VS1_2.writes (Elt F) VS1_2.junk (rB c i arg3 harg3 arg4 harg4 arg5 harg5 arg6 harg6 arg7 harg7 arg8 harg8 arg9 harg9 x0 x1 x2 xs0 xs1 xs2 hc0 hc1).2.2.1)

/-- The run of the last-tile case, named. -/
abbrev rC (hc0 : ¬cond1_0 i) (hc1 : cond1_1 i) := kernelRun1_C (F := F) c i arg3 harg3 arg4 harg4 arg5 harg5 arg6 harg6 arg7 harg7 arg8 harg8 arg9 harg9 hc0 hc1 x0 x1 x2 xs0 xs1 xs2
theorem cover1_C_3 (hc0 : ¬cond1_0 i) (hc1 : cond1_1 i) (y : S1x4x2048x64.Idx) : ∃ pc ∈ (rC c i arg3 harg3 arg4 harg4 arg5 harg5 arg6 harg6 arg7 harg7 arg8 harg8 arg9 harg9 x0 x1 x2 xs0 xs1 xs2 hc0 hc1).1, y ∈ pc.1.set :=
  View.cover_of_tiledL _ S1x4x2048x64.size (by sl_kernel_rfl) y
theorem scover1_C_0 (hc0 : ¬cond1_0 i) (hc1 : cond1_1 i) (y : S4x2048x1.Idx) : ∃ pc ∈ (rC c i arg3 harg3 arg4 harg4 arg5 harg5 arg6 harg6 arg7 harg7 arg8 harg8 arg9 harg9 x0 x1 x2 xs0 xs1 xs2 hc0 hc1).2.1, y ∈ pc.1.set :=
  View.cover_of_tiledL _ S4x2048x1.size (by sl_kernel_rfl) y
theorem scover1_C_1 (hc0 : ¬cond1_0 i) (hc1 : cond1_1 i) (y : S4x2048x1.Idx) : ∃ pc ∈ (rC c i arg3 harg3 arg4 harg4 arg5 harg5 arg6 harg6 arg7 harg7 arg8 harg8 arg9 harg9 x0 x1 x2 xs0 xs1 xs2 hc0 hc1).2.2.1, y ∈ pc.1.set :=
  View.cover_of_tiledL _ S4x2048x1.size (by sl_kernel_rfl) y
theorem scover1_C_2 (hc0 : ¬cond1_0 i) (hc1 : cond1_1 i) (y : S4x2048x64.Idx) : ∃ pc ∈ (rC c i arg3 harg3 arg4 harg4 arg5 harg5 arg6 harg6 arg7 harg7 arg8 harg8 arg9 harg9 x0 x1 x2 xs0 xs1 xs2 hc0 hc1).2.2.2.1, y ∈ pc.1.set :=
  View.cover_of_tiledL _ S4x2048x64.size (by sl_kernel_rfl) y
/-- What the last-tile case leaves in the output block: numerator over denominator. -/
def out1_C_3 (hc0 : ¬cond1_0 i) (hc1 : cond1_1 i) : Vec F S1x4x2048x64 .bf16 :=
  VO1_3.read (Elt F) (VO1_3.writes (Elt F) VO1_3.junk (rC c i arg3 harg3 arg4 harg4 arg5 harg5 arg6 harg6 arg7 harg7 arg8 harg8 arg9 harg9 x0 x1 x2 xs0 xs1 xs2 hc0 hc1).1)
def sout1_C_0 (hc0 : ¬cond1_0 i) (hc1 : cond1_1 i) : Vec F S4x2048x1 .f32 :=
  VS1_0.read (Elt F) (VS1_0.writes (Elt F) VS1_0.junk (rC c i arg3 harg3 arg4 harg4 arg5 harg5 arg6 harg6 arg7 harg7 arg8 harg8 arg9 harg9 x0 x1 x2 xs0 xs1 xs2 hc0 hc1).2.1)
def sout1_C_1 (hc0 : ¬cond1_0 i) (hc1 : cond1_1 i) : Vec F S4x2048x1 .f32 :=
  VS1_1.read (Elt F) (VS1_1.writes (Elt F) VS1_1.junk (rC c i arg3 harg3 arg4 harg4 arg5 harg5 arg6 harg6 arg7 harg7 arg8 harg8 arg9 harg9 x0 x1 x2 xs0 xs1 xs2 hc0 hc1).2.2.1)
def sout1_C_2 (hc0 : ¬cond1_0 i) (hc1 : cond1_1 i) : Vec F S4x2048x64 .f32 :=
  VS1_2.read (Elt F) (VS1_2.writes (Elt F) VS1_2.junk (rC c i arg3 harg3 arg4 harg4 arg5 harg5 arg6 harg6 arg7 harg7 arg8 harg8 arg9 harg9 x0 x1 x2 xs0 xs1 xs2 hc0 hc1).2.2.2.1)

end Cases

/-! ## What the buffers hold after each point -/

variable (V : (c : Dev nD) → (b : Ref sig .tc) → Buf (Elt F) ((c : Thread nD τ).loc b))

/-- After a point: the output block, the running maximum, the denominator, the numerator. -/
abbrev St (F : FTy → Type) [FloatOps F] : Type :=
  Vec F S1x4x2048x64 .bf16 × Vec F S4x2048x1 .f32 × Vec F S4x2048x1 .f32 × Vec F S4x2048x64 .f32

theorem nC0 (t : Fin cfg1.N) (h : t.val % 4 ≠ 0) : ¬cond1_0 (grid1.coords t) := fun hh => h ((hcond1_0 t).mp hh)
theorem nC1 (t : Fin cfg1.N) (h : t.val % 4 ≠ 3) : ¬cond1_1 (grid1.coords t) := fun hh => h ((hcond1_1 t).mp hh)

/-- A first-tile point: the carried buffers start afresh from the point's blocks; the output block is not touched
    (a placeholder nothing reads). -/
def stA (c : Dev nD) (t : Fin cfg1.N) (h0 : t.val % 4 = 0) : St F :=
  (VO1_3.read (Elt F) VO1_3.junk,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) ((hcond1_0 t).mpr h0) (nC1 t (by omega)),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) ((hcond1_0 t).mpr h0) (nC1 t (by omega)),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) ((hcond1_0 t).mpr h0) (nC1 t (by omega)))
/-- A middle-tile point: the point's tile folded into what the point before left. -/
def stB (c : Dev nD) (t : Fin cfg1.N) (h0 : t.val % 4 ≠ 0) (h1 : t.val % 4 ≠ 3) (p : St F) : St F :=
  (VO1_3.read (Elt F) VO1_3.junk,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) (nC1 t h1),
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) (nC1 t h1),
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) (nC1 t h1))
/-- A last-tile point: the tile folded in, and the quotient stored into the output block. -/
def stC (c : Dev nD) (t : Fin cfg1.N) (h0 : t.val % 4 ≠ 0) (h1 : t.val % 4 = 3) (p : St F) : St F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) ((hcond1_1 t).mpr h1),
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) ((hcond1_1 t).mpr h1),
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) ((hcond1_1 t).mpr h1),
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) ((hcond1_1 t).mpr h1))

/-- THE ACCUMULATION over the grid, by recursion on the point's number. -/
def outsAt1 (c : Dev nD) : (n : ℕ) → n < cfg1.N → St F
  | 0, hn => stA V c ⟨0, hn⟩ (Nat.zero_mod 4)
  | n + 1, hn =>
    if h0 : (n + 1) % 4 = 0 then stA V c ⟨n + 1, hn⟩ h0
    else if h1 : (n + 1) % 4 = 3 then stC V c ⟨n + 1, hn⟩ h0 h1 (outsAt1 c n (Nat.lt_of_succ_lt hn))
    else stB V c ⟨n + 1, hn⟩ h0 h1 (outsAt1 c n (Nat.lt_of_succ_lt hn))

theorem outsAt1_A (c : Dev nD) (t : Fin cfg1.N) (h0 : t.val % 4 = 0) : outsAt1 V c t.val t.isLt = stA V c t h0 := by
  obtain ⟨n, hn⟩ := t
  cases n with
  | zero => exact rfl
  | succ n => exact dif_pos h0
theorem outsAt1_B (c : Dev nD) (t : Fin cfg1.N) (h0 : t.val % 4 ≠ 0) (h1 : t.val % 4 ≠ 3) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans (dif_neg h1)
theorem outsAt1_C (c : Dev nD) (t : Fin cfg1.N) (h0 : t.val % 4 ≠ 0) (h1 : t.val % 4 = 3) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans (dif_pos h1)

/-! ## The invariant between points -/

/-- Before the first point the three carried buffers hold anything; before any later point they hold what the point
    before left. The other calls' scoped buffers and the generator register ride along. -/
def PhiS (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ otherScoped c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ otherScoped c) ∗ (∃ r, prngReg c r)) := rfl
theorem PhiS_pos (c : Dev nD) (n : ℕ) (h : n ≤ cfg1.N) (hz : n ≠ 0) :
    PhiS V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ otherScoped c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the input windows hold their blocks; the point's tile says which case it is in; the invariant
    hands the body the carried buffers at what the point before left (at anything before the first point) and takes them
    back at this point's contents; the output block is stored, and written back, only at a last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · have h1 : t.val % 4 ≠ 3 := by omega
    rw [Dat.leavesExact_idle (dat1 V c) 3 t (idleAt1_3 t (nC1 t h1)) (noFlush1_3 t (nC1 t h1))]
    rw [outsAt1_A V c t h0]
    unfold stA sout1_A_0 sout1_A_1 sout1_A_2; (try dsimp only)
    by_cases hz : t.val = 0
    · rw [PhiS_castSucc V c t, PhiS_zero V c _ _ hz, PhiA1_eq]
      iintro ⟨⟨⟨⟨HS0, HS1, HS2⟩, Hoth⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (nC1 t h1) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      · isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · rw [PhiS_castSucc V c t, PhiS_pos V c _ _ hz]
      iintro ⟨⟨⟨⟨HS0, HS1, HS2⟩, Hoth⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (nC1 t h1) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      · isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold stC out1_C_3 sout1_C_0 sout1_C_1 sout1_C_2; (try dsimp only)
      rw [PhiS_castSucc V c t, PhiS_pos V c _ _ hz]
      iintro ⟨⟨⟨⟨HS0, HS1, HS2⟩, Hoth⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (nC0 t h0) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      · isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (nC1 t h1)) (noFlush1_3 t (nC1 t h1))]
      rw [outsAt1_B V c t h0 h1]
      unfold stB sout1_B_0 sout1_B_1 sout1_B_2; (try dsimp only)
      rw [PhiS_castSucc V c t, PhiS_pos V c _ _ hz]
      iintro ⟨⟨⟨⟨HS0, HS1, HS2⟩, Hoth⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (nC0 t h0) (nC1 t h1) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      · isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's back: what the carried buffers hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

end Cert.Kernel.Hand

end
-- ==== Proof.KReg2.lean ====
import proofs.«108477_j14860586844639_2_alg».proof.Proof.Gen.Kernel.Launch
import proofs.«108477_j14860586844639_2_alg».proof.Proof.Gen.Kernel.Skeleton
import proofs.«108477_j14860586844639_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the output projection with bias, one grid point at a time

The third pallas_call walks a grid of 8 row blocks. At a point it is handed 512 rows of the attention output (a
[512,1024] block), the whole output weight matrix [1024,1024] and the bias row [1,1024]; it multiplies the rows by
the transposed weights (contracting the 1024 features), adds the bias to every row, and stores the [512,1024]
result as the point's output block.

This module states, for ANY contents `V` of the core's buffers at the region's entry, what each window's staging
buffer holds before and after the body at every grid point, and proves the body's Hoare triple against that
description: the three inputs are left in place and the output block is one pure function of the blocks read.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there
or kept the previous copy because the block index did not move (the weights and the bias are fetched once): for
any proof data over the arrays `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

abbrev rA2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-! ## What the body leaves in the output window's buffer -/

/-- The output block after the body, from the row block `x0`, the weights `x1` and the bias row `x2`: its one store. -/
def out2_3 (x0 : Vec F S512x1024 .bf16) (x1 : Vec F S1024x1024 .bf16) (x2 : Vec F S1x1024 .f32) : Vec F S512x1024 .f32 :=
  View.canon [⟨rA2, k2_pay1 (View.ld x0 rA2) (View.ld x1 rW2) (View.ld x2 rB2)⟩]

/-- The store fills the whole block. -/
theorem cover2_3 (p0 : Vec F S512x1024 .f32) (y : S512x1024.Idx) :
    ∃ pc ∈ ([⟨rA2, p0⟩] : List (View.Piece (Elt F) S512x1024 .f32)), y ∈ pc.1.set :=
  View.cover_of_tiled [⟨rA2, p0⟩] S512x1024.size (by rfl) y

/-! ## The body's triple -/

set_option maxHeartbeats 4000000 in
/-- The body on whole staging buffers: the three inputs at contents `x0 x1 x2` and the output at anything run, without
    fault, to the continuation holding the inputs as they were and the output at `out2_3` of them. -/
theorem sound_kernel2 (c : Dev nD) (E : Set ℕ) (i : grid2.Coords)
    (arg2 : Memref sig .tc .vmem S512x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S512x1024 .f32) (harg5 : arg5.IsWhole)
    (x0 : Vec F S512x1024 .bf16) (x1 : Vec F S1024x1024 .bf16) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out2_3 x0 x1 x2)) -∗ K ⟨⟩))
      ⊢ wp frame (wpE (defs₀ (F := F)) Variants.none c none) E
          (cc2__linear_bias_kernel i arg2 harg2 arg3 harg3 arg4 harg4 arg5 harg5) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of region 2 on core `c`: the arrays as the region finds them; after the body at point `t` each
    input window's buffer still at its block and the output window's at `out2_3` of the input blocks; the invariant is
    the untouched rest of the core's memory; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debt, and every window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _
    (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole program as a run: the buffer contents at every boundary between a stretch of host operations and a kernel
  call, the three kernel calls as segments entered from and left at those contents, and the launch: every weakly fair
  execution ends, nothing faulting, with every unscoped buffer at the last boundary's contents. The frame (the four
  argument arrays end as launched) is read off that.
-/
import proofs.«108477_j14860586844639_2_alg».proof.Proof.KReg0
import proofs.«108477_j14860586844639_2_alg».proof.Proof.KReg1
import proofs.«108477_j14860586844639_2_alg».proof.Proof.KReg2
import proofs.«108477_j14860586844639_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (casts, the three slices of the fused weight and their reshapes): the projection
    call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection call: its three outputs at what its write-backs leave. The attention call's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention call: its output at what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the second host stretch (the heads merged back into columns, the bias as a row): the output projection's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the output projection. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the last host operation (the result reshaped to three axes): the end. -/
abbrev W6 : Dev nD → Valuation τ sig (Elt F) := fun c => StableHlo.after hostOps3 (W5 m ρ c)

/-! ### No stretch and no call writes an argument array -/

theorem W6_arg (c : Dev nD) (r : Ref sig .tc) (h0 : r ∉ hostOps0_W) (h2 : r ∉ hostOps2_W) (h3 : r ∉ hostOps3_W)
    (k0 : ∀ w, Pipeline.arrRef spec0 w ≠ r) (k1 : ∀ w, Pipeline.arrRef spec1 w ≠ r) (k2 : ∀ w, Pipeline.arrRef spec2 w ≠ r) :
    W6 m ρ c (Proc.devRef .tc r) = m ((c : Thread nD τ).loc r) :=
  calc W6 m ρ c (Proc.devRef .tc r)
    _ = W5 m ρ c (Proc.devRef .tc r) := StableHlo.after_of_writes_sub hostOps3 _ hostOps3_writes h3
    _ = W4 m ρ c (Proc.devRef .tc r) := W5_of_ne m ρ c r k2
    _ = W3 m ρ c (Proc.devRef .tc r) := StableHlo.after_of_writes_sub hostOps2 _ hostOps2_writes h2
    _ = W2 m ρ c (Proc.devRef .tc r) := W3_of_ne m ρ c r k1
    _ = W1 m ρ c (Proc.devRef .tc r) := W2_of_ne m ρ c r k0
    _ = W0 m ρ c (Proc.devRef .tc r) := StableHlo.after_of_writes_sub hostOps0 _ hostOps0_writes h0
    _ = m ((c : Thread nD τ).loc r) := rfl

/-! ## The proof data family and the thread state -/

abbrev adm1 : (p : Fin 3) → (pcfgs (F := F) p).Adm := fun p => (cfgs p).toPCfg_adm
/-- Every call's proof data, each at its own entry contents. -/
def pdats : (p : Fin 3) → (c : Dev nD) → Dat τ (Elt F) Unit ℕ (UR sig nD τ) ℕ (Pipeline.pin (pcfgs (F := F)) adm1 p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ R c)

/-! ## The kernel calls as segments -/

set_option backward.isDefEq.respectTransparency.types false in
/-- Call 0 over the thread state: its arrays split out of the unscoped buffers at entry and put back at the exit
    contents; the generator register into the invariant and out; nothing owed; no semaphore of its own. -/
def reg0 : Pipeline.RegionSeg (pcfgs (F := F)) adm1 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm1 (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm1 (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: its arrays split out of the unscoped buffers at entry and put back at the exit
    contents; the generator register into the invariant and out; nothing owed; no semaphore of its own. -/
def reg1 : Pipeline.RegionSeg (pcfgs (F := F)) adm1 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm1 (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm1 (F := F) 1).1 ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact h1.trans (hin1 (V2 m ρ) c)
  hout c := by
    rw [Pipeline.ownSems0_none]
    have h2 : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m ρ) c).trans h2
  hexit c := by
    have hjoin := Pipeline.unscopedBufs_of_arrays (p := 1) (pcfgs (F := F)) adm1 (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: its arrays split out of the unscoped buffers at entry and put back at the exit
    contents; the generator register into the invariant and out; nothing owed; no semaphore of its own. -/
def reg2 : Pipeline.RegionSeg (pcfgs (F := F)) adm1 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm1 (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm1 (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm1 (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm1 (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c => by
      show (iprop(StableHlo.held (c : Thread nD τ) (Pipeline.ucRefs τ sig) (W6 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_arg m ρ c main_arg0 (by decide) (by decide) (by decide) (by decide) (by decide) (by decide)),
     (h c _ (mem_uc main_arg1 (by decide))).trans (W6_arg m ρ c main_arg1 (by decide) (by decide) (by decide) (by decide) (by decide) (by decide)),
     (h c _ (mem_uc main_arg2 (by decide))).trans (W6_arg m ρ c main_arg2 (by decide) (by decide) (by decide) (by decide) (by decide) (by decide)),
     (h c _ (mem_uc main_arg3 (by decide))).trans (W6_arg m ρ c main_arg3 (by decide) (by decide) (by decide) (by decide) (by decide) (by decide))⟩) (run_all m ρ)

end Cert.Kernel.Hand

end
-- ==== Proof.IReg0.lean ====
import proofs.«108477_j14860586844639_2_alg».proof.Proof.Gen.KernelIdeal.Launch
import proofs.«108477_j14860586844639_2_alg».proof.Proof.Gen.KernelIdeal.Skeleton
import proofs.«108477_j14860586844639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the fused q/k/v projection, one grid point at a time

The first pallas_call walks a grid of 2 batches by 4 head groups. At a point it is handed one batch row of the
activations (a [1,2048,1024] block) and, for each of q, k and v, the weight rows of four heads (a [4,64,1024]
block); for every head of the group it multiplies the activations by that head's 64 weight rows (contracting
the 1024 features) and stores the [2048,64] product in the head's quarter of the output block [1,4,2048,64].

This module states, for ANY contents `V` of the core's buffers at the region's entry, what each window's
staging buffer holds before and after the body at every grid point, and proves the body's Hoare triple against
that description: the activation block and the three weight blocks are left in place, and each output block is
the overlay of four head slabs, each a pure function of the blocks read.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there
or kept the previous copy because the block index did not move (the activations change only with the batch): for
any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- The whole activation block. -/
abbrev rX0 : Rect S1x2048x1024 := Rect.unit (s := S1x2048x1024) ![0, 0, 0] S1x2048x1024.size inb_S1x2048x1024_S1x2048x1024_0_0_0
/-- Head `h`'s 64 weight rows inside a [4,64,1024] weight block. -/
abbrev rW0_0 : Rect S4x64x1024 := Rect.unit (s := S4x64x1024) ![0, 0, 0] S1x64x1024.size inb_S4x64x1024_S1x64x1024_0_0_0
abbrev rW0_1 : Rect S4x64x1024 := Rect.unit (s := S4x64x1024) ![1, 0, 0] S1x64x1024.size inb_S4x64x1024_S1x64x1024_1_0_0
abbrev rW0_2 : Rect S4x64x1024 := Rect.unit (s := S4x64x1024) ![2, 0, 0] S1x64x1024.size inb_S4x64x1024_S1x64x1024_2_0_0
abbrev rW0_3 : Rect S4x64x1024 := Rect.unit (s := S4x64x1024) ![3, 0, 0] S1x64x1024.size inb_S4x64x1024_S1x64x1024_3_0_0
/-- Head `h`'s [2048,64] slab inside a [1,4,2048,64] output block. -/
abbrev rO0_0 : Rect S1x4x2048x64 := Rect.unit (s := S1x4x2048x64) ![0, 0, 0, 0] S1x1x2048x64.size inb_S1x4x2048x64_S1x1x2048x64_0_0_0_0
abbrev rO0_1 : Rect S1x4x2048x64 := Rect.unit (s := S1x4x2048x64) ![0, 1, 0, 0] S1x1x2048x64.size inb_S1x4x2048x64_S1x1x2048x64_0_1_0_0
abbrev rO0_2 : Rect S1x4x2048x64 := Rect.unit (s := S1x4x2048x64) ![0, 2, 0, 0] S1x1x2048x64.size inb_S1x4x2048x64_S1x1x2048x64_0_2_0_0
abbrev rO0_3 : Rect S1x4x2048x64 := Rect.unit (s := S1x4x2048x64) ![0, 3, 0, 0] S1x1x2048x64.size inb_S1x4x2048x64_S1x1x2048x64_0_3_0_0

/-! ## What the body leaves in each output window's buffer

Each output block is written by four stores, one per head of the group; listed last store first. Every payload is
the product of the activation block (its leading unit axis dropped) with one head's weight rows, rounded to the
output format and given two leading unit axes. -/

/-- The q block after the body, from the activation block `x0` and the q weight block `x1`. -/
def out0_4 (x0 : Vec F S1x2048x1024 .bf16) (x1 : Vec F S4x64x1024 .bf16) : Vec F S1x4x2048x64 .bf16 :=
  View.canon [⟨rO0_3, k0_pay19 (k0_pay3 (View.ld x0 rX0)) (View.ld x1 rW0_3)⟩,
    ⟨rO0_2, k0_pay14 (k0_pay13 (k0_pay3 (View.ld x0 rX0)) (View.ld x1 rW0_2))⟩,
    ⟨rO0_1, k0_pay8 (k0_pay3 (View.ld x0 rX0)) (k0_pay7 (View.ld x1 rW0_1))⟩,
    ⟨rO0_0, k0_pay4 (View.ld x0 rX0) (View.ld x1 rW0_0)⟩]

/-- The k block after the body, from the activation block `x0` and the k weight block `x2`. -/
def out0_5 (x0 : Vec F S1x2048x1024 .bf16) (x2 : Vec F S4x64x1024 .bf16) : Vec F S1x4x2048x64 .bf16 :=
  View.canon [⟨rO0_3, k0_pay1 (k0_pay17 (k0_pay3 (View.ld x0 rX0)) (View.ld x2 rW0_3))⟩,
    ⟨rO0_2, k0_pay15 (k0_pay3 (View.ld x0 rX0)) (k0_pay11 (View.ld x2 rW0_2))⟩,
    ⟨rO0_1, k0_pay9 (k0_pay3 (View.ld x0 rX0)) (View.ld x2 rW0_1)⟩,
    ⟨rO0_0, k0_pay5 (View.ld x0 rX0) (View.ld x2 rW0_0)⟩]

/-- The v block after the body, from the activation block `x0` and the v weight block `x3`. -/
def out0_6 (x0 : Vec F S1x2048x1024 .bf16) (x3 : Vec F S4x64x1024 .bf16) : Vec F S1x4x2048x64 .bf16 :=
  View.canon [⟨rO0_3, k0_pay2 (k0_pay18 (k0_pay3 (View.ld x0 rX0)) (View.ld x3 rW0_3))⟩,
    ⟨rO0_2, k0_pay16 (k0_pay3 (View.ld x0 rX0)) (k0_pay12 (View.ld x3 rW0_2))⟩,
    ⟨rO0_1, k0_pay10 (k0_pay3 (View.ld x0 rX0)) (View.ld x3 rW0_1)⟩,
    ⟨rO0_0, k0_pay6 (View.ld x0 rX0) (View.ld x3 rW0_0)⟩]

/-- The four head slabs tile an output block, whatever they hold: every index of the block lies in one of them. -/
theorem cover0_out (p3 p2 p1 p0 : Vec F S1x1x2048x64 .bf16) (y : S1x4x2048x64.Idx) :
    ∃ pc ∈ ([⟨rO0_3, p3⟩, ⟨rO0_2, p2⟩, ⟨rO0_1, p1⟩, ⟨rO0_0, p0⟩] : List (View.Piece (Elt F) S1x4x2048x64 .bf16)), y ∈ pc.1.set :=
  View.cover_of_tiled [⟨rO0_3, p3⟩, ⟨rO0_2, p2⟩, ⟨rO0_1, p1⟩, ⟨rO0_0, p0⟩] S1x1x2048x64.size (by rfl) y

set_option maxHeartbeats 4000000 in
/-- The body on whole staging buffers: the four inputs at contents `x0 … x3` and the three outputs at anything run, without
    fault, to the continuation holding the inputs as they were and each output at the overlay of its four head slabs. -/
theorem sound_kernel0 (c : Dev nD) (E : Set ℕ) (i : grid0.Coords)
    (arg2 : Memref sig .tc .vmem S1x2048x1024 .bf16) (harg2 : arg2.IsWhole)
    (arg3 : Memref sig .tc .vmem S4x64x1024 .bf16) (harg3 : arg3.IsWhole)
    (arg4 : Memref sig .tc .vmem S4x64x1024 .bf16) (harg4 : arg4.IsWhole)
    (arg5 : Memref sig .tc .vmem S4x64x1024 .bf16) (harg5 : arg5.IsWhole)
    (arg6 : Memref sig .tc .vmem S1x4x2048x64 .bf16) (harg6 : arg6.IsWhole)
    (arg7 : Memref sig .tc .vmem S1x4x2048x64 .bf16) (harg7 : arg7.IsWhole)
    (arg8 : Memref sig .tc .vmem S1x4x2048x64 .bf16) (harg8 : arg8.IsWhole)
    (x0 : Vec F S1x2048x1024 .bf16) (x1 x2 x3 : Vec F S4x64x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E
          (cc0__qkv_proj_kernel i arg2 harg2 arg3 harg3 arg4 harg4 arg5 harg5 arg6 harg6 arg7 harg7 arg8 harg8) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _ _ _ _)
  isplitl [H5]
  · iexists _; isplitr
    swap; · iexact H5
    ipureintro
    exact View.read_writes_eq_canon _ _ _ (cover0_out _ _ _ _)
  iexists _; isplitr
  swap; · iexact H6
  ipureintro
  exact View.read_writes_eq_canon _ _ _ (cover0_out _ _ _ _)

/-! ## The pipeline's proof data -/

/-- The proof data of region 0 on core `c`: the arrays as the region finds them; after the body at point `t` each
    input window's buffer still at its block and each output window's at the overlay of the four head slabs computed
    from the input blocks; the invariant is the untouched rest of the core's memory; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debt, and every window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IReg1Base.lean ====
/-
  The attention region (the second kernel call): what its three control cases share.
  The grid is [2, 4, 4], row-major, so a point's last coordinate (the key/value tile) is its number mod 4.
  The body resets its three carried buffers (running maximum, denominator, numerator) at tile 0, folds one
  tile of 512 keys into them at every tile, and at tile 3 divides numerator by denominator into the output block.
-/
import proofs.«108477_j14860586844639_2_alg».proof.Proof.Gen.KernelIdeal.Launch
import proofs.«108477_j14860586844639_2_alg».proof.Proof.Gen.KernelIdeal.Skeleton
import proofs.«108477_j14860586844639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept from the
    point before (the query block moves only when the head group does). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is the first key/value tile": the reset branch. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last key/value tile": the normalising branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last tile the output window is idle: nothing is stored into it and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1x4x2048x64 .bf16 := (Memref.whole cc1_stg3_0 : Memref sig .tc .vmem S1x4x2048x64 .bf16).view
abbrev ms1_0 (t : Fin cfg1.N) : Memref sig .tc .vmem S1x4x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4x2048x64 .bf16 := win1_3.stage (cfg1.slots t 3)
abbrev hs1_3 (t : Fin cfg1.N) : (ms1_3 t).IsWhole := hstage1_3 ((cfg1.slots t 3).cast nbuf1_3)
/-- The three carried buffers: the running row maximum, the running denominator, the running numerator. -/
abbrev scM1_0 : Memref sig .tc .vmem S4x2048x1 .f32 := Memref.whole cc1_scratch0
abbrev scM1_1 : Memref sig .tc .vmem S4x2048x1 .f32 := Memref.whole cc1_scratch1
abbrev scM1_2 : Memref sig .tc .vmem S4x2048x64 .f32 := Memref.whole cc1_scratch2
abbrev VS1_0 : View sig .tc .vmem S4x2048x1 .f32 := scM1_0.view
abbrev VS1_1 : View sig .tc .vmem S4x2048x1 .f32 := scM1_1.view
abbrev VS1_2 : View sig .tc .vmem S4x2048x64 .f32 := scM1_2.view

/-- Every other scoped buffer of the core (the other two calls' staging buffers), at some contents each: carried through
    this region unopened. -/
abbrev otherScoped (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region's invariant before its first point, with the three carried buffers taken out as memrefs owned at some
    contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ otherScoped c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole, bigSepL]
  try rfl

end Cert.KernelIdeal.Hand

end
-- ==== Proof.IReg1A.lean ====
/-
  The attention body run whole at the FIRST key/value tile (the reset branch taken, the normalising branch not): what its stores leave in the three carried buffers,
  as pieces, with the triple that says so. The pieces are whatever the run finds; later modules read them back.
-/
import proofs.«108477_j14860586844639_2_alg».proof.Proof.IReg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the query, key and value blocks at their contents, the output block untouched (idle here), the carried
    buffers at anything (they are overwritten before they are read) — the body runs to its return, handing the input blocks back
    as they were and each buffer it stored into with its pieces written. -/
noncomputable def kernelRun1_A (c : Dev nD) (i : grid1.Coords) (arg3 : Memref sig .tc .vmem S1x4x2048x64 .bf16) (harg3 : arg3.IsWhole) (arg4 : Memref sig .tc .vmem S1x4x512x64 .bf16) (harg4 : arg4.IsWhole) (arg5 : Memref sig .tc .vmem S1x4x512x64 .bf16) (harg5 : arg5.IsWhole) (arg6 : Memref sig .tc .vmem S1x4x2048x64 .bf16) (harg6 : arg6.IsWhole) (arg7 : Memref sig .tc .vmem S4x2048x1 .f32) (harg7 : arg7.IsWhole) (arg8 : Memref sig .tc .vmem S4x2048x1 .f32) (harg8 : arg8.IsWhole) (arg9 : Memref sig .tc .vmem S4x2048x64 .f32) (harg9 : arg9.IsWhole) (hc0 : cond1_0 i) (hc1 : ¬cond1_1 i)
    (x0 : Vec F S1x4x2048x64 .bf16) (x1 : Vec F S1x4x512x64 .bf16) (x2 : Vec F S1x4x512x64 .bf16) :
    Σ' (LS0 : List (View.Piece (Elt F) S4x2048x1 .f32)) (LS1 : List (View.Piece (Elt F) S4x2048x1 .f32)), { LS2 : List (View.Piece (Elt F) S4x2048x64 .f32) //
      ∀ (xi3 : Vec F S1x4x2048x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3

    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.IReg1B.lean ====
/-
  The attention body run whole at a MIDDLE key/value tile (neither branch taken): what its stores leave in the three carried buffers,
  as pieces, with the triple that says so. The pieces are whatever the run finds; later modules read them back.
-/
import proofs.«108477_j14860586844639_2_alg».proof.Proof.IReg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the query, key and value blocks at their contents, the output block untouched (idle here), the carried
    buffers at what the point before left — the body runs to its return, handing the input blocks back
    as they were and each buffer it stored into with its pieces written. -/
noncomputable def kernelRun1_B (c : Dev nD) (i : grid1.Coords) (arg3 : Memref sig .tc .vmem S1x4x2048x64 .bf16) (harg3 : arg3.IsWhole) (arg4 : Memref sig .tc .vmem S1x4x512x64 .bf16) (harg4 : arg4.IsWhole) (arg5 : Memref sig .tc .vmem S1x4x512x64 .bf16) (harg5 : arg5.IsWhole) (arg6 : Memref sig .tc .vmem S1x4x2048x64 .bf16) (harg6 : arg6.IsWhole) (arg7 : Memref sig .tc .vmem S4x2048x1 .f32) (harg7 : arg7.IsWhole) (arg8 : Memref sig .tc .vmem S4x2048x1 .f32) (harg8 : arg8.IsWhole) (arg9 : Memref sig .tc .vmem S4x2048x64 .f32) (harg9 : arg9.IsWhole) (hc0 : ¬cond1_0 i) (hc1 : ¬cond1_1 i)
    (x0 : Vec F S1x4x2048x64 .bf16) (x1 : Vec F S1x4x512x64 .bf16) (x2 : Vec F S1x4x512x64 .bf16) (xs0 : Vec F S4x2048x1 .f32) (xs1 : Vec F S4x2048x1 .f32) (xs2 : Vec F S4x2048x64 .f32) :
    Σ' (LS0 : List (View.Piece (Elt F) S4x2048x1 .f32)) (LS1 : List (View.Piece (Elt F) S4x2048x1 .f32)), { LS2 : List (View.Piece (Elt F) S4x2048x64 .f32) //
      ∀ (xi3 : Vec F S1x4x2048x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.IReg1C.lean ====
/-
  The attention body run whole at the LAST key/value tile (the normalising branch taken, the reset branch not): what its stores leave in the three carried buffers and in the output block,
  as pieces, with the triple that says so. The pieces are whatever the run finds; later modules read them back.
-/
import proofs.«108477_j14860586844639_2_alg».proof.Proof.IReg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the query, key and value blocks at their contents, the output block at anything, the carried
    buffers at what the point before left — the body runs to its return, handing the input blocks back
    as they were and each buffer it stored into with its pieces written. -/
noncomputable def kernelRun1_C (c : Dev nD) (i : grid1.Coords) (arg3 : Memref sig .tc .vmem S1x4x2048x64 .bf16) (harg3 : arg3.IsWhole) (arg4 : Memref sig .tc .vmem S1x4x512x64 .bf16) (harg4 : arg4.IsWhole) (arg5 : Memref sig .tc .vmem S1x4x512x64 .bf16) (harg5 : arg5.IsWhole) (arg6 : Memref sig .tc .vmem S1x4x2048x64 .bf16) (harg6 : arg6.IsWhole) (arg7 : Memref sig .tc .vmem S4x2048x1 .f32) (harg7 : arg7.IsWhole) (arg8 : Memref sig .tc .vmem S4x2048x1 .f32) (harg8 : arg8.IsWhole) (arg9 : Memref sig .tc .vmem S4x2048x64 .f32) (harg9 : arg9.IsWhole) (hc0 : ¬cond1_0 i) (hc1 : cond1_1 i)
    (x0 : Vec F S1x4x2048x64 .bf16) (x1 : Vec F S1x4x512x64 .bf16) (x2 : Vec F S1x4x512x64 .bf16) (xs0 : Vec F S4x2048x1 .f32) (xs1 : Vec F S4x2048x1 .f32) (xs2 : Vec F S4x2048x64 .f32) :
    Σ' (L3 : List (View.Piece (Elt F) S1x4x2048x64 .bf16)) (LS0 : List (View.Piece (Elt F) S4x2048x1 .f32)) (LS1 : List (View.Piece (Elt F) S4x2048x1 .f32)), { LS2 : List (View.Piece (Elt F) S4x2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2

    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.IReg1.lean ====
/-
  The attention region: what its carried buffers and its output block hold point by point, its proof data and its
  body obligation. A point's key/value tile is its number mod 4. At tile 0 the body starts the three carried buffers
  afresh and folds the tile in; at tiles 1 and 2 it folds the tile into what the point before left; at tile 3 it folds
  the tile in and stores numerator / denominator into the output block, the only point of the four that writes it back.
-/
import proofs.«108477_j14860586844639_2_alg».proof.Proof.IReg1A
import proofs.«108477_j14860586844639_2_alg».proof.Proof.IReg1B
import proofs.«108477_j14860586844639_2_alg».proof.Proof.IReg1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces read back -/

section Cases
variable (c : Dev nD) (i : grid1.Coords) (arg3 : Memref sig .tc .vmem S1x4x2048x64 .bf16) (harg3 : arg3.IsWhole) (arg4 : Memref sig .tc .vmem S1x4x512x64 .bf16) (harg4 : arg4.IsWhole) (arg5 : Memref sig .tc .vmem S1x4x512x64 .bf16) (harg5 : arg5.IsWhole) (arg6 : Memref sig .tc .vmem S1x4x2048x64 .bf16) (harg6 : arg6.IsWhole) (arg7 : Memref sig .tc .vmem S4x2048x1 .f32) (harg7 : arg7.IsWhole) (arg8 : Memref sig .tc .vmem S4x2048x1 .f32) (harg8 : arg8.IsWhole) (arg9 : Memref sig .tc .vmem S4x2048x64 .f32) (harg9 : arg9.IsWhole)
  (x0 : Vec F S1x4x2048x64 .bf16) (x1 : Vec F S1x4x512x64 .bf16) (x2 : Vec F S1x4x512x64 .bf16)

/-- The run of the first-tile case, named. -/
abbrev rA (hc0 : cond1_0 i) (hc1 : ¬cond1_1 i) := kernelRun1_A (F := F) c i arg3 harg3 arg4 harg4 arg5 harg5 arg6 harg6 arg7 harg7 arg8 harg8 arg9 harg9 hc0 hc1 x0 x1 x2
theorem scover1_A_0 (hc0 : cond1_0 i) (hc1 : ¬cond1_1 i) (y : S4x2048x1.Idx) : ∃ pc ∈ (rA c i arg3 harg3 arg4 harg4 arg5 harg5 arg6 harg6 arg7 harg7 arg8 harg8 arg9 harg9 x0 x1 x2 hc0 hc1).1, y ∈ pc.1.set :=
  View.cover_of_tiledL _ S4x2048x1.size (by sl_kernel_rfl) y
theorem scover1_A_1 (hc0 : cond1_0 i) (hc1 : ¬cond1_1 i) (y : S4x2048x1.Idx) : ∃ pc ∈ (rA c i arg3 harg3 arg4 harg4 arg5 harg5 arg6 harg6 arg7 harg7 arg8 harg8 arg9 harg9 x0 x1 x2 hc0 hc1).2.1, y ∈ pc.1.set :=
  View.cover_of_tiledL _ S4x2048x1.size (by sl_kernel_rfl) y
theorem scover1_A_2 (hc0 : cond1_0 i) (hc1 : ¬cond1_1 i) (y : S4x2048x64.Idx) : ∃ pc ∈ (rA c i arg3 harg3 arg4 harg4 arg5 harg5 arg6 harg6 arg7 harg7 arg8 harg8 arg9 harg9 x0 x1 x2 hc0 hc1).2.2.1, y ∈ pc.1.set :=
  View.cover_of_tiledL _ S4x2048x64.size (by sl_kernel_rfl) y
/-- What the first-tile case leaves in the running maximum, the denominator and the numerator. -/
def sout1_A_0 (hc0 : cond1_0 i) (hc1 : ¬cond1_1 i) : Vec F S4x2048x1 .f32 :=
  VS1_0.read (Elt F) (VS1_0.writes (Elt F) VS1_0.junk (rA c i arg3 harg3 arg4 harg4 arg5 harg5 arg6 harg6 arg7 harg7 arg8 harg8 arg9 harg9 x0 x1 x2 hc0 hc1).1)
def sout1_A_1 (hc0 : cond1_0 i) (hc1 : ¬cond1_1 i) : Vec F S4x2048x1 .f32 :=
  VS1_1.read (Elt F) (VS1_1.writes (Elt F) VS1_1.junk (rA c i arg3 harg3 arg4 harg4 arg5 harg5 arg6 harg6 arg7 harg7 arg8 harg8 arg9 harg9 x0 x1 x2 hc0 hc1).2.1)
def sout1_A_2 (hc0 : cond1_0 i) (hc1 : ¬cond1_1 i) : Vec F S4x2048x64 .f32 :=
  VS1_2.read (Elt F) (VS1_2.writes (Elt F) VS1_2.junk (rA c i arg3 harg3 arg4 harg4 arg5 harg5 arg6 harg6 arg7 harg7 arg8 harg8 arg9 harg9 x0 x1 x2 hc0 hc1).2.2.1)

variable (xs0 : Vec F S4x2048x1 .f32) (xs1 : Vec F S4x2048x1 .f32) (xs2 : Vec F S4x2048x64 .f32)

/-- The run of the middle-tile case, named. -/
abbrev rB (hc0 : ¬cond1_0 i) (hc1 : ¬cond1_1 i) := kernelRun1_B (F := F) c i arg3 harg3 arg4 harg4 arg5 harg5 arg6 harg6 arg7 harg7 arg8 harg8 arg9 harg9 hc0 hc1 x0 x1 x2 xs0 xs1 xs2
theorem scover1_B_0 (hc0 : ¬cond1_0 i) (hc1 : ¬cond1_1 i) (y : S4x2048x1.Idx) : ∃ pc ∈ (rB c i arg3 harg3 arg4 harg4 arg5 harg5 arg6 harg6 arg7 harg7 arg8 harg8 arg9 harg9 x0 x1 x2 xs0 xs1 xs2 hc0 hc1).1, y ∈ pc.1.set :=
  View.cover_of_tiledL _ S4x2048x1.size (by sl_kernel_rfl) y
theorem scover1_B_1 (hc0 : ¬cond1_0 i) (hc1 : ¬cond1_1 i) (y : S4x2048x1.Idx) : ∃ pc ∈ (rB c i arg3 harg3 arg4 harg4 arg5 harg5 arg6 harg6 arg7 harg7 arg8 harg8 arg9 harg9 x0 x1 x2 xs0 xs1 xs2 hc0 hc1).2.1, y ∈ pc.1.set :=
  View.cover_of_tiledL _ S4x2048x1.size (by sl_kernel_rfl) y
theorem scover1_B_2 (hc0 : ¬cond1_0 i) (hc1 : ¬cond1_1 i) (y : S4x2048x64.Idx) : ∃ pc ∈ (rB c i arg3 harg3 arg4 harg4 arg5 harg5 arg6 harg6 arg7 harg7 arg8 harg8 arg9 harg9 x0 x1 x2 xs0 xs1 xs2 hc0 hc1).2.2.1, y ∈ pc.1.set :=
  View.cover_of_tiledL _ S4x2048x64.size (by sl_kernel_rfl) y
def sout1_B_0 (hc0 : ¬cond1_0 i) (hc1 : ¬cond1_1 i) : Vec F S4x2048x1 .f32 :=
  VS1_0.read (Elt F) (VS1_0.writes (Elt F) VS1_0.junk (rB c i arg3 harg3 arg4 harg4 arg5 harg5 arg6 harg6 arg7 harg7 arg8 harg8 arg9 harg9 x0 x1 x2 xs0 xs1 xs2 hc0 hc1).1)
def sout1_B_1 (hc0 : ¬cond1_0 i) (hc1 : ¬cond1_1 i) : Vec F S4x2048x1 .f32 :=
  VS1_1.read (Elt F) (VS1_1.writes (Elt F) VS1_1.junk (rB c i arg3 harg3 arg4 harg4 arg5 harg5 arg6 harg6 arg7 harg7 arg8 harg8 arg9 harg9 x0 x1 x2 xs0 xs1 xs2 hc0 hc1).2.1)
def sout1_B_2 (hc0 : ¬cond1_0 i) (hc1 : ¬cond1_1 i) : Vec F S4x2048x64 .f32 :=
  VS1_2.read (Elt F) (VS1_2.writes (Elt F) VS1_2.junk (rB c i arg3 harg3 arg4 harg4 arg5 harg5 arg6 harg6 arg7 harg7 arg8 harg8 arg9 harg9 x0 x1 x2 xs0 xs1 xs2 hc0 hc1).2.2.1)

/-- The run of the last-tile case, named. -/
abbrev rC (hc0 : ¬cond1_0 i) (hc1 : cond1_1 i) := kernelRun1_C (F := F) c i arg3 harg3 arg4 harg4 arg5 harg5 arg6 harg6 arg7 harg7 arg8 harg8 arg9 harg9 hc0 hc1 x0 x1 x2 xs0 xs1 xs2
theorem cover1_C_3 (hc0 : ¬cond1_0 i) (hc1 : cond1_1 i) (y : S1x4x2048x64.Idx) : ∃ pc ∈ (rC c i arg3 harg3 arg4 harg4 arg5 harg5 arg6 harg6 arg7 harg7 arg8 harg8 arg9 harg9 x0 x1 x2 xs0 xs1 xs2 hc0 hc1).1, y ∈ pc.1.set :=
  View.cover_of_tiledL _ S1x4x2048x64.size (by sl_kernel_rfl) y
theorem scover1_C_0 (hc0 : ¬cond1_0 i) (hc1 : cond1_1 i) (y : S4x2048x1.Idx) : ∃ pc ∈ (rC c i arg3 harg3 arg4 harg4 arg5 harg5 arg6 harg6 arg7 harg7 arg8 harg8 arg9 harg9 x0 x1 x2 xs0 xs1 xs2 hc0 hc1).2.1, y ∈ pc.1.set :=
  View.cover_of_tiledL _ S4x2048x1.size (by sl_kernel_rfl) y
theorem scover1_C_1 (hc0 : ¬cond1_0 i) (hc1 : cond1_1 i) (y : S4x2048x1.Idx) : ∃ pc ∈ (rC c i arg3 harg3 arg4 harg4 arg5 harg5 arg6 harg6 arg7 harg7 arg8 harg8 arg9 harg9 x0 x1 x2 xs0 xs1 xs2 hc0 hc1).2.2.1, y ∈ pc.1.set :=
  View.cover_of_tiledL _ S4x2048x1.size (by sl_kernel_rfl) y
theorem scover1_C_2 (hc0 : ¬cond1_0 i) (hc1 : cond1_1 i) (y : S4x2048x64.Idx) : ∃ pc ∈ (rC c i arg3 harg3 arg4 harg4 arg5 harg5 arg6 harg6 arg7 harg7 arg8 harg8 arg9 harg9 x0 x1 x2 xs0 xs1 xs2 hc0 hc1).2.2.2.1, y ∈ pc.1.set :=
  View.cover_of_tiledL _ S4x2048x64.size (by sl_kernel_rfl) y
/-- What the last-tile case leaves in the output block: numerator over denominator. -/
def out1_C_3 (hc0 : ¬cond1_0 i) (hc1 : cond1_1 i) : Vec F S1x4x2048x64 .bf16 :=
  VO1_3.read (Elt F) (VO1_3.writes (Elt F) VO1_3.junk (rC c i arg3 harg3 arg4 harg4 arg5 harg5 arg6 harg6 arg7 harg7 arg8 harg8 arg9 harg9 x0 x1 x2 xs0 xs1 xs2 hc0 hc1).1)
def sout1_C_0 (hc0 : ¬cond1_0 i) (hc1 : cond1_1 i) : Vec F S4x2048x1 .f32 :=
  VS1_0.read (Elt F) (VS1_0.writes (Elt F) VS1_0.junk (rC c i arg3 harg3 arg4 harg4 arg5 harg5 arg6 harg6 arg7 harg7 arg8 harg8 arg9 harg9 x0 x1 x2 xs0 xs1 xs2 hc0 hc1).2.1)
def sout1_C_1 (hc0 : ¬cond1_0 i) (hc1 : cond1_1 i) : Vec F S4x2048x1 .f32 :=
  VS1_1.read (Elt F) (VS1_1.writes (Elt F) VS1_1.junk (rC c i arg3 harg3 arg4 harg4 arg5 harg5 arg6 harg6 arg7 harg7 arg8 harg8 arg9 harg9 x0 x1 x2 xs0 xs1 xs2 hc0 hc1).2.2.1)
def sout1_C_2 (hc0 : ¬cond1_0 i) (hc1 : cond1_1 i) : Vec F S4x2048x64 .f32 :=
  VS1_2.read (Elt F) (VS1_2.writes (Elt F) VS1_2.junk (rC c i arg3 harg3 arg4 harg4 arg5 harg5 arg6 harg6 arg7 harg7 arg8 harg8 arg9 harg9 x0 x1 x2 xs0 xs1 xs2 hc0 hc1).2.2.2.1)

end Cases

/-! ## What the buffers hold after each point -/

variable (V : (c : Dev nD) → (b : Ref sig .tc) → Buf (Elt F) ((c : Thread nD τ).loc b))

/-- After a point: the output block, the running maximum, the denominator, the numerator. -/
abbrev St (F : FTy → Type) [FloatOps F] : Type :=
  Vec F S1x4x2048x64 .bf16 × Vec F S4x2048x1 .f32 × Vec F S4x2048x1 .f32 × Vec F S4x2048x64 .f32

theorem nC0 (t : Fin cfg1.N) (h : t.val % 4 ≠ 0) : ¬cond1_0 (grid1.coords t) := fun hh => h ((hcond1_0 t).mp hh)
theorem nC1 (t : Fin cfg1.N) (h : t.val % 4 ≠ 3) : ¬cond1_1 (grid1.coords t) := fun hh => h ((hcond1_1 t).mp hh)

/-- A first-tile point: the carried buffers start afresh from the point's blocks; the output block is not touched
    (a placeholder nothing reads). -/
def stA (c : Dev nD) (t : Fin cfg1.N) (h0 : t.val % 4 = 0) : St F :=
  (VO1_3.read (Elt F) VO1_3.junk,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) ((hcond1_0 t).mpr h0) (nC1 t (by omega)),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) ((hcond1_0 t).mpr h0) (nC1 t (by omega)),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) ((hcond1_0 t).mpr h0) (nC1 t (by omega)))
/-- A middle-tile point: the point's tile folded into what the point before left. -/
def stB (c : Dev nD) (t : Fin cfg1.N) (h0 : t.val % 4 ≠ 0) (h1 : t.val % 4 ≠ 3) (p : St F) : St F :=
  (VO1_3.read (Elt F) VO1_3.junk,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) (nC1 t h1),
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) (nC1 t h1),
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) (nC1 t h1))
/-- A last-tile point: the tile folded in, and the quotient stored into the output block. -/
def stC (c : Dev nD) (t : Fin cfg1.N) (h0 : t.val % 4 ≠ 0) (h1 : t.val % 4 = 3) (p : St F) : St F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) ((hcond1_1 t).mpr h1),
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) ((hcond1_1 t).mpr h1),
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) ((hcond1_1 t).mpr h1),
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) p.2.1 p.2.2.1 p.2.2.2 (nC0 t h0) ((hcond1_1 t).mpr h1))

/-- THE ACCUMULATION over the grid, by recursion on the point's number. -/
def outsAt1 (c : Dev nD) : (n : ℕ) → n < cfg1.N → St F
  | 0, hn => stA V c ⟨0, hn⟩ (Nat.zero_mod 4)
  | n + 1, hn =>
    if h0 : (n + 1) % 4 = 0 then stA V c ⟨n + 1, hn⟩ h0
    else if h1 : (n + 1) % 4 = 3 then stC V c ⟨n + 1, hn⟩ h0 h1 (outsAt1 c n (Nat.lt_of_succ_lt hn))
    else stB V c ⟨n + 1, hn⟩ h0 h1 (outsAt1 c n (Nat.lt_of_succ_lt hn))

theorem outsAt1_A (c : Dev nD) (t : Fin cfg1.N) (h0 : t.val % 4 = 0) : outsAt1 V c t.val t.isLt = stA V c t h0 := by
  obtain ⟨n, hn⟩ := t
  cases n with
  | zero => exact rfl
  | succ n => exact dif_pos h0
theorem outsAt1_B (c : Dev nD) (t : Fin cfg1.N) (h0 : t.val % 4 ≠ 0) (h1 : t.val % 4 ≠ 3) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans (dif_neg h1)
theorem outsAt1_C (c : Dev nD) (t : Fin cfg1.N) (h0 : t.val % 4 ≠ 0) (h1 : t.val % 4 = 3) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans (dif_pos h1)

/-! ## The invariant between points -/

/-- Before the first point the three carried buffers hold anything; before any later point they hold what the point
    before left. The other calls' scoped buffers and the generator register ride along. -/
def PhiS (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ otherScoped c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ otherScoped c) ∗ (∃ r, prngReg c r)) := rfl
theorem PhiS_pos (c : Dev nD) (n : ℕ) (h : n ≤ cfg1.N) (hz : n ≠ 0) :
    PhiS V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ otherScoped c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the input windows hold their blocks; the point's tile says which case it is in; the invariant
    hands the body the carried buffers at what the point before left (at anything before the first point) and takes them
    back at this point's contents; the output block is stored, and written back, only at a last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · have h1 : t.val % 4 ≠ 3 := by omega
    rw [Dat.leavesExact_idle (dat1 V c) 3 t (idleAt1_3 t (nC1 t h1)) (noFlush1_3 t (nC1 t h1))]
    rw [outsAt1_A V c t h0]
    unfold stA sout1_A_0 sout1_A_1 sout1_A_2; (try dsimp only)
    by_cases hz : t.val = 0
    · rw [PhiS_castSucc V c t, PhiS_zero V c _ _ hz, PhiA1_eq]
      iintro ⟨⟨⟨⟨HS0, HS1, HS2⟩, Hoth⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (nC1 t h1) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      · isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · rw [PhiS_castSucc V c t, PhiS_pos V c _ _ hz]
      iintro ⟨⟨⟨⟨HS0, HS1, HS2⟩, Hoth⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (nC1 t h1) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      · isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold stC out1_C_3 sout1_C_0 sout1_C_1 sout1_C_2; (try dsimp only)
      rw [PhiS_castSucc V c t, PhiS_pos V c _ _ hz]
      iintro ⟨⟨⟨⟨HS0, HS1, HS2⟩, Hoth⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (nC0 t h0) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      · isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (nC1 t h1)) (noFlush1_3 t (nC1 t h1))]
      rw [outsAt1_B V c t h0 h1]
      unfold stB sout1_B_0 sout1_B_1 sout1_B_2; (try dsimp only)
      rw [PhiS_castSucc V c t, PhiS_pos V c _ _ hz]
      iintro ⟨⟨⟨⟨HS0, HS1, HS2⟩, Hoth⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (nC0 t h0) (nC1 t h1) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      · isplitl [HS0 HS1 HS2 Hoth Hg]
        · isplitl [HS0 HS1 HS2 Hoth]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's back: what the carried buffers hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

end Cert.KernelIdeal.Hand

end
-- ==== Proof.IReg2.lean ====
import proofs.«108477_j14860586844639_2_alg».proof.Proof.Gen.KernelIdeal.Launch
import proofs.«108477_j14860586844639_2_alg».proof.Proof.Gen.KernelIdeal.Skeleton
import proofs.«108477_j14860586844639_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the output projection with bias, one grid point at a time

The third pallas_call walks a grid of 8 row blocks. At a point it is handed 512 rows of the attention output (a
[512,1024] block), the whole output weight matrix [1024,1024] and the bias row [1,1024]; it multiplies the rows by
the transposed weights (contracting the 1024 features), adds the bias to every row, and stores the [512,1024]
result as the point's output block.

This module states, for ANY contents `V` of the core's buffers at the region's entry, what each window's staging
buffer holds before and after the body at every grid point, and proves the body's Hoare triple against that
description: the three inputs are left in place and the output block is one pure function of the blocks read.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there
or kept the previous copy because the block index did not move (the weights and the bias are fetched once): for
any proof data over the arrays `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

abbrev rA2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-! ## What the body leaves in the output window's buffer -/

/-- The output block after the body, from the row block `x0`, the weights `x1` and the bias row `x2`: its one store. -/
def out2_3 (x0 : Vec F S512x1024 .bf16) (x1 : Vec F S1024x1024 .bf16) (x2 : Vec F S1x1024 .f32) : Vec F S512x1024 .f32 :=
  View.canon [⟨rA2, k2_pay1 (View.ld x0 rA2) (View.ld x1 rW2) (View.ld x2 rB2)⟩]

/-- The store fills the whole block. -/
theorem cover2_3 (p0 : Vec F S512x1024 .f32) (y : S512x1024.Idx) :
    ∃ pc ∈ ([⟨rA2, p0⟩] : List (View.Piece (Elt F) S512x1024 .f32)), y ∈ pc.1.set :=
  View.cover_of_tiled [⟨rA2, p0⟩] S512x1024.size (by rfl) y

/-! ## The body's triple -/

set_option maxHeartbeats 4000000 in
/-- The body on whole staging buffers: the three inputs at contents `x0 x1 x2` and the output at anything run, without
    fault, to the continuation holding the inputs as they were and the output at `out2_3` of them. -/
theorem sound_kernel2 (c : Dev nD) (E : Set ℕ) (i : grid2.Coords)
    (arg2 : Memref sig .tc .vmem S512x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S512x1024 .f32) (harg5 : arg5.IsWhole)
    (x0 : Vec F S512x1024 .bf16) (x1 : Vec F S1024x1024 .bf16) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out2_3 x0 x1 x2)) -∗ K ⟨⟩))
      ⊢ wp frame (wpE (defs₀ (F := F)) Variants.none c none) E
          (cc2__linear_bias_kernel i arg2 harg2 arg3 harg3 arg4 harg4 arg5 harg5) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of region 2 on core `c`: the arrays as the region finds them; after the body at point `t` each
    input window's buffer still at its block and the output window's at `out2_3` of the input blocks; the invariant is
    the untouched rest of the core's memory; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debt, and every window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _
    (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IRun.lean ====
/-
  The whole program as a run: the buffer contents at every boundary between a stretch of host operations and a kernel
  call, the three kernel calls as segments entered from and left at those contents, and the launch: every weakly fair
  execution ends, nothing faulting, with every unscoped buffer at the last boundary's contents. The frame (the four
  argument arrays end as launched) is read off that.
-/
import proofs.«108477_j14860586844639_2_alg».proof.Proof.IReg0
import proofs.«108477_j14860586844639_2_alg».proof.Proof.IReg1
import proofs.«108477_j14860586844639_2_alg».proof.Proof.IReg2
import proofs.«108477_j14860586844639_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (casts, the three slices of the fused weight and their reshapes): the projection
    call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection call: its three outputs at what its write-backs leave. The attention call's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention call: its output at what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the second host stretch (the heads merged back into columns, the bias as a row): the output projection's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the output projection. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the last host operation (the result reshaped to three axes): the end. -/
abbrev W6 : Dev nD → Valuation τ sig (Elt F) := fun c => StableHlo.after hostOps3 (W5 m ρ c)

/-! ### No stretch and no call writes an argument array -/

theorem W6_arg (c : Dev nD) (r : Ref sig .tc) (h0 : r ∉ hostOps0_W) (h2 : r ∉ hostOps2_W) (h3 : r ∉ hostOps3_W)
    (k0 : ∀ w, Pipeline.arrRef spec0 w ≠ r) (k1 : ∀ w, Pipeline.arrRef spec1 w ≠ r) (k2 : ∀ w, Pipeline.arrRef spec2 w ≠ r) :
    W6 m ρ c (Proc.devRef .tc r) = m ((c : Thread nD τ).loc r) :=
  calc W6 m ρ c (Proc.devRef .tc r)
    _ = W5 m ρ c (Proc.devRef .tc r) := StableHlo.after_of_writes_sub hostOps3 _ hostOps3_writes h3
    _ = W4 m ρ c (Proc.devRef .tc r) := W5_of_ne m ρ c r k2
    _ = W3 m ρ c (Proc.devRef .tc r) := StableHlo.after_of_writes_sub hostOps2 _ hostOps2_writes h2
    _ = W2 m ρ c (Proc.devRef .tc r) := W3_of_ne m ρ c r k1
    _ = W1 m ρ c (Proc.devRef .tc r) := W2_of_ne m ρ c r k0
    _ = W0 m ρ c (Proc.devRef .tc r) := StableHlo.after_of_writes_sub hostOps0 _ hostOps0_writes h0
    _ = m ((c : Thread nD τ).loc r) := rfl

/-! ## The proof data family and the thread state -/

abbrev adm1 : (p : Fin 3) → (pcfgs (F := F) p).Adm := fun p => (cfgs p).toPCfg_adm
/-- Every call's proof data, each at its own entry contents. -/
def pdats : (p : Fin 3) → (c : Dev nD) → Dat τ (Elt F) Unit ℕ (UR sig nD τ) ℕ (Pipeline.pin (pcfgs (F := F)) adm1 p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ R c)

/-! ## The kernel calls as segments -/

set_option backward.isDefEq.respectTransparency.types false in
/-- Call 0 over the thread state: its arrays split out of the unscoped buffers at entry and put back at the exit
    contents; the generator register into the invariant and out; nothing owed; no semaphore of its own. -/
def reg0 : Pipeline.RegionSeg (pcfgs (F := F)) adm1 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm1 (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm1 (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: its arrays split out of the unscoped buffers at entry and put back at the exit
    contents; the generator register into the invariant and out; nothing owed; no semaphore of its own. -/
def reg1 : Pipeline.RegionSeg (pcfgs (F := F)) adm1 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm1 (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm1 (F := F) 1).1 ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact h1.trans (hin1 (V2 m ρ) c)
  hout c := by
    rw [Pipeline.ownSems0_none]
    have h2 : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m ρ) c).trans h2
  hexit c := by
    have hjoin := Pipeline.unscopedBufs_of_arrays (p := 1) (pcfgs (F := F)) adm1 (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: its arrays split out of the unscoped buffers at entry and put back at the exit
    contents; the generator register into the invariant and out; nothing owed; no semaphore of its own. -/
def reg2 : Pipeline.RegionSeg (pcfgs (F := F)) adm1 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm1 (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm1 (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm1 (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm1 (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c => by
      show (iprop(StableHlo.held (c : Thread nD τ) (Pipeline.ucRefs τ sig) (W6 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_arg m ρ c main_arg0 (by decide) (by decide) (by decide) (by decide) (by decide) (by decide)),
     (h c _ (mem_uc main_arg1 (by decide))).trans (W6_arg m ρ c main_arg1 (by decide) (by decide) (by decide) (by decide) (by decide) (by decide)),
     (h c _ (mem_uc main_arg2 (by decide))).trans (W6_arg m ρ c main_arg2 (by decide) (by decide) (by decide) (by decide) (by decide) (by decide)),
     (h c _ (mem_uc main_arg3 (by decide))).trans (W6_arg m ρ c main_arg3 (by decide) (by decide) (by decide) (by decide) (by decide) (by decide))⟩) (run_all m ρ)

end Cert.KernelIdeal.Hand

end
-- ==== Proof.LibDot.lean ====
/-
  A matrix product with one contracted axis, read at an entry as a sum over that axis's coordinate.

  A contraction's index set is a shape of rank one here; the sum over it is the sum over `Fin K` once each operand's index
  at contraction position `k` is named by the coordinate of `k` (`contr_sum`).  The hypotheses ask for each operand
  index as a function of that coordinate, which the dimension numbers of a literal product give by computation.
-/
import Idealize.ShloMosaic.PureOps.Ideal.Laws
import Idealize.ShloMosaic.Lib.ValueIdx

noncomputable section

namespace Cert.LibDot

open Idealize.ShloMosaic Idealize.ShloMosaic.ValueIdx
open scoped BigOperators

/-- The contraction sum of a product whose dimension numbers contract ONE axis of extent `K`, as a sum over `Fin K`:
    `L q` and `R q` are the operands' indices at a contraction position whose coordinate is `q`. -/
theorem contr_sum {sl sr so : Shape} (D : DotDims sl sr so) (K : ℕ) (hr : D.contr.rank = 1)
    (hs : D.contr.size ⟨0, by omega⟩ = K) (lhs : sl.Idx → EReal) (rhs : sr.Idx → EReal) (j : so.Idx)
    (L : Fin K → sl.Idx) (R : Fin K → sr.Idx)
    (hL : ∀ (k : D.contr.Idx) (q : Fin K), (k ⟨0, by omega⟩).val = q.val → D.lhsIdx j k = L q)
    (hR : ∀ (k : D.contr.Idx) (q : Fin K), (k ⟨0, by omega⟩).val = q.val → D.rhsIdx j k = R q) :
    ∑ k : D.contr.Idx, lhs (D.lhsIdx j k) * rhs (D.rhsIdx j k) = ∑ q : Fin K, lhs (L q) * rhs (R q) := by
  rw [← Equiv.sum_comp (contrEquiv1 D K hr hs).symm (fun k => lhs (D.lhsIdx j k) * rhs (D.rhsIdx j k))]
  refine Finset.sum_congr rfl fun q _ => ?_
  rw [hL _ q (contrEquiv1_symm_val D K hr hs q), hR _ q (contrEquiv1_symm_val D K hr hs q)]

end Cert.LibDot

end
-- ==== Proof.IVal0.lean ====
import proofs.«108477_j14860586844639_2_alg».proof.Proof.IReg0
import proofs.«108477_j14860586844639_2_alg».proof.Proof.LibDot
import Idealize.ShloMosaic.Lib.Pipeline.Value
import Idealize.ShloMosaic.PureOps.Ideal.Laws
import Idealize.ShloMosaic.Lib.ValueIdx
import Idealize.ShloMosaic.Lib.Tactic

/-!
# Region 0 read as values: the three projections as sums

Over the extended reals every float operation of the body is the exact one and a change of format is the identity, so
a head's slab is the plain matrix product of the activation rows with that head's weight rows. This module reads
each payload at an entry, glues the four head slabs of a block into one function of the two blocks read, and then
the blocks of all eight grid points into one function of the two arrays: entry (b, h, n, d) of each output array is
the sum over the 1024 features k of `X (b, n, k) * W (h, d, k)`.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- Activations times one head's transposed weight rows: entry (b, h, n, d) is the sum over the 1024 features of
    `X (b, n, k) * W (h, d, k)`. -/
def headProj (X : S2x2048x1024.Idx → EReal) (W : S16x64x1024.Idx → EReal) : S2x16x2048x64.Idx → EReal :=
  fun i => ∑ k : Fin 1024, X (ix3 (i 0) (i 2) k) * W (ix3 (i 1) (i 3) k)

/-- Entry (b, h, n, d) of `headProj`. -/
theorem headProj_apply (X : S2x2048x1024.Idx → EReal) (W : S16x64x1024.Idx → EReal) (b : Fin 2) (h : Fin 16) (n : Fin 2048) (d : Fin 64) :
    headProj X W (ix4 b h n d) = ∑ k : Fin 1024, X (ix3 b n k) * W (ix3 h d k) := rfl

/-- The same inside one grid point's blocks: entry (0, h, n, d) of a [1,4,2048,64] block from a [1,2048,1024] block and a
    [4,64,1024] block. -/
def headBlk (x0 : S1x2048x1024.Idx → EReal) (x : S4x64x1024.Idx → EReal) : S1x4x2048x64.Idx → EReal :=
  fun y => ∑ k : Fin 1024, x0 (ix3 0 (y 2) k) * x (ix3 (y 1) (y 3) k)

/-- The product of the [2048,1024] activations with one head's transposed [64,1024] weights, read at an entry. -/
theorem dot0_apply (lhs : FVec Ideal S2048x1024 .bf16) (rhs : FVec Ideal S64x1024 .bf16) (n : Fin 2048) (d : Fin 64) :
    FloatOps.matmul dot_S2048x1024_S64x1024_S2048x64_1_1_0_0_n_n none lhs rhs (constant (F := Ideal) S2048x64 .f32 0x00000000#32) (ix2 n d)
      = ∑ k : Fin 1024, lhs (ix2 n k) * rhs (ix2 d k) := by
  rw [Ideal.matmul_constant_zero_apply]
  refine Cert.LibDot.contr_sum dot_S2048x1024_S64x1024_S2048x64_1_1_0_0_n_n 1024 rfl rfl lhs rhs (ix2 n d) (fun k => ix2 n k) (fun k => ix2 d k) ?_ ?_
  · intro k q hq
    funext a; apply Fin.ext
    match a with
    | ⟨0, _⟩ => rfl
    | ⟨1, _⟩ => exact hq
  · intro k q hq
    funext a; apply Fin.ext
    match a with
    | ⟨0, _⟩ => rfl
    | ⟨1, _⟩ => exact hq

/-- One head's payload at an entry of its slab: the leading unit axes of the two blocks read dropped, the product taken,
    two unit axes put in front. -/
theorem head_apply (v0 : Vec Ideal S1x2048x1024 .bf16) (w : Vec Ideal S1x64x1024 .bf16) (n : Fin 2048) (d : Fin 64) :
    k0_pay4 v0 w (ix4 0 0 n d) = ∑ k : Fin 1024, v0 (ix3 0 n k) * w (ix3 0 d k) := by
  unfold k0_pay4 k0_pay3
  simp only [matmul]
  refine (shapeCast_apply _ _ (ix4 0 0 n d) (ix2 n d) ?_).trans ?_
  · rw [Shape.rowMajor_val_two, Shape.rowMajor_val_four]
    show n.val * 64 + d.val = ((0 * 1 + 0) * 2048 + n.val) * 64 + d.val
    omega
  refine (truncf_apply (ψ := .bf16) _ bitsLt_bf16_f32 (ix2 n d)).trans ?_
  refine (dot0_apply _ _ n d).trans ?_
  refine Finset.sum_congr rfl fun k _ => congrArg₂ (· * ·) ?_ ?_
  · refine shapeCast_apply v0 _ (ix2 n k) (ix3 0 n k) ?_
    rw [Shape.rowMajor_val_two, Shape.rowMajor_val_three]
    show (0 * 2048 + n.val) * 1024 + k.val = n.val * 1024 + k.val
    omega
  · refine shapeCast_apply w _ (ix2 d k) (ix3 0 d k) ?_
    rw [Shape.rowMajor_val_two, Shape.rowMajor_val_three]
    show (0 * 64 + d.val) * 1024 + k.val = d.val * 1024 + k.val
    omega

/-! The body computes the twelve slabs through differently grouped intermediate values; each grouping is the same
term once its names are unfolded. -/
theorem pay8_eq (v0 : Vec Ideal S1x2048x1024 .bf16) (w : Vec Ideal S1x64x1024 .bf16) : k0_pay8 (k0_pay3 v0) (k0_pay7 w) = k0_pay4 v0 w := rfl
theorem pay14_eq (v0 : Vec Ideal S1x2048x1024 .bf16) (w : Vec Ideal S1x64x1024 .bf16) : k0_pay14 (k0_pay13 (k0_pay3 v0) w) = k0_pay4 v0 w := rfl
theorem pay19_eq (v0 : Vec Ideal S1x2048x1024 .bf16) (w : Vec Ideal S1x64x1024 .bf16) : k0_pay19 (k0_pay3 v0) w = k0_pay4 v0 w := rfl
theorem pay5_eq (v0 : Vec Ideal S1x2048x1024 .bf16) (w : Vec Ideal S1x64x1024 .bf16) : k0_pay5 v0 w = k0_pay4 v0 w := rfl
theorem pay9_eq (v0 : Vec Ideal S1x2048x1024 .bf16) (w : Vec Ideal S1x64x1024 .bf16) : k0_pay9 (k0_pay3 v0) w = k0_pay4 v0 w := rfl
theorem pay15_eq (v0 : Vec Ideal S1x2048x1024 .bf16) (w : Vec Ideal S1x64x1024 .bf16) : k0_pay15 (k0_pay3 v0) (k0_pay11 w) = k0_pay4 v0 w := rfl
theorem pay1_eq (v0 : Vec Ideal S1x2048x1024 .bf16) (w : Vec Ideal S1x64x1024 .bf16) : k0_pay1 (k0_pay17 (k0_pay3 v0) w) = k0_pay4 v0 w := rfl
theorem pay6_eq (v0 : Vec Ideal S1x2048x1024 .bf16) (w : Vec Ideal S1x64x1024 .bf16) : k0_pay6 v0 w = k0_pay4 v0 w := rfl
theorem pay10_eq (v0 : Vec Ideal S1x2048x1024 .bf16) (w : Vec Ideal S1x64x1024 .bf16) : k0_pay10 (k0_pay3 v0) w = k0_pay4 v0 w := rfl
theorem pay16_eq (v0 : Vec Ideal S1x2048x1024 .bf16) (w : Vec Ideal S1x64x1024 .bf16) : k0_pay16 (k0_pay3 v0) (k0_pay12 w) = k0_pay4 v0 w := rfl
theorem pay2_eq (v0 : Vec Ideal S1x2048x1024 .bf16) (w : Vec Ideal S1x64x1024 .bf16) : k0_pay2 (k0_pay18 (k0_pay3 v0) w) = k0_pay4 v0 w := rfl

/-! A head's slab, stored at the head's place in the block, holds `headBlk` there. -/
theorem piece0_0 (x0 : Vec Ideal S1x2048x1024 .bf16) (x : Vec Ideal S4x64x1024 .bf16) (y : S1x1x2048x64.Idx) :
    k0_pay4 (View.ld x0 rX0) (View.ld x rW0_0) y = headBlk x0 x (rO0_0.emb y) := by
  obtain ⟨a, b, n, d, rfl⟩ : ∃ (a : Fin 1) (b : Fin 1) (n : Fin 2048) (d : Fin 64), y = ix4 a b n d := ⟨y 0, y 1, y 2, y 3, eq_ix4 y⟩
  obtain rfl : a = 0 := Subsingleton.elim _ _
  obtain rfl : b = 0 := Subsingleton.elim _ _
  refine (head_apply _ _ n d).trans ?_
  unfold headBlk
  refine Finset.sum_congr rfl fun k _ => congrArg₂ (· * ·) ?_ ?_
  · show x0 (rX0.emb (ix3 0 n k)) = x0 (ix3 0 ((rO0_0.emb (ix4 0 0 n d)) 2) k)
    refine congrArg x0 (funext fun a => Fin.ext ?_)
    match a with
    | ⟨0, _⟩ => first | rfl | (simp only [Rect.emb_apply, Rect.off_unit, Rect.stride_unit] <;> first | rfl | omega | simp | (simp; omega))
    | ⟨1, _⟩ => first | rfl | (simp only [Rect.emb_apply, Rect.off_unit, Rect.stride_unit] <;> first | rfl | omega | simp | (simp; omega))
    | ⟨2, _⟩ => first | rfl | (simp only [Rect.emb_apply, Rect.off_unit, Rect.stride_unit] <;> first | rfl | omega | simp | (simp; omega))
  · show x (rW0_0.emb (ix3 0 d k)) = x (ix3 ((rO0_0.emb (ix4 0 0 n d)) 1) ((rO0_0.emb (ix4 0 0 n d)) 3) k)
    refine congrArg x (funext fun a => Fin.ext ?_)
    match a with
    | ⟨0, _⟩ => first | rfl | (simp only [Rect.emb_apply, Rect.off_unit, Rect.stride_unit] <;> first | rfl | omega | simp | (simp; omega))
    | ⟨1, _⟩ => first | rfl | (simp only [Rect.emb_apply, Rect.off_unit, Rect.stride_unit] <;> first | rfl | omega | simp | (simp; omega))
    | ⟨2, _⟩ => first | rfl | (simp only [Rect.emb_apply, Rect.off_unit, Rect.stride_unit] <;> first | rfl | omega | simp | (simp; omega))

theorem piece0_1 (x0 : Vec Ideal S1x2048x1024 .bf16) (x : Vec Ideal S4x64x1024 .bf16) (y : S1x1x2048x64.Idx) :
    k0_pay4 (View.ld x0 rX0) (View.ld x rW0_1) y = headBlk x0 x (rO0_1.emb y) := by
  obtain ⟨a, b, n, d, rfl⟩ : ∃ (a : Fin 1) (b : Fin 1) (n : Fin 2048) (d : Fin 64), y = ix4 a b n d := ⟨y 0, y 1, y 2, y 3, eq_ix4 y⟩
  obtain rfl : a = 0 := Subsingleton.elim _ _
  obtain rfl : b = 0 := Subsingleton.elim _ _
  refine (head_apply _ _ n d).trans ?_
  unfold headBlk
  refine Finset.sum_congr rfl fun k _ => congrArg₂ (· * ·) ?_ ?_
  · show x0 (rX0.emb (ix3 0 n k)) = x0 (ix3 0 ((rO0_1.emb (ix4 0 0 n d)) 2) k)
    refine congrArg x0 (funext fun a => Fin.ext ?_)
    match a with
    | ⟨0, _⟩ => first | rfl | (simp only [Rect.emb_apply, Rect.off_unit, Rect.stride_unit] <;> first | rfl | omega | simp | (simp; omega))
    | ⟨1, _⟩ => first | rfl | (simp only [Rect.emb_apply, Rect.off_unit, Rect.stride_unit] <;> first | rfl | omega | simp | (simp; omega))
    | ⟨2, _⟩ => first | rfl | (simp only [Rect.emb_apply, Rect.off_unit, Rect.stride_unit] <;> first | rfl | omega | simp | (simp; omega))
  · show x (rW0_1.emb (ix3 0 d k)) = x (ix3 ((rO0_1.emb (ix4 0 0 n d)) 1) ((rO0_1.emb (ix4 0 0 n d)) 3) k)
    refine congrArg x (funext fun a => Fin.ext ?_)
    match a with
    | ⟨0, _⟩ => first | rfl | (simp only [Rect.emb_apply, Rect.off_unit, Rect.stride_unit] <;> first | rfl | omega | simp | (simp; omega))
    | ⟨1, _⟩ => first | rfl | (simp only [Rect.emb_apply, Rect.off_unit, Rect.stride_unit] <;> first | rfl | omega | simp | (simp; omega))
    | ⟨2, _⟩ => first | rfl | (simp only [Rect.emb_apply, Rect.off_unit, Rect.stride_unit] <;> first | rfl | omega | simp | (simp; omega))

theorem piece0_2 (x0 : Vec Ideal S1x2048x1024 .bf16) (x : Vec Ideal S4x64x1024 .bf16) (y : S1x1x2048x64.Idx) :
    k0_pay4 (View.ld x0 rX0) (View.ld x rW0_2) y = headBlk x0 x (rO0_2.emb y) := by
  obtain ⟨a, b, n, d, rfl⟩ : ∃ (a : Fin 1) (b : Fin 1) (n : Fin 2048) (d : Fin 64), y = ix4 a b n d := ⟨y 0, y 1, y 2, y 3, eq_ix4 y⟩
  obtain rfl : a = 0 := Subsingleton.elim _ _
  obtain rfl : b = 0 := Subsingleton.elim _ _
  refine (head_apply _ _ n d).trans ?_
  unfold headBlk
  refine Finset.sum_congr rfl fun k _ => congrArg₂ (· * ·) ?_ ?_
  · show x0 (rX0.emb (ix3 0 n k)) = x0 (ix3 0 ((rO0_2.emb (ix4 0 0 n d)) 2) k)
    refine congrArg x0 (funext fun a => Fin.ext ?_)
    match a with
    | ⟨0, _⟩ => first | rfl | (simp only [Rect.emb_apply, Rect.off_unit, Rect.stride_unit] <;> first | rfl | omega | simp | (simp; omega))
    | ⟨1, _⟩ => first | rfl | (simp only [Rect.emb_apply, Rect.off_unit, Rect.stride_unit] <;> first | rfl | omega | simp | (simp; omega))
    | ⟨2, _⟩ => first | rfl | (simp only [Rect.emb_apply, Rect.off_unit, Rect.stride_unit] <;> first | rfl | omega | simp | (simp; omega))
  · show x (rW0_2.emb (ix3 0 d k)) = x (ix3 ((rO0_2.emb (ix4 0 0 n d)) 1) ((rO0_2.emb (ix4 0 0 n d)) 3) k)
    refine congrArg x (funext fun a => Fin.ext ?_)
    match a with
    | ⟨0, _⟩ => first | rfl | (simp only [Rect.emb_apply, Rect.off_unit, Rect.stride_unit] <;> first | rfl | omega | simp | (simp; omega))
    | ⟨1, _⟩ => first | rfl | (simp only [Rect.emb_apply, Rect.off_unit, Rect.stride_unit] <;> first | rfl | omega | simp | (simp; omega))
    | ⟨2, _⟩ => first | rfl | (simp only [Rect.emb_apply, Rect.off_unit, Rect.stride_unit] <;> first | rfl | omega | simp | (simp; omega))

theorem piece0_3 (x0 : Vec Ideal S1x2048x1024 .bf16) (x : Vec Ideal S4x64x1024 .bf16) (y : S1x1x2048x64.Idx) :
    k0_pay4 (View.ld x0 rX0) (View.ld x rW0_3) y = headBlk x0 x (rO0_3.emb y) := by
  obtain ⟨a, b, n, d, rfl⟩ : ∃ (a : Fin 1) (b : Fin 1) (n : Fin 2048) (d : Fin 64), y = ix4 a b n d := ⟨y 0, y 1, y 2, y 3, eq_ix4 y⟩
  obtain rfl : a = 0 := Subsingleton.elim _ _
  obtain rfl : b = 0 := Subsingleton.elim _ _
  refine (head_apply _ _ n d).trans ?_
  unfold headBlk
  refine Finset.sum_congr rfl fun k _ => congrArg₂ (· * ·) ?_ ?_
  · show x0 (rX0.emb (ix3 0 n k)) = x0 (ix3 0 ((rO0_3.emb (ix4 0 0 n d)) 2) k)
    refine congrArg x0 (funext fun a => Fin.ext ?_)
    match a with
    | ⟨0, _⟩ => first | rfl | (simp only [Rect.emb_apply, Rect.off_unit, Rect.stride_unit] <;> first | rfl | omega | simp | (simp; omega))
    | ⟨1, _⟩ => first | rfl | (simp only [Rect.emb_apply, Rect.off_unit, Rect.stride_unit] <;> first | rfl | omega | simp | (simp; omega))
    | ⟨2, _⟩ => first | rfl | (simp only [Rect.emb_apply, Rect.off_unit, Rect.stride_unit] <;> first | rfl | omega | simp | (simp; omega))
  · show x (rW0_3.emb (ix3 0 d k)) = x (ix3 ((rO0_3.emb (ix4 0 0 n d)) 1) ((rO0_3.emb (ix4 0 0 n d)) 3) k)
    refine congrArg x (funext fun a => Fin.ext ?_)
    match a with
    | ⟨0, _⟩ => first | rfl | (simp only [Rect.emb_apply, Rect.off_unit, Rect.stride_unit] <;> first | rfl | omega | simp | (simp; omega))
    | ⟨1, _⟩ => first | rfl | (simp only [Rect.emb_apply, Rect.off_unit, Rect.stride_unit] <;> first | rfl | omega | simp | (simp; omega))
    | ⟨2, _⟩ => first | rfl | (simp only [Rect.emb_apply, Rect.off_unit, Rect.stride_unit] <;> first | rfl | omega | simp | (simp; omega))

/-! ## A block after the body as one function of the blocks read -/

/-- The q block after the body, as one function of the two blocks read: the four head slabs glued. -/
theorem out0_4_eq (x0 : Vec Ideal S1x2048x1024 .bf16) (x1 : Vec Ideal S4x64x1024 .bf16) : out0_4 x0 x1 = headBlk x0 x1 := by
  funext y
  unfold out0_4
  refine View.canon_apply_of_pieces (Val := Elt Ideal) (e := .bf16) (headBlk x0 x1) _ ?_ y (cover0_out _ _ _ _ y)
  intro p hp
  simp only [List.mem_cons, List.not_mem_nil, or_false] at hp
  rcases hp with rfl | rfl | rfl | rfl
  · intro x; exact (congrFun (pay19_eq _ _) x).trans (piece0_3 x0 x1 x)
  · intro x; exact (congrFun (pay14_eq _ _) x).trans (piece0_2 x0 x1 x)
  · intro x; exact (congrFun (pay8_eq _ _) x).trans (piece0_1 x0 x1 x)
  · intro x; exact piece0_0 x0 x1 x

/-- The k block after the body. -/
theorem out0_5_eq (x0 : Vec Ideal S1x2048x1024 .bf16) (x2 : Vec Ideal S4x64x1024 .bf16) : out0_5 x0 x2 = headBlk x0 x2 := by
  funext y
  unfold out0_5
  refine View.canon_apply_of_pieces (Val := Elt Ideal) (e := .bf16) (headBlk x0 x2) _ ?_ y (cover0_out _ _ _ _ y)
  intro p hp
  simp only [List.mem_cons, List.not_mem_nil, or_false] at hp
  rcases hp with rfl | rfl | rfl | rfl
  · intro x; exact (congrFun (pay1_eq _ _) x).trans (piece0_3 x0 x2 x)
  · intro x; exact (congrFun (pay15_eq _ _) x).trans (piece0_2 x0 x2 x)
  · intro x; exact (congrFun (pay9_eq _ _) x).trans (piece0_1 x0 x2 x)
  · intro x; exact (congrFun (pay5_eq _ _) x).trans (piece0_0 x0 x2 x)

/-- The v block after the body. -/
theorem out0_6_eq (x0 : Vec Ideal S1x2048x1024 .bf16) (x3 : Vec Ideal S4x64x1024 .bf16) : out0_6 x0 x3 = headBlk x0 x3 := by
  funext y
  unfold out0_6
  refine View.canon_apply_of_pieces (Val := Elt Ideal) (e := .bf16) (headBlk x0 x3) _ ?_ y (cover0_out _ _ _ _ y)
  intro p hp
  simp only [List.mem_cons, List.not_mem_nil, or_false] at hp
  rcases hp with rfl | rfl | rfl | rfl
  · intro x; exact (congrFun (pay2_eq _ _) x).trans (piece0_3 x0 x3 x)
  · intro x; exact (congrFun (pay16_eq _ _) x).trans (piece0_2 x0 x3 x)
  · intro x; exact (congrFun (pay10_eq _ _) x).trans (piece0_1 x0 x3 x)
  · intro x; exact (congrFun (pay6_eq _ _) x).trans (piece0_0 x0 x3 x)

variable (V : (c : Dev nD) → (b : Ref sig .tc) → Buf (Elt Ideal) ((c : Thread nD τ).loc b))

/-! ## From blocks to arrays -/

/-- The printed index maps over the grid of 2 batches by 4 head groups, point `t` = (t / 4, t mod 4): the activation
    block is batch `t / 4`; each weight block is head group `t mod 4`; each output block is (batch, head group). -/
theorem idx_facts0 : ∀ t : Fin cfg0.N,
    (win0_0.index t (0 : Fin 3) = t.val / 4 ∧ win0_0.index t (1 : Fin 3) = 0 ∧ win0_0.index t (2 : Fin 3) = 0)
    ∧ (win0_1.index t (0 : Fin 3) = t.val % 4 ∧ win0_1.index t (1 : Fin 3) = 0 ∧ win0_1.index t (2 : Fin 3) = 0)
    ∧ (win0_2.index t (0 : Fin 3) = t.val % 4 ∧ win0_2.index t (1 : Fin 3) = 0 ∧ win0_2.index t (2 : Fin 3) = 0)
    ∧ (win0_3.index t (0 : Fin 3) = t.val % 4 ∧ win0_3.index t (1 : Fin 3) = 0 ∧ win0_3.index t (2 : Fin 3) = 0)
    ∧ (win0_4.index t (0 : Fin 4) = t.val / 4 ∧ win0_4.index t (1 : Fin 4) = t.val % 4 ∧ win0_4.index t (2 : Fin 4) = 0 ∧ win0_4.index t (3 : Fin 4) = 0)
    ∧ (win0_5.index t (0 : Fin 4) = t.val / 4 ∧ win0_5.index t (1 : Fin 4) = t.val % 4 ∧ win0_5.index t (2 : Fin 4) = 0 ∧ win0_5.index t (3 : Fin 4) = 0)
    ∧ (win0_6.index t (0 : Fin 4) = t.val / 4 ∧ win0_6.index t (1 : Fin 4) = t.val % 4 ∧ win0_6.index t (2 : Fin 4) = 0 ∧ win0_6.index t (3 : Fin 4) = 0) :=
  (by decide +kernel : ∀ t : Fin grid0.N, _)

/-- The activation block at point `t` is batch `t / 4` of the activations. -/
theorem blk0_0_read (c : Dev nD) (t : Fin cfg0.N) (x : S1x2048x1024.Idx) (i : S2x2048x1024.Idx)
    (h0 : (i 0).val = t.val / 4 + (x 0).val) (h1 : (i 1).val = (x 1).val) (h2 : (i 2).val = (x 2).val) :
    (iblk0 V c 0 t : Vec Ideal S1x2048x1024 .bf16) x = (V c main_v0 : S2x2048x1024.Idx → EReal) i := by
  obtain ⟨e0, e1, e2⟩ := (idx_facts0 t).1
  unfold iblk0
  rw [View.read_apply]
  show V c main_v0 _ = V c main_v0 _
  congr 1
  funext a
  apply Fin.ext
  match a with
  | ⟨0, _⟩ => show win0_0.index t (0 : Fin 3) * 1 + 1 * (x 0).val = (i 0).val; rw [e0, h0]; omega
  | ⟨1, _⟩ => show win0_0.index t (1 : Fin 3) * 2048 + 1 * (x 1).val = (i 1).val; rw [e1, h1]; omega
  | ⟨2, _⟩ => show win0_0.index t (2 : Fin 3) * 1024 + 1 * (x 2).val = (i 2).val; rw [e2, h2]; omega

/-- Window 1's block at point `t` is the four heads `4 (t mod 4) … 4 (t mod 4) + 3` of its weight array. -/
theorem blk0_1_read (c : Dev nD) (t : Fin cfg0.N) (x : S4x64x1024.Idx) (i : S16x64x1024.Idx)
    (h0 : (i 0).val = t.val % 4 * 4 + (x 0).val) (h1 : (i 1).val = (x 1).val) (h2 : (i 2).val = (x 2).val) :
    (iblk0 V c 1 t : Vec Ideal S4x64x1024 .bf16) x = (V c main_v4 : S16x64x1024.Idx → EReal) i := by
  obtain ⟨e0, e1, e2⟩ := (idx_facts0 t).2.1
  unfold iblk0
  rw [View.read_apply]
  show V c main_v4 _ = V c main_v4 _
  congr 1
  funext a
  apply Fin.ext
  match a with
  | ⟨0, _⟩ => show win0_1.index t (0 : Fin 3) * 4 + 1 * (x 0).val = (i 0).val; rw [e0, h0]; omega
  | ⟨1, _⟩ => show win0_1.index t (1 : Fin 3) * 64 + 1 * (x 1).val = (i 1).val; rw [e1, h1]; omega
  | ⟨2, _⟩ => show win0_1.index t (2 : Fin 3) * 1024 + 1 * (x 2).val = (i 2).val; rw [e2, h2]; omega

/-- Window 2's block at point `t` is the four heads `4 (t mod 4) … 4 (t mod 4) + 3` of its weight array. -/
theorem blk0_2_read (c : Dev nD) (t : Fin cfg0.N) (x : S4x64x1024.Idx) (i : S16x64x1024.Idx)
    (h0 : (i 0).val = t.val % 4 * 4 + (x 0).val) (h1 : (i 1).val = (x 1).val) (h2 : (i 2).val = (x 2).val) :
    (iblk0 V c 2 t : Vec Ideal S4x64x1024 .bf16) x = (V c main_v6 : S16x64x1024.Idx → EReal) i := by
  obtain ⟨e0, e1, e2⟩ := (idx_facts0 t).2.2.1
  unfold iblk0
  rw [View.read_apply]
  show V c main_v6 _ = V c main_v6 _
  congr 1
  funext a
  apply Fin.ext
  match a with
  | ⟨0, _⟩ => show win0_2.index t (0 : Fin 3) * 4 + 1 * (x 0).val = (i 0).val; rw [e0, h0]; omega
  | ⟨1, _⟩ => show win0_2.index t (1 : Fin 3) * 64 + 1 * (x 1).val = (i 1).val; rw [e1, h1]; omega
  | ⟨2, _⟩ => show win0_2.index t (2 : Fin 3) * 1024 + 1 * (x 2).val = (i 2).val; rw [e2, h2]; omega

/-- Window 3's block at point `t` is the four heads `4 (t mod 4) … 4 (t mod 4) + 3` of its weight array. -/
theorem blk0_3_read (c : Dev nD) (t : Fin cfg0.N) (x : S4x64x1024.Idx) (i : S16x64x1024.Idx)
    (h0 : (i 0).val = t.val % 4 * 4 + (x 0).val) (h1 : (i 1).val = (x 1).val) (h2 : (i 2).val = (x 2).val) :
    (iblk0 V c 3 t : Vec Ideal S4x64x1024 .bf16) x = (V c main_v8 : S16x64x1024.Idx → EReal) i := by
  obtain ⟨e0, e1, e2⟩ := (idx_facts0 t).2.2.2.1
  unfold iblk0
  rw [View.read_apply]
  show V c main_v8 _ = V c main_v8 _
  congr 1
  funext a
  apply Fin.ext
  match a with
  | ⟨0, _⟩ => show win0_3.index t (0 : Fin 3) * 4 + 1 * (x 0).val = (i 0).val; rw [e0, h0]; omega
  | ⟨1, _⟩ => show win0_3.index t (1 : Fin 3) * 64 + 1 * (x 1).val = (i 1).val; rw [e1, h1]; omega
  | ⟨2, _⟩ => show win0_3.index t (2 : Fin 3) * 1024 + 1 * (x 2).val = (i 2).val; rw [e2, h2]; omega

/-! ### The q output (window 4) -/

/-- What point `t` writes back of window 4 is block `t` of `headProj` of the activations and the q weights as the
    region finds them. -/
theorem flushed0_4_eq (c : Dev nD) (t : Fin cfg0.N) :
    (dat0 (F := Ideal) V c).flushed 4 t = ((cfg0.win 4).blk t).view.read (Elt Ideal) (headProj (V c main_v0) (V c main_v4)) := by
  show (cfg0.win 4).cut (grid0.coords t) ((dat0 V c).after 4 t) = _
  rw [after0_4, out0_4_eq]
  funext y
  rw [View.read_apply]
  obtain ⟨e0, e1, e2, e3⟩ := (idx_facts0 t).2.2.2.2.1
  have hy0 : (y 0).val < 1 := (y 0).isLt
  have hy1 : (y 1).val < 4 := (y 1).isLt
  have r0 : ((((View.whole main_v9_0).slice ((win0 4).rect t)).emb y) 0).val = t.val / 4 := by
    show win0_4.index t (0 : Fin 4) * 1 + 1 * (y 0).val = _
    rw [e0]; omega
  have r1 : ((((View.whole main_v9_0).slice ((win0 4).rect t)).emb y) 1).val = t.val % 4 * 4 + (y 1).val := by
    show win0_4.index t (1 : Fin 4) * 4 + 1 * (y 1).val = _
    rw [e1]; omega
  have r2 : ((((View.whole main_v9_0).slice ((win0 4).rect t)).emb y) 2).val = (y 2).val := by
    show win0_4.index t (2 : Fin 4) * 2048 + 1 * (y 2).val = _
    rw [e2]; omega
  have r3 : ((((View.whole main_v9_0).slice ((win0 4).rect t)).emb y) 3).val = (y 3).val := by
    show win0_4.index t (3 : Fin 4) * 64 + 1 * (y 3).val = _
    rw [e3]; omega
  unfold headBlk headProj
  show (_ : EReal) = _
  refine Finset.sum_congr rfl fun k _ => congrArg₂ (· * ·) ?_ ?_
  · exact blk0_0_read V c t _ _ (by rw [r0]; rfl) r2 rfl
  · exact blk0_1_read V c t _ _ r1 r3 rfl

/-- An index of window 4's array is in point `t`'s block iff each coordinate is in the block's range on its axis. -/
theorem mem_blk0_4 (t : Fin cfg0.N) (i : S2x16x2048x64.Idx) :
    i ∈ ((cfg0.win 4).blk t).view.set ↔ ∀ a : Fin 4, win0_4.index t a * S1x4x2048x64.size a ≤ (i a).val ∧ (i a).val < win0_4.index t a * S1x4x2048x64.size a + S1x4x2048x64.size a := by
  show i ∈ ((View.whole main_v9_0).slice (win0_4.rect t)).set ↔ _
  rw [View.set_slice_whole, Rect.mem_set_unit]
  exact Iff.rfl

/-- Entry (b, h, ·, ·) lies in the block of point `4 b + h / 4`: the eight blocks cover the array. -/
theorem cover0_4 (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  have hN : grid0.N = 8 := N_0
  have ht : (i 0).val * 4 + (i 1).val / 4 < grid0.N := by omega
  refine ⟨⟨(i 0).val * 4 + (i 1).val / 4, ht⟩, flush0_4 _, ?_⟩
  rw [mem_blk0_4]
  obtain ⟨e0, e1, e2, e3⟩ := (idx_facts0 ⟨(i 0).val * 4 + (i 1).val / 4, ht⟩).2.2.2.2.1
  intro a
  match a with
  | ⟨0, _⟩ =>
    show win0_4.index _ (0 : Fin 4) * 1 ≤ (i 0).val ∧ (i 0).val < win0_4.index _ (0 : Fin 4) * 1 + 1
    rw [e0]; show ((i 0).val * 4 + (i 1).val / 4) / 4 * 1 ≤ (i 0).val ∧ (i 0).val < ((i 0).val * 4 + (i 1).val / 4) / 4 * 1 + 1; omega
  | ⟨1, _⟩ =>
    show win0_4.index _ (1 : Fin 4) * 4 ≤ (i 1).val ∧ (i 1).val < win0_4.index _ (1 : Fin 4) * 4 + 4
    rw [e1]; show ((i 0).val * 4 + (i 1).val / 4) % 4 * 4 ≤ (i 1).val ∧ (i 1).val < ((i 0).val * 4 + (i 1).val / 4) % 4 * 4 + 4; omega
  | ⟨2, _⟩ =>
    show win0_4.index _ (2 : Fin 4) * 2048 ≤ (i 2).val ∧ (i 2).val < win0_4.index _ (2 : Fin 4) * 2048 + 2048
    rw [e2]; omega
  | ⟨3, _⟩ =>
    show win0_4.index _ (3 : Fin 4) * 64 ≤ (i 3).val ∧ (i 3).val < win0_4.index _ (3 : Fin 4) * 64 + 64
    rw [e3]; omega

/-- THE Q ARRAY after region 0: `headProj` of the activations and the q weights as the region finds them. -/
theorem final0_4 (c : Dev nD) :
    (dat0 (F := Ideal) V c).arrAt 4 cfg0.N = headProj (V c main_v0) (V c main_v4) :=
  (dat0 (F := Ideal) V c).arrAt_eq_of_cover 4 (headProj (V c main_v0) (V c main_v4))
    (fun t _ => flushed0_4_eq V c t) cover0_4

/-! ### The k output (window 5) -/

/-- What point `t` writes back of window 5 is block `t` of `headProj` of the activations and the k weights as the
    region finds them. -/
theorem flushed0_5_eq (c : Dev nD) (t : Fin cfg0.N) :
    (dat0 (F := Ideal) V c).flushed 5 t = ((cfg0.win 5).blk t).view.read (Elt Ideal) (headProj (V c main_v0) (V c main_v6)) := by
  show (cfg0.win 5).cut (grid0.coords t) ((dat0 V c).after 5 t) = _
  rw [after0_5, out0_5_eq]
  funext y
  rw [View.read_apply]
  obtain ⟨e0, e1, e2, e3⟩ := (idx_facts0 t).2.2.2.2.2.1
  have hy0 : (y 0).val < 1 := (y 0).isLt
  have hy1 : (y 1).val < 4 := (y 1).isLt
  have r0 : ((((View.whole main_v9_1).slice ((win0 5).rect t)).emb y) 0).val = t.val / 4 := by
    show win0_5.index t (0 : Fin 4) * 1 + 1 * (y 0).val = _
    rw [e0]; omega
  have r1 : ((((View.whole main_v9_1).slice ((win0 5).rect t)).emb y) 1).val = t.val % 4 * 4 + (y 1).val := by
    show win0_5.index t (1 : Fin 4) * 4 + 1 * (y 1).val = _
    rw [e1]; omega
  have r2 : ((((View.whole main_v9_1).slice ((win0 5).rect t)).emb y) 2).val = (y 2).val := by
    show win0_5.index t (2 : Fin 4) * 2048 + 1 * (y 2).val = _
    rw [e2]; omega
  have r3 : ((((View.whole main_v9_1).slice ((win0 5).rect t)).emb y) 3).val = (y 3).val := by
    show win0_5.index t (3 : Fin 4) * 64 + 1 * (y 3).val = _
    rw [e3]; omega
  unfold headBlk headProj
  show (_ : EReal) = _
  refine Finset.sum_congr rfl fun k _ => congrArg₂ (· * ·) ?_ ?_
  · exact blk0_0_read V c t _ _ (by rw [r0]; rfl) r2 rfl
  · exact blk0_2_read V c t _ _ r1 r3 rfl

/-- An index of window 5's array is in point `t`'s block iff each coordinate is in the block's range on its axis. -/
theorem mem_blk0_5 (t : Fin cfg0.N) (i : S2x16x2048x64.Idx) :
    i ∈ ((cfg0.win 5).blk t).view.set ↔ ∀ a : Fin 4, win0_5.index t a * S1x4x2048x64.size a ≤ (i a).val ∧ (i a).val < win0_5.index t a * S1x4x2048x64.size a + S1x4x2048x64.size a := by
  show i ∈ ((View.whole main_v9_1).slice (win0_5.rect t)).set ↔ _
  rw [View.set_slice_whole, Rect.mem_set_unit]
  exact Iff.rfl

/-- Entry (b, h, ·, ·) lies in the block of point `4 b + h / 4`: the eight blocks cover the array. -/
theorem cover0_5 (i : S2x16x2048x64.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  have hN : grid0.N = 8 := N_0
  have ht : (i 0).val * 4 + (i 1).val / 4 < grid0.N := by omega
  refine ⟨⟨(i 0).val * 4 + (i 1).val / 4, ht⟩, flush0_5 _, ?_⟩
  rw [mem_blk0_5]
  obtain ⟨e0, e1, e2, e3⟩ := (idx_facts0 ⟨(i 0).val * 4 + (i 1).val / 4, ht⟩).2.2.2.2.2.1
  intro a
  match a with
  | ⟨0, _⟩ =>
    show win0_5.index _ (0 : Fin 4) * 1 ≤ (i 0).val ∧ (i 0).val < win0_5.index _ (0 : Fin 4) * 1 + 1
    rw [e0]; show ((i 0).val * 4 + (i 1).val / 4) / 4 * 1 ≤ (i 0).val ∧ (i 0).val < ((i 0).val * 4 + (i 1).val / 4) / 4 * 1 + 1; omega
  | ⟨1, _⟩ =>
    show win0_5.index _ (1 : Fin 4) * 4 ≤ (i 1).val ∧ (i 1).val < win0_5.index _ (1 : Fin 4) * 4 + 4
    rw [e1]; show ((i 0).val * 4 + (i 1).val / 4) % 4 * 4 ≤ (i 1).val ∧ (i 1).val < ((i 0).val * 4 + (i 1).val / 4) % 4 * 4 + 4; omega
  | ⟨2, _⟩ =>
    show win0_5.index _ (2 : Fin 4) * 2048 ≤ (i 2).val ∧ (i 2).val < win0_5.index _ (2 : Fin 4) * 2048 + 2048
    rw [e2]; omega
  | ⟨3, _⟩ =>
    show win0_5.index _ (3 : Fin 4) * 64 ≤ (i 3).val ∧ (i 3).val < win0_5.index _ (3 : Fin 4) * 64 + 64
    rw [e3]; omega

/-- THE K ARRAY after region 0: `headProj` of the activations and the k weights as the region finds them. -/
theorem final0_5 (c : Dev nD) :
    (dat0 (F := Ideal) V c).arrAt 5 cfg0.N = headProj (V c main_v0) (V c main_v6) :=
  (dat0 (F := Ideal) V c).arrAt_eq_of_cover 5 (headProj (V c main_v0) (V c main_v6))
    (fun t _ => flushed0_5_eq V c t) cover0_5

/-! ### The v output (window 6) -/

/-- What point `t` writes back of window 6 is block `t` of `headProj` of the activations and the v weights as the
    region finds them. -/
theorem flushed0_6_eq (c : Dev nD) (t : Fin cfg0.N) :
    (dat0 (F := Ideal) V c).flushed 6 t = ((cfg0.win 6).blk t).view.read (Elt Ideal) (headProj (V c main_v0) (V c main_v8)) := by
  show (cfg0.win 6).cut (grid0.coords t) ((dat0 V c).after 6 t) = _
  rw [after0_6, out0_6_eq]
  funext y
  rw [View.read_apply]
  obtain ⟨e0, e1, e2, e3⟩ := (idx_facts0 t).2.2.2.2.2.2
  have hy0 : (y 0).val < 1 := (y 0).isLt
  have hy1 : (y 1).val < 4 := (y 1).isLt
  have r0 : ((((View.whole main_v9_2).slice ((win0 6).rect t)).emb y) 0).val = t.val / 4 := by
    show win0_6.index t (0 : Fin 4) * 1 + 1 * (y 0).val = _
    rw [e0]; omega
  have r1 : ((((View.whole main_v9_2).slice ((win0 6).rect t)).emb y) 1).val = t.val % 4 * 4 + (y 1).val := by
    show win0_6.index t (1 : Fin 4) * 4 + 1 * (y 1).val = _
    rw [e1]; omega
  have r2 : ((((View.whole main_v9_2).slice ((win0 6).rect t)).emb y) 2).val = (y 2).val := by
    show win0_6.index t (2 : Fin 4) * 2048 + 1 * (y 2).val = _
    rw [e2]; omega
  have r3 : ((((View.whole main_v9_2).slice ((win0 6).rect t)).emb y) 3).val = (y 3).val := by
    show win0_6.index t (3 : Fin 4) * 64 + 1 * (y 3).val = _
    rw [e3]; omega
  unfold headBlk headProj
  show (_ : EReal) = _
  refine Finset.sum_congr rfl fun k _ => congrArg₂ (· * ·) ?_ ?_
  · exact blk0_0_read V c t _ _ (by rw [r0]; rfl) r2 rfl
  · exact blk0_3_read V c t _ _ r1 r3 rfl

/-- An index of window 6's array is in point `t`'s block iff each coordinate is in the block's range on its axis. -/
theorem mem_blk0_6 (t : Fin cfg0.N) (i : S2x16x2048x64.Idx) :
    i ∈ ((cfg0.win 6).blk t).view.set ↔ ∀ a : Fin 4, win0_6.index t a * S1x4x2048x64.size a ≤ (i a).val ∧ (i a).val < win0_6.index t a * S1x4x2048x64.size a + S1x4x2048x64.size a := by
  show i ∈ ((View.whole main_v9_2).slice (win0_6.rect t)).set ↔ _
  rw [View.set_slice_whole, Rect.mem_set_unit]
  exact Iff.rfl

/-- Entry (b, h, ·, ·) lies in the block of point `4 b + h / 4`: the eight blocks cover the array. -/
theorem cover0_6 (i : S2x16x2048x64.Idx) : ∃ t : Fin cfg0.N, (cfg0.win 6).flush t = true ∧ i ∈ ((cfg0.win 6).blk t).view.set := by
  have hi0 : (i 0).val < 2 := (i 0).isLt
  have hi1 : (i 1).val < 16 := (i 1).isLt
  have hi2 : (i 2).val < 2048 := (i 2).isLt
  have hi3 : (i 3).val < 64 := (i 3).isLt
  have hN : grid0.N = 8 := N_0
  have ht : (i 0).val * 4 + (i 1).val / 4 < grid0.N := by omega
  refine ⟨⟨(i 0).val * 4 + (i 1).val / 4, ht⟩, flush0_6 _, ?_⟩
  rw [mem_blk0_6]
  obtain ⟨e0, e1, e2, e3⟩ := (idx_facts0 ⟨(i 0).val * 4 + (i 1).val / 4, ht⟩).2.2.2.2.2.2
  intro a
  match a with
  | ⟨0, _⟩ =>
    show win0_6.index _ (0 : Fin 4) * 1 ≤ (i 0).val ∧ (i 0).val < win0_6.index _ (0 : Fin 4) * 1 + 1
    rw [e0]; show ((i 0).val * 4 + (i 1).val / 4) / 4 * 1 ≤ (i 0).val ∧ (i 0).val < ((i 0).val * 4 + (i 1).val / 4) / 4 * 1 + 1; omega
  | ⟨1, _⟩ =>
    show win0_6.index _ (1 : Fin 4) * 4 ≤ (i 1).val ∧ (i 1).val < win0_6.index _ (1 : Fin 4) * 4 + 4
    rw [e1]; show ((i 0).val * 4 + (i 1).val / 4) % 4 * 4 ≤ (i 1).val ∧ (i 1).val < ((i 0).val * 4 + (i 1).val / 4) % 4 * 4 + 4; omega
  | ⟨2, _⟩ =>
    show win0_6.index _ (2 : Fin 4) * 2048 ≤ (i 2).val ∧ (i 2).val < win0_6.index _ (2 : Fin 4) * 2048 + 2048
    rw [e2]; omega
  | ⟨3, _⟩ =>
    show win0_6.index _ (3 : Fin 4) * 64 ≤ (i 3).val ∧ (i 3).val < win0_6.index _ (3 : Fin 4) * 64 + 64
    rw [e3]; omega

/-- THE V ARRAY after region 0: `headProj` of the activations and the v weights as the region finds them. -/
theorem final0_6 (c : Dev nD) :
    (dat0 (F := Ideal) V c).arrAt 6 cfg0.N = headProj (V c main_v0) (V c main_v8) :=
  (dat0 (F := Ideal) V c).arrAt_eq_of_cover 6 (headProj (V c main_v0) (V c main_v8))
    (fun t _ => flushed0_6_eq V c t) cover0_6

end Cert.KernelIdeal.HandValue

end
-- ==== Proof.IVal2.lean ====
import proofs.«108477_j14860586844639_2_alg».proof.Proof.IReg2
import proofs.«108477_j14860586844639_2_alg».proof.Proof.LibDot
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- Rows times transposed weights plus the bias row: entry (r, j) is the sum over the 1024 features of
    `A (r, k) * W (j, k)`, plus `B (0, j)`. -/
def linBias (A : S4096x1024.Idx → EReal) (W : S1024x1024.Idx → EReal) (B : S1x1024.Idx → EReal) : S4096x1024.Idx → EReal :=
  fun i => (∑ k : Fin 1024, A (ix2 (i 0) k) * W (ix2 (i 1) k)) + B (ix2 0 (i 1))

/-- The product of a [512,1024] row block with the transposed [1024,1024] weights, read at an entry. -/
theorem dot2_apply (lhs : FVec Ideal S512x1024 .bf16) (rhs : FVec Ideal S1024x1024 .bf16) (r : Fin 512) (j : Fin 1024) :
    FloatOps.matmul dot_S512x1024_S1024x1024_S512x1024_1_1_0_0_n_n none lhs rhs (constant (F := Ideal) S512x1024 .f32 0x00000000#32) (ix2 r j)
      = ∑ k : Fin 1024, lhs (ix2 r k) * rhs (ix2 j k) := by
  rw [Ideal.matmul_constant_zero_apply]
  refine Cert.LibDot.contr_sum dot_S512x1024_S1024x1024_S512x1024_1_1_0_0_n_n 1024 rfl rfl lhs rhs (ix2 r j) (fun k => ix2 r k) (fun k => ix2 j k) ?_ ?_
  · intro k q hq
    funext a; apply Fin.ext
    match a with
    | ⟨0, _⟩ => rfl
    | ⟨1, _⟩ => exact hq
  · intro k q hq
    funext a; apply Fin.ext
    match a with
    | ⟨0, _⟩ => rfl
    | ⟨1, _⟩ => exact hq

/-- The body's payload at an entry of the block: the row's product with column `j`'s weights, plus the bias at `j`. -/
theorem pay2_apply (x0 : Vec Ideal S512x1024 .bf16) (x1 : Vec Ideal S1024x1024 .bf16) (x2 : Vec Ideal S1x1024 .f32) (r : Fin 512) (j : Fin 1024) :
    k2_pay1 x0 x1 x2 (ix2 r j) = (∑ k : Fin 1024, x0 (ix2 r k) * x1 (ix2 j k)) + x2 (ix2 0 j) := by
  unfold k2_pay1
  simp only [matmul, shapeCast_self]
  refine (addf_apply _ _ _).trans ?_
  refine congrArg₂ (· + ·) (dot2_apply x0 x1 r j) ?_
  exact broadcastTo_apply x2 _ (ix2 r j) (ix2 0 j) (fun a => by match a with | ⟨0, _⟩ => rfl | ⟨1, _⟩ => rfl)

/-- The same at any index of the block. -/
theorem pay2_at (x0 : Vec Ideal S512x1024 .bf16) (x1 : Vec Ideal S1024x1024 .bf16) (x2 : Vec Ideal S1x1024 .f32) (y : S512x1024.Idx) :
    k2_pay1 x0 x1 x2 y = (∑ k : Fin 1024, x0 (ix2 (y 0) k) * x1 (ix2 (y 1) k)) + x2 (ix2 0 (y 1)) := by
  obtain ⟨r, j, rfl⟩ : ∃ (r : Fin 512) (j : Fin 1024), y = ix2 r j := ⟨y 0, y 1, eq_ix2 y⟩
  exact pay2_apply x0 x1 x2 r j

variable (V : (c : Dev nD) → (b : Ref sig .tc) → Buf (Elt Ideal) ((c : Thread nD τ).loc b))

/-- The printed index maps over the grid: point `t` takes row block `t` of the rows and of the result, and the
    whole weights and bias. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row block at point `t` is rows `512 t … 512 t + 511` of the rows array. -/
theorem blk2_0_read (c : Dev nD) (t : Fin cfg2.N) (x : S512x1024.Idx) (i : S4096x1024.Idx)
    (h0 : (i 0).val = t.val * 512 + (x 0).val) (h1 : (i 1).val = (x 1).val) :
    (iblk2 V c 0 t : Vec Ideal S512x1024 .bf16) x = (V c main_v12 : S4096x1024.Idx → EReal) i := by
  obtain ⟨e0, e1, -⟩ := idx_facts2 t
  unfold iblk2
  rw [View.read_apply]
  show V c main_v12 _ = V c main_v12 _
  congr 1
  funext a
  apply Fin.ext
  match a with
  | ⟨0, _⟩ => show win2_0.index t (0 : Fin 2) * 512 + 1 * (x 0).val = (i 0).val; rw [e0, h0]; omega
  | ⟨1, _⟩ => show win2_0.index t (1 : Fin 2) * 1024 + 1 * (x 1).val = (i 1).val; rw [e1, h1]; omega

/-- The weight block at every point is the whole weight matrix. -/
theorem blk2_1_read (c : Dev nD) (t : Fin cfg2.N) (x : S1024x1024.Idx) (i : S1024x1024.Idx)
    (h0 : (i 0).val = (x 0).val) (h1 : (i 1).val = (x 1).val) :
    (iblk2 V c 1 t : Vec Ideal S1024x1024 .bf16) x = (V c main_v2 : S1024x1024.Idx → EReal) i := by
  obtain ⟨-, -, e0, e1, -⟩ := idx_facts2 t
  unfold iblk2
  rw [View.read_apply]
  show V c main_v2 _ = V c main_v2 _
  congr 1
  funext a
  apply Fin.ext
  match a with
  | ⟨0, _⟩ => show win2_1.index t (0 : Fin 2) * 1024 + 1 * (x 0).val = (i 0).val; rw [e0, h0]; omega
  | ⟨1, _⟩ => show win2_1.index t (1 : Fin 2) * 1024 + 1 * (x 1).val = (i 1).val; rw [e1, h1]; omega

/-- The bias block at every point is the whole bias row. -/
theorem blk2_2_read (c : Dev nD) (t : Fin cfg2.N) (x : S1x1024.Idx) (i : S1x1024.Idx)
    (h0 : (i 0).val = (x 0).val) (h1 : (i 1).val = (x 1).val) :
    (iblk2 V c 2 t : Vec Ideal S1x1024 .f32) x = (V c main_v13 : S1x1024.Idx → EReal) i := by
  obtain ⟨-, -, -, -, e0, e1, -⟩ := idx_facts2 t
  unfold iblk2
  rw [View.read_apply]
  show V c main_v13 _ = V c main_v13 _
  congr 1
  funext a
  apply Fin.ext
  match a with
  | ⟨0, _⟩ => show win2_2.index t (0 : Fin 2) * 1 + 1 * (x 0).val = (i 0).val; rw [e0, h0]; omega
  | ⟨1, _⟩ => show win2_2.index t (1 : Fin 2) * 1024 + 1 * (x 1).val = (i 1).val; rw [e1, h1]; omega

theorem hz2 : (![0, 0] : Fin 2 → Nat) = fun _ => 0 := funext fun a => by fin_cases a <;> rfl

/-- What point `t` writes back is block `t` of `linBias` of the three arrays as the region finds them. -/
theorem flushed2_eq (c : Dev nD) (t : Fin cfg2.N) :
    (dat2 (F := Ideal) V c).flushed 3 t = ((cfg2.win 3).blk t).view.read (Elt Ideal) (linBias (V c main_v12) (V c main_v2) (V c main_v13)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  funext y
  refine (pay2_at (iblk2 V c 0 t) (iblk2 V c 1 t) (iblk2 V c 2 t) y).trans ?_
  rw [View.read_apply]
  unfold linBias
  obtain ⟨-, -, -, -, -, -, e0, e1⟩ := idx_facts2 t
  have hy0 : (y 0).val < 512 := (y 0).isLt
  have hy1 : (y 1).val < 1024 := (y 1).isLt
  have r0 : ((((View.whole main_v14).slice ((win2 3).rect t)).emb y) 0).val = t.val * 512 + (y 0).val := by
    show win2_3.index t (0 : Fin 2) * 512 + 1 * (y 0).val = _
    rw [e0]; omega
  have r1 : ((((View.whole main_v14).slice ((win2 3).rect t)).emb y) 1).val = (y 1).val := by
    show win2_3.index t (1 : Fin 2) * 1024 + 1 * (y 1).val = _
    rw [e1]; omega
  refine congrArg₂ (· + ·) (Finset.sum_congr rfl fun k _ => congrArg₂ (· * ·) ?_ ?_) ?_
  · exact blk2_0_read V c t _ _ r0 rfl
  · exact blk2_1_read V c t _ _ r1 rfl
  · exact blk2_2_read V c t _ _ rfl r1

/-- An index of the result array is in point `t`'s block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v14).slice (win2_3.rect t)).set ↔ _
  rw [View.set_slice_whole, Rect.mem_set_unit]
  exact Iff.rfl

/-- Row `r` of the result lies in the block of point `r / 512`: the eight row blocks cover the array. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : grid2.N = 8 := N_2
  refine ⟨⟨(i 0).val / 512, by show _ < grid2.N; omega⟩, flush2_3 _, ?_⟩
  rw [mem_blk2]
  obtain ⟨-, -, -, -, -, -, e0, e1⟩ := idx_facts2 ⟨(i 0).val / 512, by show _ < grid2.N; omega⟩
  intro a
  match a with
  | ⟨0, _⟩ =>
    show win2_3.index _ (0 : Fin 2) * 512 ≤ (i 0).val ∧ (i 0).val < win2_3.index _ (0 : Fin 2) * 512 + 512
    rw [e0]; show (i 0).val / 512 * 512 ≤ (i 0).val ∧ (i 0).val < (i 0).val / 512 * 512 + 512; omega
  | ⟨1, _⟩ =>
    show win2_3.index _ (1 : Fin 2) * 1024 ≤ (i 1).val ∧ (i 1).val < win2_3.index _ (1 : Fin 2) * 1024 + 1024
    rw [e1]; omega

/-- THE RESULT ARRAY after region 2: `linBias` of the rows, the weights and the bias as the region finds them. -/
theorem final2_3 (c : Dev nD) :
    (dat2 (F := Ideal) V c).arrAt 3 cfg2.N = linBias (V c main_v12) (V c main_v2) (V c main_v13) :=
  (dat2 (F := Ideal) V c).arrAt_eq_of_cover 3 (linBias (V c main_v12) (V c main_v2) (V c main_v13))
    (fun t _ => flushed2_eq V c t) cover2

/-- Entry (r, j) of `linBias`. -/
theorem linBias_apply (A : S4096x1024.Idx → EReal) (W : S1024x1024.Idx → EReal) (B : S1x1024.Idx → EReal) (r : Fin 4096) (j : Fin 1024) :
    linBias A W B (ix2 r j) = (∑ k : Fin 1024, A (ix2 r k) * W (ix2 j k)) + B (ix2 0 j) := rfl

end Cert.KernelIdeal.HandValue

end
-- ==== Proof.AttnSpec.lean ====
/-
  What the attention call computes, as one function of its three input arrays (queries, keys, values, each
  [2, 16, 2048, 64]): for batch b, head h, query row q and output coordinate d, the softmax over all 2048 key rows of
  the scaled scores, contracted with the value column. The scale 1/8 and the two starting values (-inf for the
  maximum, 0 for the sums) are kept as the float words both programs print.
-/
import proofs.«108477_j14860586844639_2_alg».proof.KernelIdeal
import Idealize.ShloMosaic.PureOps.Ideal
import Idealize.ShloMosaic.Lib.ValueIdx

noncomputable section

namespace Cert.KernelIdeal.HandValue

open Cert.KernelIdeal Idealize.ShloMosaic Idealize.ShloMosaic.ValueIdx

/-- The scaled score of query row `q` against key row `kk` in head `(b, h)`. -/
def scOf (Q K : S2x16x2048x64.Idx → EReal) (b : Fin 2) (h : Fin 16) (q kk : Fin 2048) : EReal :=
  (∑ e : Fin 64, Q (ix4 b h q e) * K (ix4 b h kk e)) * Ideal.ofBits .f32 0x3E000000#32

/-- The row's maximum score (from -inf). -/
def mxOf (Q K : S2x16x2048x64.Idx → EReal) (b : Fin 2) (h : Fin 16) (q : Fin 2048) : EReal :=
  max (Ideal.ofBits .f32 0xFF800000#32) ((Finset.univ : Finset (Fin 2048)).fold max (Ideal.ofBits .f32 0xFF800000#32) fun kk => scOf Q K b h q kk)

/-- The row's normaliser. -/
def znOf (Q K : S2x16x2048x64.Idx → EReal) (b : Fin 2) (h : Fin 16) (q : Fin 2048) : EReal :=
  Ideal.ofBits .f32 0x00000000#32 + ∑ kk : Fin 2048, Ideal.exp (scOf Q K b h q kk - mxOf Q K b h q)

/-- The attention output at literal coordinates. -/
def attnAt (Q K Vv : S2x16x2048x64.Idx → EReal) (b : Fin 2) (h : Fin 16) (q : Fin 2048) (d : Fin 64) : EReal :=
  ∑ kk : Fin 2048, Ideal.div (Ideal.exp (scOf Q K b h q kk - mxOf Q K b h q)) (znOf Q K b h q) * Vv (ix4 b h kk d)

/-- The attention output as an array. -/
def attnOf (Q K Vv : S2x16x2048x64.Idx → EReal) : S2x16x2048x64.Idx → EReal :=
  fun i => attnAt Q K Vv (i 0) (i 1) (i 2) (i 3)

theorem attnOf_apply (Q K Vv : S2x16x2048x64.Idx → EReal) (b : Fin 2) (h : Fin 16) (q : Fin 2048) (d : Fin 64) :
    attnOf Q K Vv (ix4 b h q d) = attnAt Q K Vv b h q d := rfl

end Cert.KernelIdeal.HandValue

end
-- ==== Proof.Spec.lean ====
/-
  Multi-head attention as one function of the four argument arrays, entry by entry, over the extended reals.

  The input x has shape [2, 2048, 1024]; the projection weight has 3072 = 3 · 16 · 64 rows, row
  part · 1024 + h · 64 + d being coordinate d of head h of the query (part 0), key (part 1) or value (part 2)
  projection. A score is the inner product of a query and a key row over the 64 coordinates of a head, times 1/8 (kept as
  the float word it is written with). A row of scores is turned into weights by the softmax with the row's maximum
  subtracted: the maximum is taken from −∞ over the 2048 keys, the exponentials are summed from 0, and each exponential
  is divided by the sum. The weighted values, heads side by side (column c of the 1024 is coordinate c mod 64 of head
  c / 64), go through the output projection and the bias is added.
-/
import Idealize.ShloMosaic.PureOps.Ideal
import Idealize.ShloMosaic.Lib.ValueIdx

noncomputable section

open scoped BigOperators

namespace Cert.Spec

open Idealize.ShloMosaic

/-- Row of the projection weight holding coordinate `d` of head `h` of part `part` (0 query, 1 key, 2 value). -/
def wrow (part : Fin 3) (h : Fin 16) (d : Fin 64) : Fin 3072 :=
  ⟨part.val * 1024 + h.val * 64 + d.val, by have := part.isLt; have := h.isLt; have := d.isLt; omega⟩

theorem wrow_val (part : Fin 3) (h : Fin 16) (d : Fin 64) : (wrow part h d).val = part.val * 1024 + h.val * 64 + d.val := rfl

/-- Head of column `c` of the 1024 concatenated head coordinates. -/
def headOf (c : Fin 1024) : Fin 16 := ⟨c.val / 64, by have := c.isLt; omega⟩
/-- Coordinate inside its head of column `c`. -/
def coordOf (c : Fin 1024) : Fin 64 := ⟨c.val % 64, by omega⟩

theorem headOf_val (c : Fin 1024) : (headOf c).val = c.val / 64 := rfl
theorem coordOf_val (c : Fin 1024) : (coordOf c).val = c.val % 64 := rfl

variable (x : Fin 2 → Fin 2048 → Fin 1024 → EReal) (wqkv : Fin 3072 → Fin 1024 → EReal)
  (wout : Fin 1024 → Fin 1024 → EReal) (bout : Fin 1024 → EReal)

/-- The query / key / value projection: token `n` of batch `b` against row `wrow part h d` of the weight. -/
def proj (part : Fin 3) (b : Fin 2) (h : Fin 16) (n : Fin 2048) (d : Fin 64) : EReal :=
  ∑ k : Fin 1024, x b n k * wqkv (wrow part h d) k

/-- The scaled score of query `q` against key `kk`. -/
def score (b : Fin 2) (h : Fin 16) (q kk : Fin 2048) : EReal :=
  (∑ e : Fin 64, proj x wqkv 0 b h q e * proj x wqkv 1 b h kk e) * Ideal.ofBits .f32 0x3E000000#32

/-- The row maximum the softmax subtracts: −∞ against the maximum, taken from −∞, of the row's scores. -/
def rowMax (b : Fin 2) (h : Fin 16) (q : Fin 2048) : EReal :=
  max (Ideal.ofBits .f32 0xFF800000#32)
    ((Finset.univ : Finset (Fin 2048)).fold max (Ideal.ofBits .f32 0xFF800000#32) (fun kk => score x wqkv b h q kk))

/-- The exponential of a score with its row's maximum subtracted. -/
def expo (b : Fin 2) (h : Fin 16) (q kk : Fin 2048) : EReal :=
  Ideal.exp (score x wqkv b h q kk - rowMax x wqkv b h q)

/-- The softmax denominator of row `q`: the exponentials summed from 0. -/
def rowSum (b : Fin 2) (h : Fin 16) (q : Fin 2048) : EReal :=
  Ideal.ofBits .f32 0x00000000#32 + ∑ kk : Fin 2048, expo x wqkv b h q kk

/-- Attention of head `h`: the softmax weights of row `q` against the values' coordinate `d`. -/
def attnRef (b : Fin 2) (h : Fin 16) (q : Fin 2048) (d : Fin 64) : EReal :=
  ∑ kk : Fin 2048, Ideal.div (expo x wqkv b h q kk) (rowSum x wqkv b h q) * proj x wqkv 2 b h kk d

/-- The result at (b, n, f): the heads' outputs side by side against row `f` of the output weight, plus the bias. -/
def G (b : Fin 2) (n : Fin 2048) (f : Fin 1024) : EReal :=
  (∑ c : Fin 1024, attnRef x wqkv b (headOf c) n (coordOf c) * wout f c) + bout f

end Cert.Spec

end
-- ==== Proof.HostGlue.lean ====
/-
  The host operations around the three kernels, read at an entry, for arbitrary contents of the buffers they read.

  Before the first kernel: the conversions to the narrow float format are the identity on extended reals, and the
  projection weight's three row blocks (query, key, value), each regrouped as [16, 64, 1024], are the weight's rows
  part · 1024 + h · 64 + d. Between the second and third kernels: the attention output [2, 16, 2048, 64] is transposed to
  [2, 2048, 16, 64] and flattened to [4096, 1024], so row r, column c is entry (r / 2048, c / 64, r mod 2048, c mod 64); the
  bias becomes a [1, 1024] row. After the third kernel the [4096, 1024] result is regrouped as [2, 2048, 1024]: entry
  (b, n, f) is row b · 2048 + n, column f.
-/
import proofs.«108477_j14860586844639_2_alg».proof.Proof.Gen.KernelIdeal.Launch
import proofs.«108477_j14860586844639_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandValue

open Cert.KernelIdeal Cert.KernelIdeal.Gen Idealize.ShloMosaic Idealize.ShloMosaic.ValueIdx Idealize.ShloMosaic.StableHlo
  Idealize.SL.Sem

variable (W : Valuation τ sig (Elt Ideal))

/-! ## Before the first kernel -/

/-- The input in the narrow format is the input. -/
theorem host0_v0 :
    (StableHlo.after (Gen.hostOps0 (F := Ideal)) W (Proc.devRef .tc main_v0) : S2x2048x1024.Idx → EReal)
      = (W (Proc.devRef .tc main_arg0) : S2x2048x1024.Idx → EReal) := by
  after_results; rfl

/-- The output weight in the narrow format is the output weight. -/
theorem host0_v2 :
    (StableHlo.after (Gen.hostOps0 (F := Ideal)) W (Proc.devRef .tc main_v2) : S1024x1024.Idx → EReal)
      = (W (Proc.devRef .tc main_arg2) : S1024x1024.Idx → EReal) := by
  after_results; rfl

/-- The query third of the projection weight, cut out and regrouped by head: entry (h, d, k) of the [16, 64, 1024] array
    is the weight's entry (0 + h · 64 + d, k). -/
theorem host0_v4 (h : Fin 16) (d : Fin 64) (k : Fin 1024) :
    (StableHlo.after (Gen.hostOps0 (F := Ideal)) W (Proc.devRef .tc main_v4) : S16x64x1024.Idx → EReal) (ix3 h d k)
      = (W (Proc.devRef .tc main_arg1) : S3072x1024.Idx → EReal) (ix2 (Cert.Spec.wrow 0 h d) k) := by
  have e : (StableHlo.after (Gen.hostOps0 (F := Ideal)) W (Proc.devRef .tc main_v4) : S16x64x1024.Idx → EReal)
      = shapeCast S16x64x1024 (extractStridedSlice S1024x1024 ![0, 0]
          (W (Proc.devRef .tc main_arg1) : S3072x1024.Idx → EReal) slices_S3072x1024_S1024x1024_0_0)
          shapeCasts_S1024x1024_S16x64x1024 := by
    after_results; rfl
  rw [e]
  have hh := h.isLt; have hd := d.isLt
  refine (shapeCast_apply _ shapeCasts_S1024x1024_S16x64x1024 (ix3 h d k)
    (ix2 (⟨h.val * 64 + d.val, by omega⟩ : Fin 1024) k) ?_).trans ?_
  · rw [Shape.rowMajor_val_two, Shape.rowMajor_val_three]; rfl
  · exact extractStridedSlice_apply (s := S3072x1024) (t := S1024x1024) ![0, 0]
      (W (Proc.devRef .tc main_arg1) : S3072x1024.Idx → EReal) slices_S3072x1024_S1024x1024_0_0
      (ix2 (⟨h.val * 64 + d.val, by omega⟩ : Fin 1024) k) (ix2 (Cert.Spec.wrow 0 h d) k) (fun a => match a with
      | ⟨0, _⟩ => by show 0 * 1024 + h.val * 64 + d.val = 0 + (h.val * 64 + d.val); omega
      | ⟨1, _⟩ => by show k.val = 0 + k.val; omega)

/-- The key third of the projection weight, cut out and regrouped by head: entry (h, d, k) of the [16, 64, 1024] array
    is the weight's entry (1024 + h · 64 + d, k). -/
theorem host0_v6 (h : Fin 16) (d : Fin 64) (k : Fin 1024) :
    (StableHlo.after (Gen.hostOps0 (F := Ideal)) W (Proc.devRef .tc main_v6) : S16x64x1024.Idx → EReal) (ix3 h d k)
      = (W (Proc.devRef .tc main_arg1) : S3072x1024.Idx → EReal) (ix2 (Cert.Spec.wrow 1 h d) k) := by
  have e : (StableHlo.after (Gen.hostOps0 (F := Ideal)) W (Proc.devRef .tc main_v6) : S16x64x1024.Idx → EReal)
      = shapeCast S16x64x1024 (extractStridedSlice S1024x1024 ![1024, 0]
          (W (Proc.devRef .tc main_arg1) : S3072x1024.Idx → EReal) slices_S3072x1024_S1024x1024_1024_0)
          shapeCasts_S1024x1024_S16x64x1024 := by
    after_results; rfl
  rw [e]
  have hh := h.isLt; have hd := d.isLt
  refine (shapeCast_apply _ shapeCasts_S1024x1024_S16x64x1024 (ix3 h d k)
    (ix2 (⟨h.val * 64 + d.val, by omega⟩ : Fin 1024) k) ?_).trans ?_
  · rw [Shape.rowMajor_val_two, Shape.rowMajor_val_three]; rfl
  · exact extractStridedSlice_apply (s := S3072x1024) (t := S1024x1024) ![1024, 0]
      (W (Proc.devRef .tc main_arg1) : S3072x1024.Idx → EReal) slices_S3072x1024_S1024x1024_1024_0
      (ix2 (⟨h.val * 64 + d.val, by omega⟩ : Fin 1024) k) (ix2 (Cert.Spec.wrow 1 h d) k) (fun a => match a with
      | ⟨0, _⟩ => by show 1 * 1024 + h.val * 64 + d.val = 1024 + (h.val * 64 + d.val); omega
      | ⟨1, _⟩ => by show k.val = 0 + k.val; omega)

/-- The value third of the projection weight, cut out and regrouped by head: entry (h, d, k) of the [16, 64, 1024] array
    is the weight's entry (2048 + h · 64 + d, k). -/
theorem host0_v8 (h : Fin 16) (d : Fin 64) (k : Fin 1024) :
    (StableHlo.after (Gen.hostOps0 (F := Ideal)) W (Proc.devRef .tc main_v8) : S16x64x1024.Idx → EReal) (ix3 h d k)
      = (W (Proc.devRef .tc main_arg1) : S3072x1024.Idx → EReal) (ix2 (Cert.Spec.wrow 2 h d) k) := by
  have e : (StableHlo.after (Gen.hostOps0 (F := Ideal)) W (Proc.devRef .tc main_v8) : S16x64x1024.Idx → EReal)
      = shapeCast S16x64x1024 (extractStridedSlice S1024x1024 ![2048, 0]
          (W (Proc.devRef .tc main_arg1) : S3072x1024.Idx → EReal) slices_S3072x1024_S1024x1024_2048_0)
          shapeCasts_S1024x1024_S16x64x1024 := by
    after_results; rfl
  rw [e]
  have hh := h.isLt; have hd := d.isLt
  refine (shapeCast_apply _ shapeCasts_S1024x1024_S16x64x1024 (ix3 h d k)
    (ix2 (⟨h.val * 64 + d.val, by omega⟩ : Fin 1024) k) ?_).trans ?_
  · rw [Shape.rowMajor_val_two, Shape.rowMajor_val_three]; rfl
  · exact extractStridedSlice_apply (s := S3072x1024) (t := S1024x1024) ![2048, 0]
      (W (Proc.devRef .tc main_arg1) : S3072x1024.Idx → EReal) slices_S3072x1024_S1024x1024_2048_0
      (ix2 (⟨h.val * 64 + d.val, by omega⟩ : Fin 1024) k) (ix2 (Cert.Spec.wrow 2 h d) k) (fun a => match a with
      | ⟨0, _⟩ => by show 2 * 1024 + h.val * 64 + d.val = 2048 + (h.val * 64 + d.val); omega
      | ⟨1, _⟩ => by show k.val = 0 + k.val; omega)

/-! ## Between the second and the third kernel -/

/-- The attention output with the heads side by side, one row per token: row r, column c of the [4096, 1024] array is
    entry (r / 2048, c / 64, r mod 2048, c mod 64) of the [2, 16, 2048, 64] array. -/
theorem host2_v12 (r : Fin 4096) (c : Fin 1024) :
    (StableHlo.after (Gen.hostOps2 (F := Ideal)) W (Proc.devRef .tc main_v12) : S4096x1024.Idx → EReal) (ix2 r c)
      = (W (Proc.devRef .tc main_v10) : S2x16x2048x64.Idx → EReal)
          (ix4 (⟨r.val / 2048, by have := r.isLt; omega⟩ : Fin 2) (⟨c.val / 64, by have := c.isLt; omega⟩ : Fin 16)
            (⟨r.val % 2048, by omega⟩ : Fin 2048) (⟨c.val % 64, by omega⟩ : Fin 64)) := by
  have e : (StableHlo.after (Gen.hostOps2 (F := Ideal)) W (Proc.devRef .tc main_v12) : S4096x1024.Idx → EReal)
      = shapeCast S4096x1024 (transpose S2x2048x16x64 [0, 2, 1, 3]
          (W (Proc.devRef .tc main_v10) : S2x16x2048x64.Idx → EReal) transposes_S2x16x2048x64_S2x2048x16x64_0_2_1_3)
          shapeCasts_S2x2048x16x64_S4096x1024 := by
    after_results; rfl
  rw [e]
  have hr := r.isLt; have hc := c.isLt
  refine (shapeCast_apply _ shapeCasts_S2x2048x16x64_S4096x1024 (ix2 r c)
    (ix4 (⟨r.val / 2048, by omega⟩ : Fin 2) (⟨r.val % 2048, by omega⟩ : Fin 2048) (⟨c.val / 64, by omega⟩ : Fin 16)
      (⟨c.val % 64, by omega⟩ : Fin 64)) ?_).trans ?_
  · rw [Shape.rowMajor_val_four, Shape.rowMajor_val_two]
    show ((r.val / 2048 * 2048 + r.val % 2048) * 16 + c.val / 64) * 64 + c.val % 64 = r.val * 1024 + c.val
    omega
  · exact transpose_apply [0, 2, 1, 3] _ transposes_S2x16x2048x64_S2x2048x16x64_0_2_1_3 _ _ (fun b => match b with
      | ⟨0, _⟩ => rfl
      | ⟨1, _⟩ => rfl
      | ⟨2, _⟩ => rfl
      | ⟨3, _⟩ => rfl)

/-- The bias as a [1, 1024] row. -/
theorem host2_v13 (u : Fin 1) (j : Fin 1024) :
    (StableHlo.after (Gen.hostOps2 (F := Ideal)) W (Proc.devRef .tc main_v13) : S1x1024.Idx → EReal) (ix2 u j)
      = (W (Proc.devRef .tc main_arg3) : S1024.Idx → EReal) (ix1 j) := by
  have e : (StableHlo.after (Gen.hostOps2 (F := Ideal)) W (Proc.devRef .tc main_v13) : S1x1024.Idx → EReal)
      = shapeCast S1x1024 (W (Proc.devRef .tc main_arg3) : S1024.Idx → EReal) shapeCasts_S1024_S1x1024 := by
    after_results; rfl
  rw [e]
  have hu := u.isLt
  refine shapeCast_apply _ shapeCasts_S1024_S1x1024 (ix2 u j) (ix1 j) ?_
  rw [Shape.rowMajor_val_one, Shape.rowMajor_val_two]
  show j.val = u.val * 1024 + j.val
  omega

/-! ## After the third kernel -/

/-- The result regrouped by batch: entry (b, n, f) is row b · 2048 + n, column f of the [4096, 1024] array. -/
theorem host3_v15 (b : Fin 2) (n : Fin 2048) (f : Fin 1024) :
    (StableHlo.after (Gen.hostOps3 (F := Ideal)) W (Proc.devRef .tc main_v15) : S2x2048x1024.Idx → EReal) (ix3 b n f)
      = (W (Proc.devRef .tc main_v14) : S4096x1024.Idx → EReal)
          (ix2 (⟨b.val * 2048 + n.val, by have := b.isLt; have := n.isLt; omega⟩ : Fin 4096) f) := by
  have e : (StableHlo.after (Gen.hostOps3 (F := Ideal)) W (Proc.devRef .tc main_v15) : S2x2048x1024.Idx → EReal)
      = shapeCast S2x2048x1024 (W (Proc.devRef .tc main_v14) : S4096x1024.Idx → EReal)
          shapeCasts_S4096x1024_S2x2048x1024 := by
    after_results; rfl
  rw [e]
  refine shapeCast_apply _ shapeCasts_S4096x1024_S2x2048x1024 (ix3 b n f) _ ?_
  rw [Shape.rowMajor_val_two, Shape.rowMajor_val_three]
  rfl

end Cert.KernelIdeal.HandValue

end
-- ==== Proof.Finite.lean ====
/-
  Finite inputs are real: from the precondition that every entry of the four argument arrays has absolute value below +∞,
  every entry is the coercion of a real number.

  The precondition is the conjunction of four "all entries" reductions by `and`, one per array, of the comparison
  |x| < +∞ entry by entry. A conjunction of one-bit words that is 1 has every conjunct 1; a reduction by `and` from 1 over
  all axes that is 1 had a 1 at every entry; and an extended real whose absolute value max x (−x) lies below +∞ is neither
  +∞ nor −∞.
-/
import proofs.«108477_j14860586844639_2_alg».proof.Defs
import proofs.«108477_j14860586844639_2_alg».proof.Proof.Gen.Pre_finite_inputs
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Idealize.SL.Sem

/-- The scalar shape has one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max x (−x) compares below +∞ is a real number. -/
theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    have : Ideal.cmp .olt (max x (-x)) ⊤ = 0#1 := by
      unfold Ideal.cmp
      simp [hn]
    rw [this] at h
    exact absurd h (by decide)
  induction x using EReal.rec with
  | bot => exact absurd hlt (by simp)
  | coe r => exact ⟨r, rfl⟩
  | top => exact absurd hlt (by simp)

/-- One array's conjunct: if the reduction by `and` over all axes of "|x| < +∞" is 1, every entry of `x` is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) (i : s.Idx) : ∃ r : ℝ, x i = (r : EReal) := by
  have h1 := Host.reduce_andi_all _ _ hr hu ix0 e i
  rw [cmpf_apply, broadcastInDim_apply _ hb _ i ix0 (fun c => c.elim0)] at h1
  exact real_of_abs_lt (x i) h1

open Cert.KernelIdeal in
/-- FINITENESS: under the precondition every entry of each of the four argument arrays of every device is a real. -/
theorem real_inputs (m : (ℓ : Loc nD τ sig) → Buf (Elt Ideal) ℓ) (hpre : Cert.Pre_KernelIdeal m) (c : Dev nD) :
    (∀ i : S2x2048x1024.Idx, ∃ r : ℝ, (m ((c.tc : Thread nD τ).loc main_arg0) : S2x2048x1024.Idx → EReal) i = (r : EReal))
    ∧ (∀ i : S3072x1024.Idx, ∃ r : ℝ, (m ((c.tc : Thread nD τ).loc main_arg1) : S3072x1024.Idx → EReal) i = (r : EReal))
    ∧ (∀ i : S1024x1024.Idx, ∃ r : ℝ, (m ((c.tc : Thread nD τ).loc main_arg2) : S1024x1024.Idx → EReal) i = (r : EReal))
    ∧ (∀ i : S1024.Idx, ∃ r : ℝ, (m ((c.tc : Thread nD τ).loc main_arg3) : S1024.Idx → EReal) i = (r : EReal)) := by
  have h0 := congrFun (hpre c) ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real _ _ _ _ h0', all_real _ _ _ _ h1, all_real _ _ _ _ h2, all_real _ _ _ _ h3⟩

end Cert.Finite

end
-- ==== Proof.LibOnlineSoftmax.lean ====
/-
  Online softmax, over the reals.

  A softmax-weighted sum  (∑ₖ e^{sₖ - c} vₖ) / (∑ₖ e^{sₖ - c})  over a finite set of keys can be accumulated block
  of keys by block of keys, carrying a reference point `m` (in practice the running maximum, but ANY real works:
  the maximum only serves numerical range), a denominator `l = ∑_{k ∈ J} e^{sₖ - m}` and a numerator
  `acc = ∑_{k ∈ J} e^{sₖ - m} vₖ` over the keys `J` seen so far. Moving the reference point from `m` to `m'` multiplies
  both by `e^{m - m'}`, because `e^{m - m'} · e^{s - m} = e^{s - m'}`; a new block `J'` then adds its own terms at `m'`.
  While no key has been seen both sums are `0` and the factor is irrelevant (so a first step whose factor is
  `e^{-∞} = 0` is covered). At the end the quotient `acc / l` does not depend on the reference point (softmax is
  invariant under a shift of the scores), so it is the softmax-weighted sum at any other shift `c` — the global
  maximum, in the usual two-pass formula.

  Nothing here mentions a program: the statements are about finite sums of real exponentials.
-/
import Mathlib.Analysis.SpecialFunctions.Exp
import Mathlib.Algebra.BigOperators.Field

namespace LibOnlineSoftmax

open Finset

variable {ι : Type*} [DecidableEq ι]

/-- Moving the reference point of one weight: `e^{m - m'} · e^{s - m} = e^{s - m'}`. -/
theorem rescale (s m m' : ℝ) : Real.exp (m - m') * Real.exp (s - m) = Real.exp (s - m') := by
  rw [← Real.exp_add]; congr 1; ring

/-- One block of the DENOMINATOR. If `l` is the sum of the weights `e^{sₖ - m}` over the keys `J` seen so far, and `a`
    is the factor `e^{m - m'}` (required only when some key has been seen), then `a · l` plus the new block's weights
    at `m'` is the sum of the weights at `m'` over `J ∪ J'`. -/
theorem step_den (J J' : Finset ι) (hd : Disjoint J J') (s : ι → ℝ) (m m' a l : ℝ)
    (hl : l = ∑ k ∈ J, Real.exp (s k - m)) (ha : J.Nonempty → a = Real.exp (m - m')) :
    a * l + ∑ k ∈ J', Real.exp (s k - m') = ∑ k ∈ J ∪ J', Real.exp (s k - m') := by
  rw [sum_union hd]; congr 1
  rcases J.eq_empty_or_nonempty with h | h
  · subst h; simp [hl]
  · rw [hl, ha h, mul_sum]; exact sum_congr rfl fun k _ => rescale _ _ _

/-- One block of the NUMERATOR: the same with each weight multiplied by the key's value `vₖ`. -/
theorem step_num (J J' : Finset ι) (hd : Disjoint J J') (s v : ι → ℝ) (m m' a acc : ℝ)
    (hacc : acc = ∑ k ∈ J, Real.exp (s k - m) * v k) (ha : J.Nonempty → a = Real.exp (m - m')) :
    a * acc + ∑ k ∈ J', Real.exp (s k - m') * v k = ∑ k ∈ J ∪ J', Real.exp (s k - m') * v k := by
  rw [sum_union hd]; congr 1
  rcases J.eq_empty_or_nonempty with h | h
  · subst h; simp [hacc]
  · rw [hacc, ha h, mul_sum]
    exact sum_congr rfl fun k _ => by rw [← mul_assoc, rescale]

/-- The quotient does not depend on the reference point: numerator over denominator at `m` is the
    softmax-weighted sum written with the weights normalised at any other shift `c`. -/
theorem quotient_shift (J : Finset ι) (s v : ι → ℝ) (m c : ℝ) :
    (∑ k ∈ J, Real.exp (s k - m) * v k) / (∑ k ∈ J, Real.exp (s k - m))
      = ∑ k ∈ J, (Real.exp (s k - c) / ∑ j ∈ J, Real.exp (s j - c)) * v k := by
  have hw : ∀ k, Real.exp (s k - m) = Real.exp (c - m) * Real.exp (s k - c) := fun k => (rescale _ _ _).symm
  simp only [hw, mul_assoc, ← mul_sum]
  rw [mul_div_mul_left _ _ (Real.exp_ne_zero _), sum_div]
  exact sum_congr rfl fun k _ => by rw [div_mul_eq_mul_div]

/-- The denominator is positive as soon as a key has been seen (so the final division is a real division). -/
theorem den_pos (J : Finset ι) (hJ : J.Nonempty) (s : ι → ℝ) (m : ℝ) : 0 < ∑ k ∈ J, Real.exp (s k - m) :=
  sum_pos (fun _ _ => Real.exp_pos _) hJ

/-! ## The same, block by block over a numbered sequence of blocks

Keys numbered (block, position in the block): after `b` blocks the sums run over the blocks below `b`. -/

open Finset in
/-- One block of the numerator (take `w ≡ 1` for the denominator): the sum over the blocks below `b` at reference point
    `m`, times the factor `a = e^{m - m'}` (required only when `b ≠ 0`), plus block `b`'s terms at `m'`, is the sum over the
    blocks below `b + 1` at `m'`. -/
theorem step_range {κ : Type*} [Fintype κ] (s w : ℕ → κ → ℝ) (b : ℕ) (m m' a : ℝ) (ha : b ≠ 0 → a = Real.exp (m - m')) :
    a * (∑ b' ∈ range b, ∑ j, Real.exp (s b' j - m) * w b' j) + ∑ j, Real.exp (s b j - m') * w b j
      = ∑ b' ∈ range (b + 1), ∑ j, Real.exp (s b' j - m') * w b' j := by
  rw [sum_range_succ]; congr 1
  rcases Nat.eq_zero_or_pos b with h | h
  · subst h; simp
  · rw [ha (Nat.pos_iff_ne_zero.mp h), mul_sum]
    refine sum_congr rfl fun b' _ => ?_
    rw [mul_sum]
    exact sum_congr rfl fun j _ => by rw [← mul_assoc, rescale]

open Finset in
/-- The quotient over all blocks below `B` is the softmax-weighted sum, whatever the reference point. -/
theorem quotient_shift_range {κ : Type*} [Fintype κ] (s w : ℕ → κ → ℝ) (B : ℕ) (m : ℝ) :
    (∑ b ∈ range B, ∑ j, Real.exp (s b j - m) * w b j) / (∑ b ∈ range B, ∑ j, Real.exp (s b j - m))
      = ∑ b ∈ range B, ∑ j, (Real.exp (s b j) / ∑ b' ∈ range B, ∑ j', Real.exp (s b' j')) * w b j := by
  have hw : ∀ b j, Real.exp (s b j - m) = Real.exp (-m) * Real.exp (s b j) := fun b j => by
    rw [← Real.exp_add]; congr 1; ring
  simp only [hw, mul_assoc, ← mul_sum]
  rw [mul_div_mul_left _ _ (Real.exp_ne_zero _), sum_div]
  refine sum_congr rfl fun b _ => ?_
  rw [sum_div]
  exact sum_congr rfl fun j _ => by rw [div_mul_eq_mul_div]

end LibOnlineSoftmax
-- ==== Proof.LibTiles.lean ====
/-
  Sums over an index set cut into equal tiles.
-/
import Mathlib.Algebra.BigOperators.Fin
import Mathlib.Logic.Equiv.Fin.Basic

namespace Cert.LibTiles

/-- Entry `q` of tile `k`, among `K` tiles of `T` entries each, counted from the start: `k · T + q`. -/
def tileIdx {K T : Nat} (k : Fin K) (q : Fin T) : Fin (K * T) :=
  ⟨k.val * T + q.val, by
    have h1 : k.val * T + T ≤ K * T := by
      have := Nat.mul_le_mul_right T (Nat.succ_le_of_lt k.isLt)
      rwa [Nat.succ_mul] at this
    have := q.isLt
    omega⟩

/-- A sum over `K · T` entries is the sum over the tiles of the sums inside each tile. -/
theorem sum_tiles {M : Type*} [AddCommMonoid M] {K T : Nat} (f : Fin (K * T) → M) :
    ∑ k : Fin K, ∑ q : Fin T, f (tileIdx k q) = ∑ n : Fin (K * T), f n := by
  rw [← Equiv.sum_comp finProdFinEquiv f, Fintype.sum_prod_type]
  refine Finset.sum_congr rfl fun k _ => Finset.sum_congr rfl fun q _ => congrArg f (Fin.ext ?_)
  show k.val * T + q.val = q.val + T * k.val
  rw [Nat.add_comm, Nat.mul_comm]

/-- The same for 262144 entries cut into 8 tiles of 32768. -/
theorem sum_tiles_grid {M : Type*} [AddCommMonoid M] (f : Fin 262144 → M) :
    ∑ k : Fin 8, ∑ q : Fin 32768, f ⟨k.val * 32768 + q.val, by have := k.isLt; have := q.isLt; omega⟩
      = ∑ n : Fin 262144, f n := by
  have h : 8 * 32768 = 262144 := by decide
  rw [← Equiv.sum_comp (finCongr h) f, ← sum_tiles (K := 8) (T := 32768) fun n => f (finCongr h n)]
  exact Finset.sum_congr rfl fun k _ => Finset.sum_congr rfl fun q _ => congrArg f (Fin.ext rfl)

end Cert.LibTiles
-- ==== Proof.SoftmaxLaw.lean ====
/-
  The online softmax against the normalised softmax, over the extended reals.

  A row of attention is a softmax-weighted sum of the values: with scores s and values v over the keys,
  out = ∑ₖ (e^{sₖ - M} / ∑ₖ' e^{sₖ' - M}) · vₖ, where M is the largest score. The same number can be accumulated
  one block of keys at a time, carrying the running maximum m, the denominator l = ∑ e^{s - m} and the numerator
  acc = ∑ e^{s - m} v over the keys seen so far: a new block moves the reference point from m to the new maximum
  m' — which multiplies l and acc by e^{m - m'} — and adds its own terms at m'; the quotient acc / l at the end does
  not depend on the reference point. Before the first block the running maximum is -∞ and both sums are 0, so the
  first factor is e^{-∞ - m'} = 0, multiplying 0.

  Here both sides are written with the operations of the extended reals as a float program reads them (the
  exponential with e^{-∞} = 0, the quotient with its corners, the words of -∞ and of 0) and proved equal for real
  scores and values: after the first block every carried quantity is a real number, the block maximum being a
  maximum over a nonempty set of reals, so the identity is the one over the reals.

-/
import Idealize.ShloMosaic.PureOps.Ideal
import proofs.«108477_j14860586844639_2_alg».proof.Proof.LibOnlineSoftmax
import proofs.«108477_j14860586844639_2_alg».proof.Proof.LibTiles

noncomputable section

namespace Cert.SoftmaxLaw

open Idealize.ShloMosaic Finset

/-- The f32 word of -∞. -/
local notation "NEG" => Ideal.ofBits FTy.f32 0xFF800000#32
/-- The f32 word of zero. -/
local notation "ZERO" => Ideal.ofBits FTy.f32 0x00000000#32

/-! ## The words -/

/-- The f32 word 0xFF800000 is -∞. -/
theorem neg_word : NEG = (⊥ : EReal) := by simp [Ideal.ofBits, Ideal.ieee]

/-- The f32 word 0x00000000 is zero. -/
theorem zero_word : ZERO = (0 : EReal) := by simp [Ideal.ofBits, Ideal.ieee]

/-- The f32 word 0x3E000000 is the real 2⁻³, one eighth. -/
theorem eighth_word : Ideal.ofBits FTy.f32 0x3E000000#32 = (((0.125 : ℝ)) : EReal) := by
  simp [Ideal.ofBits, Ideal.ieee, -EReal.coe_mul]; norm_num

/-- A real times the word of one eighth is the real product. -/
theorem mul_eighth (r : ℝ) : (r : EReal) * Ideal.ofBits FTy.f32 0x3E000000#32 = ((r * 0.125 : ℝ) : EReal) := by
  rw [eighth_word, EReal.coe_mul]

/-! ## Coercions through finite sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [sum_insert ha, sum_insert ha, EReal.coe_add, ih]

/-- A dot product of two real vectors, computed in the extended reals, is the real dot product. -/
theorem dot_coe {n : ℕ} (x w : Fin n → ℝ) :
    ∑ k, (x k : EReal) * (w k : EReal) = ((∑ k, x k * w k : ℝ) : EReal) := by
  rw [coe_sum]; exact sum_congr rfl fun k _ => (EReal.coe_mul _ _).symm

/-! ## A maximum folded from -∞ over a nonempty set of reals is a real -/

/-- The fold of max from -∞ over a nonempty finite set of reals is the coercion of a real: the largest of them. -/
theorem fold_max_coe {ι : Type*} (s : Finset ι) (hs : s.Nonempty) (f : ι → ℝ) :
    ∃ r : ℝ, s.fold max (⊥ : EReal) (fun i => (f i : EReal)) = (r : EReal) ∧ (∀ i ∈ s, f i ≤ r) ∧ ∃ i ∈ s, f i = r := by
  classical
  induction hs using Finset.Nonempty.cons_induction with
  | singleton a =>
    exact ⟨f a, by rw [fold_singleton]; exact max_bot_right _, fun i hi => by rw [mem_singleton.mp hi],
      a, mem_singleton_self a, rfl⟩
  | cons a s ha hs ih =>
    obtain ⟨r, hr, hle, i, hi, hir⟩ := ih
    refine ⟨max (f a) r, ?_, fun j hj => ?_, ?_⟩
    · rw [fold_cons, hr, ← EReal.coe_strictMono.monotone.map_max]
    · rcases mem_cons.mp hj with rfl | hj
      · exact le_max_left _ _
      · exact (hle j hj).trans (le_max_right _ _)
    · rcases le_total (f a) r with h | h
      · exact ⟨i, mem_cons.mpr (Or.inr hi), by rw [hir, max_eq_right h]⟩
      · exact ⟨a, mem_cons_self a s, by rw [max_eq_left h]⟩

/-! ## The recurrence, one block of keys at a time

The state is the running maximum m, the denominator l and the numerator acc; a block brings its scores sb and its
values vb, T of each. -/

variable {T : ℕ}

/-- The largest score of a block, folded from the word of -∞. -/
def bmax (sb : Fin T → ℝ) : EReal := (univ : Finset (Fin T)).fold max NEG fun k => ((sb k : ℝ) : EReal)

/-- The running maximum after a block. -/
def mNext (m : EReal) (sb : Fin T → ℝ) : EReal := max m (bmax sb)

/-- The factor e^{m - m'} that moves what has been summed so far from the old maximum to the new one. -/
def aFac (m : EReal) (sb : Fin T → ℝ) : EReal := Ideal.exp (m - mNext m sb)

/-- The weight of key k of the block, at the new maximum. -/
def pW (m : EReal) (sb : Fin T → ℝ) (k : Fin T) : EReal := Ideal.exp (((sb k : ℝ) : EReal) - mNext m sb)

/-- The denominator after a block: the old one rescaled, plus the block's weights summed from the word of zero. -/
def lNext (m l : EReal) (sb : Fin T → ℝ) : EReal := aFac m sb * l + (ZERO + ∑ k, pW m sb k)

/-- The numerator after a block: the old one rescaled, plus the block's weighted values summed from the word of zero. -/
def accNext (m acc : EReal) (sb vb : Fin T → ℝ) : EReal :=
  aFac m sb * acc + (ZERO + ∑ k, pW m sb k * ((vb k : ℝ) : EReal))

/-- The running maximum after the first n blocks of a sequence of blocks; before any block, the word of -∞. -/
def mRec (s : ℕ → Fin T → ℝ) : ℕ → EReal
  | 0 => NEG
  | n + 1 => mNext (mRec s n) (s n)

/-- The denominator after the first n blocks; before any block, the word of zero. -/
def lRec (s : ℕ → Fin T → ℝ) : ℕ → EReal
  | 0 => ZERO
  | n + 1 => lNext (mRec s n) (lRec s n) (s n)

/-- The numerator after the first n blocks; before any block, the word of zero. -/
def accRec (s v : ℕ → Fin T → ℝ) : ℕ → EReal
  | 0 => ZERO
  | n + 1 => accNext (mRec s n) (accRec s v n) (s n) (v n)

/-- The online result after B blocks: numerator over denominator. -/
def outKernel (s v : ℕ → Fin T → ℝ) (B : ℕ) : EReal := Ideal.div (accRec s v B) (lRec s B)

/-- B blocks given by number below B, continued by zeros (the continuation is never read by the first B steps). -/
def extB {B : ℕ} (s : Fin B → Fin T → ℝ) : ℕ → Fin T → ℝ := fun b => if h : b < B then s ⟨b, h⟩ else fun _ => 0

@[simp] theorem extB_val {B : ℕ} (s : Fin B → Fin T → ℝ) (j : Fin B) : extB s j.val = s j := by
  simp [extB, j.isLt]

/-! ## Every carried quantity is a real after the first block -/

theorem univ_fin_nonempty [NeZero T] : (univ : Finset (Fin T)).Nonempty :=
  ⟨⟨0, Nat.pos_of_ne_zero (NeZero.ne T)⟩, mem_univ _⟩

/-- A block's maximum is a real, the largest score of the block. -/
theorem bmax_coe [NeZero T] (sb : Fin T → ℝ) :
    ∃ β : ℝ, bmax sb = (β : EReal) ∧ (∀ k, sb k ≤ β) ∧ ∃ k, sb k = β := by
  obtain ⟨r, hr, hle, k, -, hk⟩ := fold_max_coe univ univ_fin_nonempty sb
  exact ⟨r, by rw [bmax, neg_word, hr], fun k => hle k (mem_univ k), k, hk⟩

/-- One block in real terms. If the running maximum is -∞ (no block yet) or a real mr, then after the block it is a real
    m', the factor is a real a — equal to e^{mr - m'} when the old maximum was the real mr — and the weights are the
    real exponentials at m'. -/
theorem step_real [NeZero T] (m : EReal) (mr : ℝ) (hm : m = ⊥ ∨ m = (mr : EReal)) (sb : Fin T → ℝ) :
    ∃ m' a : ℝ, mNext m sb = (m' : EReal) ∧ aFac m sb = (a : EReal) ∧ (m = (mr : EReal) → a = Real.exp (mr - m')) ∧
      ∀ k, pW m sb k = ((Real.exp (sb k - m') : ℝ) : EReal) := by
  obtain ⟨β, hβ, -⟩ := bmax_coe sb
  have hp : ∀ (m' : ℝ), mNext m sb = (m' : EReal) → ∀ k, pW m sb k = ((Real.exp (sb k - m') : ℝ) : EReal) := by
    intro m' h k
    rw [pW, h, ← EReal.coe_sub]; rfl
  rcases hm with rfl | rfl
  · have h1 : mNext (⊥ : EReal) sb = (β : EReal) := by rw [mNext, hβ, max_bot_left]
    refine ⟨β, 0, h1, ?_, fun h => absurd h (EReal.bot_ne_coe mr), hp β h1⟩
    rw [aFac, h1, EReal.bot_sub]; rfl
  · have h1 : mNext ((mr : ℝ) : EReal) sb = ((max mr β : ℝ) : EReal) := by
      rw [mNext, hβ, EReal.coe_strictMono.monotone.map_max]
    refine ⟨max mr β, Real.exp (mr - max mr β), h1, ?_, fun _ => rfl, hp _ h1⟩
    rw [aFac, h1, ← EReal.coe_sub]; rfl

/-- After n blocks: the running maximum is -∞ when n = 0 and a real mr otherwise, and the denominator and the
    numerator are the real sums of the weights e^{s - mr}, and of the weighted values, over the blocks seen. -/
theorem rec_real [NeZero T] (s v : ℕ → Fin T → ℝ) (n : ℕ) :
    ∃ mr : ℝ, (n = 0 → mRec s n = ⊥) ∧ (n ≠ 0 → mRec s n = (mr : EReal)) ∧
      lRec s n = ((∑ b ∈ range n, ∑ k, Real.exp (s b k - mr) : ℝ) : EReal) ∧
      accRec s v n = ((∑ b ∈ range n, ∑ k, Real.exp (s b k - mr) * v b k : ℝ) : EReal) := by
  induction n with
  | zero =>
    refine ⟨0, fun _ => neg_word, fun h => absurd rfl h, ?_, ?_⟩
    · simp [lRec, zero_word]
    · simp [accRec, zero_word]
  | succ n ih =>
    obtain ⟨mr, h0, h1, hl, hacc⟩ := ih
    have hm : mRec s n = ⊥ ∨ mRec s n = (mr : EReal) := by
      rcases Nat.eq_zero_or_pos n with h | h
      · exact Or.inl (h0 h)
      · exact Or.inr (h1 (Nat.pos_iff_ne_zero.mp h))
    obtain ⟨m', a, hm', ha, haexp, hp⟩ := step_real (mRec s n) mr hm (s n)
    have ha' : n ≠ 0 → a = Real.exp (mr - m') := fun h => haexp (h1 h)
    refine ⟨m', fun h => absurd h (Nat.succ_ne_zero n), fun _ => hm', ?_, ?_⟩
    · have e := LibOnlineSoftmax.step_range s (fun _ _ => (1 : ℝ)) n mr m' a ha'
      simp only [mul_one] at e
      rw [← e]
      show lNext (mRec s n) (lRec s n) (s n) = _
      rw [lNext, ha, hl, zero_word, zero_add, EReal.coe_add, EReal.coe_mul, coe_sum univ]
      simp only [hp]
    · have e := LibOnlineSoftmax.step_range s v n mr m' a ha'
      rw [← e]
      show accNext (mRec s n) (accRec s v n) (s n) (v n) = _
      rw [accNext, ha, hacc, zero_word, zero_add, EReal.coe_add, EReal.coe_mul, coe_sum univ]
      simp only [hp, EReal.coe_mul]

/-! ## The online result is the normalised softmax, at any real shift -/

/-- The sum of the weights over B ≥ 1 nonempty blocks is positive. -/
theorem den_pos [NeZero T] (s : ℕ → Fin T → ℝ) {B : ℕ} (hB : B ≠ 0) (c : ℝ) :
    0 < ∑ b ∈ range B, ∑ k, Real.exp (s b k - c) :=
  sum_pos (fun _ _ => sum_pos (fun _ _ => Real.exp_pos _) univ_fin_nonempty) (nonempty_range_iff.mpr hB)

/-- The online result after B ≥ 1 blocks is the softmax-weighted sum of the values, the weights normalised at ANY real
    shift c: each exponential divided by the sum, taken from the word of zero, of all of them, times the value. -/
theorem outKernel_eq_shift [NeZero T] (s v : ℕ → Fin T → ℝ) {B : ℕ} (hB : B ≠ 0) (c : ℝ) :
    outKernel s v B = ∑ b ∈ range B, ∑ k,
      Ideal.div (Ideal.exp (((s b k : ℝ) : EReal) - (c : EReal)))
        (ZERO + ∑ b' ∈ range B, ∑ k', Ideal.exp (((s b' k' : ℝ) : EReal) - (c : EReal))) * ((v b k : ℝ) : EReal) := by
  obtain ⟨mr, -, -, hl, hacc⟩ := rec_real s v B
  have hL := den_pos s hB mr
  have hZ := den_pos s hB c
  have hexp : ∀ b k, Ideal.exp (((s b k : ℝ) : EReal) - (c : EReal)) = ((Real.exp (s b k - c) : ℝ) : EReal) :=
    fun b k => by rw [← EReal.coe_sub]; rfl
  have hZc : ZERO + ∑ b' ∈ range B, ∑ k', Ideal.exp (((s b' k' : ℝ) : EReal) - (c : EReal))
      = ((∑ b' ∈ range B, ∑ k', Real.exp (s b' k' - c) : ℝ) : EReal) := by
    rw [zero_word, zero_add, coe_sum]
    refine sum_congr rfl fun b _ => ?_
    rw [coe_sum]; exact sum_congr rfl fun k _ => hexp b k
  rw [hZc, outKernel, hl, hacc, Ideal.div_coe hL.ne', ← EReal.coe_mul, mul_one_div]
  have e := LibOnlineSoftmax.quotient_shift (range B ×ˢ (univ : Finset (Fin T))) (fun p => s p.1 p.2)
    (fun p => v p.1 p.2) mr c
  simp only [sum_product] at e
  rw [e, coe_sum]
  refine sum_congr rfl fun b _ => ?_
  rw [coe_sum]
  refine sum_congr rfl fun k _ => ?_
  rw [hexp, Ideal.div_coe hZ.ne', ← EReal.coe_mul, ← EReal.coe_mul, mul_one_div]

/-- The same with the B blocks numbered by Fin B. -/
theorem outKernel_extB_eq_shift [NeZero T] {B : ℕ} (hB : B ≠ 0) (s v : Fin B → Fin T → ℝ) (c : ℝ) :
    outKernel (extB s) (extB v) B = ∑ j : Fin B, ∑ k : Fin T,
      Ideal.div (Ideal.exp (((s j k : ℝ) : EReal) - (c : EReal)))
        (ZERO + ∑ j' : Fin B, ∑ k' : Fin T, Ideal.exp (((s j' k' : ℝ) : EReal) - (c : EReal)))
        * ((v j k : ℝ) : EReal) := by
  rw [outKernel_eq_shift (extB s) (extB v) hB c, sum_range, sum_range]
  simp only [extB_val]

/-- Four blocks, step by step from the empty state. -/
theorem outKernel_four (s v : Fin 4 → Fin T → ℝ) :
    outKernel (extB s) (extB v) 4 =
      (let m0 := mNext NEG (s 0); let l0 := lNext NEG ZERO (s 0); let a0 := accNext NEG ZERO (s 0) (v 0)
       let m1 := mNext m0 (s 1); let l1 := lNext m0 l0 (s 1); let a1 := accNext m0 a0 (s 1) (v 1)
       let m2 := mNext m1 (s 2); let l2 := lNext m1 l1 (s 2); let a2 := accNext m1 a1 (s 2) (v 2)
       Ideal.div (accNext m2 a2 (s 3) (v 3)) (lNext m2 l2 (s 3))) := rfl

/-! ## 2048 keys in 4 tiles of 512 -/

/-- Key k of tile j, counted from the start: j · 512 + k. -/
def tile (j : Fin 4) (k : Fin 512) : Fin 2048 := ⟨j.val * 512 + k.val, by have := j.isLt; have := k.isLt; omega⟩

theorem tile_val (j : Fin 4) (k : Fin 512) : (tile j k).val = j.val * 512 + k.val := rfl

/-- Every key is key (kk mod 512) of tile (kk / 512). -/
theorem tile_div_mod (kk : Fin 2048) :
    tile ⟨kk.val / 512, by have := kk.isLt; omega⟩ ⟨kk.val % 512, Nat.mod_lt _ (by decide)⟩ = kk :=
  Fin.ext (Nat.div_add_mod' kk.val 512)

/-- A sum over the 2048 keys is the sum over the tiles of the sums inside each tile. -/
theorem sum_tile {M : Type*} [AddCommMonoid M] (f : Fin 2048 → M) :
    ∑ j : Fin 4, ∑ k : Fin 512, f (tile j k) = ∑ n : Fin 2048, f n := by
  have h : 4 * 512 = 2048 := by decide
  rw [← Equiv.sum_comp (finCongr h) f, ← LibTiles.sum_tiles (K := 4) (T := 512) fun n => f (finCongr h n)]
  exact sum_congr rfl fun k _ => sum_congr rfl fun q _ => congrArg f (Fin.ext rfl)

/-- The row maximum of the two-pass softmax — the word of -∞ against the fold of max, from that word, over the 2048
    scores — is a real: the largest score. -/
theorem rowMax_coe (S : Fin 2048 → ℝ) :
    ∃ c : ℝ, max NEG ((univ : Finset (Fin 2048)).fold max NEG fun kk => ((S kk : ℝ) : EReal)) = (c : EReal) ∧
      (∀ kk, S kk ≤ c) ∧ ∃ kk, S kk = c := by
  obtain ⟨r, hr, hle, k, -, hk⟩ := fold_max_coe univ (univ_fin_nonempty (T := 2048)) S
  exact ⟨r, by rw [neg_word, hr, max_bot_left], fun kk => hle kk (mem_univ _), k, hk⟩

/-- The online softmax over the four tiles is the normalised softmax over the 2048 keys, whatever real number M the
    exponentials are shifted by. -/
theorem online_eq_softmax_of (S V : Fin 2048 → ℝ) (M : EReal) (c : ℝ) (hM : M = (c : EReal)) :
    outKernel (extB fun (j : Fin 4) (k : Fin 512) => S (tile j k)) (extB fun (j : Fin 4) (k : Fin 512) => V (tile j k)) 4
      = ∑ kk : Fin 2048,
          Ideal.div (Ideal.exp (((S kk : ℝ) : EReal) - M)) (ZERO + ∑ kk' : Fin 2048, Ideal.exp (((S kk' : ℝ) : EReal) - M))
            * ((V kk : ℝ) : EReal) := by
  subst hM
  rw [← sum_tile (fun kk' => Ideal.exp (((S kk' : ℝ) : EReal) - (c : EReal))),
    ← sum_tile (fun kk => Ideal.div (Ideal.exp (((S kk : ℝ) : EReal) - (c : EReal))) _ * ((V kk : ℝ) : EReal))]
  exact outKernel_extB_eq_shift (by decide) _ _ c

/-- The online softmax over the four tiles is the two-pass softmax over the 2048 keys: the exponentials shifted by the
    row maximum (the word of -∞ against the fold of max from that word), summed from the word of zero, each divided by
    the sum and multiplied by its value. -/
theorem online_eq_softmax (S V : Fin 2048 → ℝ) :
    outKernel (extB fun (j : Fin 4) (k : Fin 512) => S (tile j k)) (extB fun (j : Fin 4) (k : Fin 512) => V (tile j k)) 4
      = ∑ kk : Fin 2048,
          Ideal.div
            (Ideal.exp (((S kk : ℝ) : EReal)
              - max NEG ((univ : Finset (Fin 2048)).fold max NEG fun kk => ((S kk : ℝ) : EReal))))
            (ZERO + ∑ kk' : Fin 2048, Ideal.exp (((S kk' : ℝ) : EReal)
              - max NEG ((univ : Finset (Fin 2048)).fold max NEG fun kk => ((S kk : ℝ) : EReal))))
            * ((V kk : ℝ) : EReal) := by
  obtain ⟨c, hc, -⟩ := rowMax_coe S
  exact online_eq_softmax_of S V _ c hc

end Cert.SoftmaxLaw

end
-- ==== Proof.RealProj.lean ====
/-
  With real inputs the projections and the scores are real.

  When every entry of the input and of the projection weight is (the coercion of) a real number, each projection entry,
  an inner product over 1024 coordinates, is the coercion of the real inner product, and each scaled score, an inner
  product over a head's 64 coordinates times one eighth, is the coercion of the real one. The attention of a head is
  then the two-pass softmax of a real score row against a real value column, spelt over those reals.
-/
import proofs.«108477_j14860586844639_2_alg».proof.Proof.Spec
import proofs.«108477_j14860586844639_2_alg».proof.Proof.SoftmaxLaw

noncomputable section

open scoped BigOperators

namespace Cert.Spec

open Idealize.ShloMosaic

variable (xr : Fin 2 → Fin 2048 → Fin 1024 → ℝ) (wr : Fin 3072 → Fin 1024 → ℝ)

/-- The real projection. -/
def projR (part : Fin 3) (b : Fin 2) (h : Fin 16) (n : Fin 2048) (d : Fin 64) : ℝ :=
  ∑ k : Fin 1024, xr b n k * wr (wrow part h d) k

/-- The real scaled score. -/
def scoreR (b : Fin 2) (h : Fin 16) (q kk : Fin 2048) : ℝ :=
  (∑ e : Fin 64, projR xr wr 0 b h q e * projR xr wr 1 b h kk e) * 0.125

/-- The projection of real inputs is the real projection. -/
theorem proj_coe (part : Fin 3) (b : Fin 2) (h : Fin 16) (n : Fin 2048) (d : Fin 64) :
    proj (fun b n k => ((xr b n k : ℝ) : EReal)) (fun f k => ((wr f k : ℝ) : EReal)) part b h n d
      = ((projR xr wr part b h n d : ℝ) : EReal) :=
  Cert.SoftmaxLaw.dot_coe (fun k => xr b n k) (fun k => wr (wrow part h d) k)

/-- The score of real inputs is the real score. -/
theorem score_coe (b : Fin 2) (h : Fin 16) (q kk : Fin 2048) :
    score (fun b n k => ((xr b n k : ℝ) : EReal)) (fun f k => ((wr f k : ℝ) : EReal)) b h q kk
      = ((scoreR xr wr b h q kk : ℝ) : EReal) := by
  unfold score scoreR
  simp only [proj_coe]
  rw [Cert.SoftmaxLaw.dot_coe (fun e => projR xr wr 0 b h q e) (fun e => projR xr wr 1 b h kk e)]
  exact Cert.SoftmaxLaw.mul_eighth _

/-- The attention of a head on real inputs: the two-pass softmax of the real score row of query `q` against the real
    value column `d` — the exponentials shifted by the row maximum (−∞ against the maximum from −∞), summed from 0,
    each divided by the sum and multiplied by its value. -/
theorem attnRef_coe (b : Fin 2) (h : Fin 16) (q : Fin 2048) (d : Fin 64) :
    attnRef (fun b n k => ((xr b n k : ℝ) : EReal)) (fun f k => ((wr f k : ℝ) : EReal)) b h q d
      = ∑ kk : Fin 2048,
          Ideal.div
            (Ideal.exp (((scoreR xr wr b h q kk : ℝ) : EReal)
              - max (Ideal.ofBits FTy.f32 0xFF800000#32)
                  ((Finset.univ : Finset (Fin 2048)).fold max (Ideal.ofBits FTy.f32 0xFF800000#32)
                    fun kk => ((scoreR xr wr b h q kk : ℝ) : EReal))))
            (Ideal.ofBits FTy.f32 0x00000000#32 + ∑ kk' : Fin 2048, Ideal.exp (((scoreR xr wr b h q kk' : ℝ) : EReal)
              - max (Ideal.ofBits FTy.f32 0xFF800000#32)
                  ((Finset.univ : Finset (Fin 2048)).fold max (Ideal.ofBits FTy.f32 0xFF800000#32)
                    fun kk => ((scoreR xr wr b h q kk : ℝ) : EReal))))
            * ((projR xr wr 2 b h kk d : ℝ) : EReal) := by
  unfold attnRef rowSum expo rowMax
  simp only [score_coe, proj_coe]

/-- Arrays whose entries are all real are coercions of real arrays. -/
theorem exists_real_arrays (x : Fin 2 → Fin 2048 → Fin 1024 → EReal) (wqkv : Fin 3072 → Fin 1024 → EReal)
    (hx : ∀ b n k, ∃ r : ℝ, x b n k = (r : EReal)) (hw : ∀ f k, ∃ r : ℝ, wqkv f k = (r : EReal)) :
    ∃ (xr : Fin 2 → Fin 2048 → Fin 1024 → ℝ) (wr : Fin 3072 → Fin 1024 → ℝ),
      x = (fun b n k => ((xr b n k : ℝ) : EReal)) ∧ wqkv = (fun f k => ((wr f k : ℝ) : EReal)) := by
  choose xr hxr using hx
  choose wr hwr using hw
  exact ⟨xr, wr, funext fun b => funext fun n => funext fun k => hxr b n k, funext fun f => funext fun k => hwr f k⟩

/-- With real inputs every projection entry is a real … -/
theorem proj_real (x : Fin 2 → Fin 2048 → Fin 1024 → EReal) (wqkv : Fin 3072 → Fin 1024 → EReal)
    (hx : ∀ b n k, ∃ r : ℝ, x b n k = (r : EReal)) (hw : ∀ f k, ∃ r : ℝ, wqkv f k = (r : EReal))
    (part : Fin 3) (b : Fin 2) (h : Fin 16) (n : Fin 2048) (d : Fin 64) : ∃ r : ℝ, proj x wqkv part b h n d = (r : EReal) := by
  obtain ⟨xr, wr, rfl, rfl⟩ := exists_real_arrays x wqkv hx hw
  exact ⟨_, proj_coe xr wr part b h n d⟩

/-- … and every score is a real. -/
theorem score_real (x : Fin 2 → Fin 2048 → Fin 1024 → EReal) (wqkv : Fin 3072 → Fin 1024 → EReal)
    (hx : ∀ b n k, ∃ r : ℝ, x b n k = (r : EReal)) (hw : ∀ f k, ∃ r : ℝ, wqkv f k = (r : EReal))
    (b : Fin 2) (h : Fin 16) (q kk : Fin 2048) : ∃ r : ℝ, score x wqkv b h q kk = (r : EReal) := by
  obtain ⟨xr, wr, rfl, rfl⟩ := exists_real_arrays x wqkv hx hw
  exact ⟨_, score_coe xr wr b h q kk⟩

end Cert.Spec

end
-- ==== Proof.RefIsG.lean ====
/-
  The reference program is the specification: each operation of the reference read at an entry, in program order, down to
  the four argument arrays.

  The first product's entry (b, n, f) is the inner product of token (b, n) with row f of the projection weight; the
  reshape to [2, 2048, 3, 16, 64], the three slices, the reshapes and the transposes only rename entries, so the query, key
  and value at (b, h, n, d) are that product's entries at row part · 1024 + h · 64 + d. The scores, the row maximum (a fold
  of max from −∞ over the 2048 keys, then max with −∞ again), the exponentials, the row sum from 0, the quotient and the
  product with the values are read entry by entry; the final transpose and reshape put coordinate c mod 64 of head c / 64
  in column c, and the output projection and the bias finish.
-/
import proofs.«108477_j14860586844639_2_alg».proof.Proof.Gen.ReferenceIdeal.Read
import proofs.«108477_j14860586844639_2_alg».proof.Proof.Spec
import Idealize.ShloMosaic.Lib.ValueIdx
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- The four argument arrays as functions of their coordinates. -/
abbrev X (x0 : (⟨S2x2048x1024, .f32⟩ : BufTy).Contents (Elt Ideal)) : Fin 2 → Fin 2048 → Fin 1024 → EReal :=
  fun b n k => x0 (ix3 b n k)
abbrev W (x1 : (⟨S3072x1024, .f32⟩ : BufTy).Contents (Elt Ideal)) : Fin 3072 → Fin 1024 → EReal :=
  fun f k => x1 (ix2 f k)
abbrev Wo (x2 : (⟨S1024x1024, .f32⟩ : BufTy).Contents (Elt Ideal)) : Fin 1024 → Fin 1024 → EReal :=
  fun f c => x2 (ix2 f c)
abbrev Bo (x3 : (⟨S1024, .f32⟩ : BufTy).Contents (Elt Ideal)) : Fin 1024 → EReal :=
  fun f => x3 (ix1 f)

variable (x0 : (⟨S2x2048x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S1024, .f32⟩ : BufTy).Contents (Elt Ideal))

/-! ## The projections -/

/-- The first product at (b, n, f): token (b, n) against row f of the projection weight. -/
theorem v0_eq (b : Fin 2) (n : Fin 2048) (f : Fin 3072) :
    val_main_v0 (F := Ideal) x0 x1 (ix3 b n f) = ∑ k : Fin 1024, X x0 b n k * W x1 f k := by
  rw [val_main_v0_apply]
  refine Finset.sum_congr rfl fun k _ => ?_
  have el : lidx_main_v0 (ix3 b n f) k = ix3 b n k :=
    funext fun a => Fin.ext (by match a with | ⟨0, _⟩ => rfl | ⟨1, _⟩ => rfl | ⟨2, _⟩ => rfl)
  have er : ridx_main_v0 (ix3 b n f) k = ix2 f k :=
    funext fun a => Fin.ext (by match a with | ⟨0, _⟩ => rfl | ⟨1, _⟩ => rfl)
  rw [el, er]

/-- The query part: through the transpose, the two reshapes and the slice, entry (b, h, n, d) is the
    first product's entry (b, n, 0 · 1024 + h · 64 + d). -/
theorem idx_v4 (b : Fin 2) (h : Fin 16) (n : Fin 2048) (d : Fin 64) :
    idx_main_v4 (ix4 b h n d) = ix4 b n h d :=
  funext fun a => Fin.ext (by match a with | ⟨0, _⟩ => rfl | ⟨1, _⟩ => rfl | ⟨2, _⟩ => rfl | ⟨3, _⟩ => rfl)
theorem idx_v3 (b : Fin 2) (n : Fin 2048) (h : Fin 16) (d : Fin 64) :
    idx_main_v3 (ix4 b n h d) = ix5 b n (0 : Fin 1) h d :=
  funext fun a => Fin.ext (by
    have hb := b.isLt; have hn := n.isLt; have hh := h.isLt; have hd := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => rfl
    | ⟨3, _⟩ => show (((b.val * 2048 + n.val) * 16 + h.val) * 64 + d.val) / 64 % 16 = h.val; omega
    | ⟨4, _⟩ => show (((b.val * 2048 + n.val) * 16 + h.val) * 64 + d.val) % 64 = d.val; omega)
theorem idx_v2 (b : Fin 2) (n : Fin 2048) (h : Fin 16) (d : Fin 64) :
    idx_main_v2 (ix5 b n (0 : Fin 1) h d) = ix5 b n (0 : Fin 3) h d :=
  funext fun a => Fin.ext (by match a with | ⟨0, _⟩ => rfl | ⟨1, _⟩ => rfl | ⟨2, _⟩ => rfl | ⟨3, _⟩ => rfl | ⟨4, _⟩ => rfl)
theorem idx_v1_0 (b : Fin 2) (n : Fin 2048) (h : Fin 16) (d : Fin 64) :
    idx_main_v1 (ix5 b n (0 : Fin 3) h d) = ix3 b n (wrow 0 h d) :=
  funext fun a => Fin.ext (by
    have hb := b.isLt; have hn := n.isLt; have hh := h.isLt; have hd := d.isLt
    match a with
    | ⟨0, _⟩ => show ((((b.val * 2048 + n.val) * 3 + 0) * 16 + h.val) * 64 + d.val) / 6291456 = b.val; omega
    | ⟨1, _⟩ => show ((((b.val * 2048 + n.val) * 3 + 0) * 16 + h.val) * 64 + d.val) / 3072 % 2048 = n.val; omega
    | ⟨2, _⟩ => show ((((b.val * 2048 + n.val) * 3 + 0) * 16 + h.val) * 64 + d.val) % 3072 = 0 * 1024 + h.val * 64 + d.val; omega)
theorem v4_eq (b : Fin 2) (h : Fin 16) (n : Fin 2048) (d : Fin 64) :
    val_main_v4 (F := Ideal) x0 x1 (ix4 b h n d) = proj (X x0) (W x1) 0 b h n d := by
  rw [val_main_v4_apply, idx_v4, val_main_v3_apply, idx_v3, val_main_v2_apply, idx_v2, val_main_v1_apply, idx_v1_0,
    v0_eq]
  rfl

/-- The key part: through the transpose, the two reshapes and the slice, entry (b, h, n, d) is the
    first product's entry (b, n, 1 · 1024 + h · 64 + d). -/
theorem idx_v7 (b : Fin 2) (h : Fin 16) (n : Fin 2048) (d : Fin 64) :
    idx_main_v7 (ix4 b h n d) = ix4 b n h d :=
  funext fun a => Fin.ext (by match a with | ⟨0, _⟩ => rfl | ⟨1, _⟩ => rfl | ⟨2, _⟩ => rfl | ⟨3, _⟩ => rfl)
theorem idx_v6 (b : Fin 2) (n : Fin 2048) (h : Fin 16) (d : Fin 64) :
    idx_main_v6 (ix4 b n h d) = ix5 b n (0 : Fin 1) h d :=
  funext fun a => Fin.ext (by
    have hb := b.isLt; have hn := n.isLt; have hh := h.isLt; have hd := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => rfl
    | ⟨3, _⟩ => show (((b.val * 2048 + n.val) * 16 + h.val) * 64 + d.val) / 64 % 16 = h.val; omega
    | ⟨4, _⟩ => show (((b.val * 2048 + n.val) * 16 + h.val) * 64 + d.val) % 64 = d.val; omega)
theorem idx_v5 (b : Fin 2) (n : Fin 2048) (h : Fin 16) (d : Fin 64) :
    idx_main_v5 (ix5 b n (0 : Fin 1) h d) = ix5 b n (1 : Fin 3) h d :=
  funext fun a => Fin.ext (by match a with | ⟨0, _⟩ => rfl | ⟨1, _⟩ => rfl | ⟨2, _⟩ => rfl | ⟨3, _⟩ => rfl | ⟨4, _⟩ => rfl)
theorem idx_v1_1 (b : Fin 2) (n : Fin 2048) (h : Fin 16) (d : Fin 64) :
    idx_main_v1 (ix5 b n (1 : Fin 3) h d) = ix3 b n (wrow 1 h d) :=
  funext fun a => Fin.ext (by
    have hb := b.isLt; have hn := n.isLt; have hh := h.isLt; have hd := d.isLt
    match a with
    | ⟨0, _⟩ => show ((((b.val * 2048 + n.val) * 3 + 1) * 16 + h.val) * 64 + d.val) / 6291456 = b.val; omega
    | ⟨1, _⟩ => show ((((b.val * 2048 + n.val) * 3 + 1) * 16 + h.val) * 64 + d.val) / 3072 % 2048 = n.val; omega
    | ⟨2, _⟩ => show ((((b.val * 2048 + n.val) * 3 + 1) * 16 + h.val) * 64 + d.val) % 3072 = 1 * 1024 + h.val * 64 + d.val; omega)
theorem v7_eq (b : Fin 2) (h : Fin 16) (n : Fin 2048) (d : Fin 64) :
    val_main_v7 (F := Ideal) x0 x1 (ix4 b h n d) = proj (X x0) (W x1) 1 b h n d := by
  rw [val_main_v7_apply, idx_v7, val_main_v6_apply, idx_v6, val_main_v5_apply, idx_v5, val_main_v1_apply, idx_v1_1,
    v0_eq]
  rfl

/-- The value part: through the transpose, the two reshapes and the slice, entry (b, h, n, d) is the
    first product's entry (b, n, 2 · 1024 + h · 64 + d). -/
theorem idx_v10 (b : Fin 2) (h : Fin 16) (n : Fin 2048) (d : Fin 64) :
    idx_main_v10 (ix4 b h n d) = ix4 b n h d :=
  funext fun a => Fin.ext (by match a with | ⟨0, _⟩ => rfl | ⟨1, _⟩ => rfl | ⟨2, _⟩ => rfl | ⟨3, _⟩ => rfl)
theorem idx_v9 (b : Fin 2) (n : Fin 2048) (h : Fin 16) (d : Fin 64) :
    idx_main_v9 (ix4 b n h d) = ix5 b n (0 : Fin 1) h d :=
  funext fun a => Fin.ext (by
    have hb := b.isLt; have hn := n.isLt; have hh := h.isLt; have hd := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => rfl
    | ⟨3, _⟩ => show (((b.val * 2048 + n.val) * 16 + h.val) * 64 + d.val) / 64 % 16 = h.val; omega
    | ⟨4, _⟩ => show (((b.val * 2048 + n.val) * 16 + h.val) * 64 + d.val) % 64 = d.val; omega)
theorem idx_v8 (b : Fin 2) (n : Fin 2048) (h : Fin 16) (d : Fin 64) :
    idx_main_v8 (ix5 b n (0 : Fin 1) h d) = ix5 b n (2 : Fin 3) h d :=
  funext fun a => Fin.ext (by match a with | ⟨0, _⟩ => rfl | ⟨1, _⟩ => rfl | ⟨2, _⟩ => rfl | ⟨3, _⟩ => rfl | ⟨4, _⟩ => rfl)
theorem idx_v1_2 (b : Fin 2) (n : Fin 2048) (h : Fin 16) (d : Fin 64) :
    idx_main_v1 (ix5 b n (2 : Fin 3) h d) = ix3 b n (wrow 2 h d) :=
  funext fun a => Fin.ext (by
    have hb := b.isLt; have hn := n.isLt; have hh := h.isLt; have hd := d.isLt
    match a with
    | ⟨0, _⟩ => show ((((b.val * 2048 + n.val) * 3 + 2) * 16 + h.val) * 64 + d.val) / 6291456 = b.val; omega
    | ⟨1, _⟩ => show ((((b.val * 2048 + n.val) * 3 + 2) * 16 + h.val) * 64 + d.val) / 3072 % 2048 = n.val; omega
    | ⟨2, _⟩ => show ((((b.val * 2048 + n.val) * 3 + 2) * 16 + h.val) * 64 + d.val) % 3072 = 2 * 1024 + h.val * 64 + d.val; omega)
theorem v10_eq (b : Fin 2) (h : Fin 16) (n : Fin 2048) (d : Fin 64) :
    val_main_v10 (F := Ideal) x0 x1 (ix4 b h n d) = proj (X x0) (W x1) 2 b h n d := by
  rw [val_main_v10_apply, idx_v10, val_main_v9_apply, idx_v9, val_main_v8_apply, idx_v8, val_main_v1_apply, idx_v1_2,
    v0_eq]
  rfl

/-! ## Scores, the row maximum, the exponentials and the row sum -/

/-- The score product at (b, h, q, kk): the query row against the key row over a head's 64 coordinates. -/
theorem v11_eq (b : Fin 2) (h : Fin 16) (q kk : Fin 2048) :
    val_main_v11 (F := Ideal) x0 x1 (ix4 b h q kk)
      = ∑ e : Fin 64, proj (X x0) (W x1) 0 b h q e * proj (X x0) (W x1) 1 b h kk e := by
  rw [val_main_v11_apply]
  refine Finset.sum_congr rfl fun e _ => ?_
  have el : lidx_main_v11 (ix4 b h q kk) e = ix4 b h q e :=
    funext fun a => Fin.ext (by match a with | ⟨0, _⟩ => rfl | ⟨1, _⟩ => rfl | ⟨2, _⟩ => rfl | ⟨3, _⟩ => rfl)
  have er : ridx_main_v11 (ix4 b h q kk) e = ix4 b h kk e :=
    funext fun a => Fin.ext (by match a with | ⟨0, _⟩ => rfl | ⟨1, _⟩ => rfl | ⟨2, _⟩ => rfl | ⟨3, _⟩ => rfl)
  rw [el, er, v4_eq, v7_eq]

/-- The scaled score. -/
theorem v13_eq (b : Fin 2) (h : Fin 16) (q kk : Fin 2048) :
    val_main_v13 (F := Ideal) x0 x1 (ix4 b h q kk) = score (X x0) (W x1) b h q kk := by
  rw [val_main_v13_apply, v11_eq, val_main_v12_apply, val_main_cst_apply]
  rfl

/-- The facts the reduction over the keys' axis is read with: the result shape drops axis 3. -/
theorem reduces_keys : S2x16x2048x2048.Reduces [3] S2x16x2048 := by decide

/-- Row (b, h, q) with key `k` put back on the dropped axis. -/
theorem lift_keys (b : Fin 2) (h : Fin 16) (q : Fin 2048) (k : Fin 2048) :
    reduces_keys.lift (ix3 b h q) k = ix4 b h q k :=
  funext fun c => Fin.ext (by match c with | ⟨0, _⟩ => rfl | ⟨1, _⟩ => rfl | ⟨2, _⟩ => rfl | ⟨3, _⟩ => rfl)

/-- The host's maximum along the keys' axis, at row (b, h, q): the fold of max from the initial value over the row. -/
theorem keysMax_apply (y : FVec Ideal S2x16x2048x2048 .f32) (init : S_.Idx → Ideal .f32) (b : Fin 2) (h : Fin 16) (q : Fin 2048) :
    Host.reduce FloatOps.maximumf y init reducesTo_S2x16x2048x2048_S2x16x2048_d3 h_S_ (ix3 b h q)
      = (Finset.univ : Finset (Fin 2048)).fold max (init (Shape.Idx.first h_S_)) (fun k => y (ix4 b h q k)) := by
  refine (Host.reduce_eq_fold_single FloatOps.maximumf y init reducesTo_S2x16x2048x2048_S2x16x2048_d3 reduces_keys h_S_
    (ix3 b h q)).trans ?_
  exact congrArg (Finset.fold max (init (Shape.Idx.first h_S_)) · Finset.univ) (funext fun k => congrArg y (lift_keys b h q k))

/-- The maximum-reduce over the keys at row (b, h, q): the fold of max from −∞ over the row's scores. -/
theorem v14_eq (b : Fin 2) (h : Fin 16) (q : Fin 2048) :
    val_main_v14 (F := Ideal) x0 x1 (ix3 b h q)
      = (Finset.univ : Finset (Fin 2048)).fold max (Ideal.ofBits .f32 0xFF800000#32)
          (fun kk => score (X x0) (W x1) b h q kk) := by
  unfold val_main_v14
  refine (keysMax_apply (val_main_v13 (F := Ideal) x0 x1) (val_main_cst_0 (F := Ideal)) b h q).trans ?_
  exact congrArg (Finset.fold max (Ideal.ofBits .f32 0xFF800000#32) · Finset.univ)
    (funext fun k => v13_eq x0 x1 b h q k)

/-- The row maximum as the softmax uses it. -/
theorem v16_eq (b : Fin 2) (h : Fin 16) (q : Fin 2048) :
    val_main_v16 (F := Ideal) x0 x1 (ix3 b h q) = rowMax (X x0) (W x1) b h q := by
  rw [val_main_v16_apply, val_main_v15_apply, val_main_cst_1_apply, v14_eq]
  rfl

/-- The exponential of a score less its row's maximum. -/
theorem v20_eq (b : Fin 2) (h : Fin 16) (q kk : Fin 2048) :
    val_main_v20 (F := Ideal) x0 x1 (ix4 b h q kk) = expo (X x0) (W x1) b h q kk := by
  have e1 : idx_main_v17 (idx_main_v18 (ix4 b h q kk)) = ix3 b h q :=
    funext fun a => Fin.ext (by match a with | ⟨0, _⟩ => rfl | ⟨1, _⟩ => rfl | ⟨2, _⟩ => rfl)
  rw [val_main_v20_apply, val_main_v19_apply, v13_eq, val_main_v18_apply, val_main_v17_apply, e1, v16_eq]
  rfl

/-- The row sum of the exponentials, from 0. -/
theorem v21_eq (b : Fin 2) (h : Fin 16) (q : Fin 2048) :
    val_main_v21 (F := Ideal) x0 x1 (ix3 b h q) = rowSum (X x0) (W x1) b h q := by
  rw [val_main_v21_apply]
  refine congrArg (Ideal.ofBits .f32 0x00000000#32 + ·) (Finset.sum_congr rfl fun k _ => ?_)
  have e1 : idx_main_v21 (ix3 b h q) k = ix4 b h q k :=
    funext fun a => Fin.ext (by match a with | ⟨0, _⟩ => rfl | ⟨1, _⟩ => rfl | ⟨2, _⟩ => rfl | ⟨3, _⟩ => rfl)
  rw [e1, v20_eq]

/-- A softmax weight. -/
theorem v24_eq (b : Fin 2) (h : Fin 16) (q kk : Fin 2048) :
    val_main_v24 (F := Ideal) x0 x1 (ix4 b h q kk)
      = Ideal.div (expo (X x0) (W x1) b h q kk) (rowSum (X x0) (W x1) b h q) := by
  have e1 : idx_main_v22 (idx_main_v23 (ix4 b h q kk)) = ix3 b h q :=
    funext fun a => Fin.ext (by match a with | ⟨0, _⟩ => rfl | ⟨1, _⟩ => rfl | ⟨2, _⟩ => rfl)
  rw [val_main_v24_apply, v20_eq, val_main_v23_apply, val_main_v22_apply, e1, v21_eq]
  rfl

/-! ## The weighted values, the output projection and the bias -/

/-- Attention of head h at (b, h, q, d). -/
theorem v25_eq (b : Fin 2) (h : Fin 16) (q : Fin 2048) (d : Fin 64) :
    val_main_v25 (F := Ideal) x0 x1 (ix4 b h q d) = attnRef (X x0) (W x1) b h q d := by
  rw [val_main_v25_apply]
  refine Finset.sum_congr rfl fun k _ => ?_
  have el : lidx_main_v25 (ix4 b h q d) k = ix4 b h q k :=
    funext fun a => Fin.ext (by match a with | ⟨0, _⟩ => rfl | ⟨1, _⟩ => rfl | ⟨2, _⟩ => rfl | ⟨3, _⟩ => rfl)
  have er : ridx_main_v25 (ix4 b h q d) k = ix4 b h k d :=
    funext fun a => Fin.ext (by match a with | ⟨0, _⟩ => rfl | ⟨1, _⟩ => rfl | ⟨2, _⟩ => rfl | ⟨3, _⟩ => rfl)
  rw [el, er, v24_eq, v10_eq]

/-- The heads side by side: column c of token (b, n) is coordinate c mod 64 of head c / 64. -/
theorem v27_eq (b : Fin 2) (n : Fin 2048) (c : Fin 1024) :
    val_main_v27 (F := Ideal) x0 x1 (ix3 b n c) = attnRef (X x0) (W x1) b (headOf c) n (coordOf c) := by
  have e1 : idx_main_v26 (idx_main_v27 (ix3 b n c)) = ix4 b (headOf c) n (coordOf c) :=
    funext fun a => Fin.ext (by
      have hb := b.isLt; have hn := n.isLt; have hc := c.isLt
      match a with
      | ⟨0, _⟩ => show ((b.val * 2048 + n.val) * 1024 + c.val) / 2097152 = b.val; omega
      | ⟨1, _⟩ => show ((b.val * 2048 + n.val) * 1024 + c.val) / 64 % 16 = c.val / 64; omega
      | ⟨2, _⟩ => show ((b.val * 2048 + n.val) * 1024 + c.val) / 1024 % 2048 = n.val; omega
      | ⟨3, _⟩ => show ((b.val * 2048 + n.val) * 1024 + c.val) % 64 = c.val % 64; omega)
  rw [val_main_v27_apply, val_main_v26_apply, e1, v25_eq]

/-- The reference's result at (b, n, f). -/
theorem v31_eq (b : Fin 2) (n : Fin 2048) (f : Fin 1024) :
    val_main_v31 (F := Ideal) x0 x1 x2 x3 (ix3 b n f) = G (X x0) (W x1) (Wo x2) (Bo x3) b n f := by
  have e1 : idx_main_v29 (idx_main_v30 (ix3 b n f)) = ix1 f :=
    funext fun a => Fin.ext (by match a with | ⟨0, _⟩ => rfl)
  rw [val_main_v31_apply, val_main_v28_apply, val_main_v30_apply, val_main_v29_apply, e1]
  refine congrArg (· + x3 (ix1 f)) (Finset.sum_congr rfl fun k _ => ?_)
  have el : lidx_main_v28 (ix3 b n f) k = ix3 b n k :=
    funext fun a => Fin.ext (by match a with | ⟨0, _⟩ => rfl | ⟨1, _⟩ => rfl | ⟨2, _⟩ => rfl)
  have er : ridx_main_v28 (ix3 b n f) k = ix2 f k :=
    funext fun a => Fin.ext (by match a with | ⟨0, _⟩ => rfl | ⟨1, _⟩ => rfl)
  rw [el, er, v27_eq]

/-- THE REFERENCE IS THE SPECIFICATION: its last stage, as a function of the four argument arrays, is `G` of them entry
    by entry. -/
theorem ref_is_G :
    val_main_v31 (F := Ideal) x0 x1 x2 x3 = fun i => G (X x0) (W x1) (Wo x2) (Bo x3) (i 0) (i 1) (i 2) := by
  funext i
  obtain ⟨b, n, f, rfl⟩ : ∃ (b : Fin 2) (n : Fin 2048) (f : Fin 1024), i = ix3 b n f := ⟨i 0, i 1, i 2, eq_ix3 i⟩
  exact v31_eq x0 x1 x2 x3 b n f

/-- The same of the run's result term: from memory `m`, device `c`'s result is `G` of `c`'s four argument arrays. -/
theorem res_is_G (m : (ℓ : Loc nD τ sig) → Buf (Elt Ideal) ℓ) (c : Dev nD) :
    Cert.ReferenceIdeal.Value.res_main_v31 (F := Ideal) m c
      = fun i => G (X (m ((c.tc : Thread nD τ).loc main_arg0))) (W (m ((c.tc : Thread nD τ).loc main_arg1)))
          (Wo (m ((c.tc : Thread nD τ).loc main_arg2))) (Bo (m ((c.tc : Thread nD τ).loc main_arg3))) (i 0) (i 1) (i 2) := by
  rw [val_main_v31_eq]
  exact ref_is_G _ _ _ _

end Cert.ReferenceIdeal.RefValue

end
-- ==== Proof.Chain.lean ====
/-
  The kernel program's result is the specification: the three kernels and the host operations between them, composed.

  The last host operation regroups the [4096, 1024] result of the output projection by batch. That result is, row by row,
  the merged attention rows against the output weight plus the bias; the merged rows are the attention output with the
  heads side by side, column c being coordinate c mod 64 of head c / 64; the attention output is the softmax of the
  scaled scores of the projected queries against the projected keys, contracted with the projected values; and the three
  projections are the input's tokens against the rows part · 1024 + h · 64 + d of the projection weight. Reading each
  buffer where its producer left it — a kernel's outputs after the kernel, everything else unchanged since the last
  operation that wrote it — gives the specification's formula entry by entry. The attention kernel's value is known only
  for real queries, keys and values: they are real because the inputs are finite.
-/
import proofs.«108477_j14860586844639_2_alg».proof.Proof.IRun
import proofs.«108477_j14860586844639_2_alg».proof.Proof.IVal0
import proofs.«108477_j14860586844639_2_alg».proof.Proof.IVal2
import proofs.«108477_j14860586844639_2_alg».proof.Proof.AttnSpec
import proofs.«108477_j14860586844639_2_alg».proof.Proof.HostGlue
import proofs.«108477_j14860586844639_2_alg».proof.Proof.Finite
import proofs.«108477_j14860586844639_2_alg».proof.Proof.RealProj
import proofs.«108477_j14860586844639_2_alg».proof.Proof.RefIsG

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Cert.Spec

/-- Attention over arrays whose entries are the three projections is the specification's attention. -/
theorem attnAt_eq_attnRef (Q K Vv : S2x16x2048x64.Idx → EReal) (x : Fin 2 → Fin 2048 → Fin 1024 → EReal)
    (w : Fin 3072 → Fin 1024 → EReal)
    (hQ : ∀ (b : Fin 2) (h : Fin 16) (n : Fin 2048) (d : Fin 64), Q (ix4 b h n d) = proj x w 0 b h n d)
    (hK : ∀ (b : Fin 2) (h : Fin 16) (n : Fin 2048) (d : Fin 64), K (ix4 b h n d) = proj x w 1 b h n d)
    (hV : ∀ (b : Fin 2) (h : Fin 16) (n : Fin 2048) (d : Fin 64), Vv (ix4 b h n d) = proj x w 2 b h n d)
    (b : Fin 2) (h : Fin 16) (q : Fin 2048) (d : Fin 64) :
    attnAt Q K Vv b h q d = attnRef x w b h q d := by
  unfold attnAt znOf mxOf scOf attnRef rowSum expo rowMax score
  simp only [hQ, hK, hV]

/-- A head projection of arrays that are the input and a block of the projection weight's rows is the specification's
    projection. -/
theorem headProj_eq_proj (A : S2x2048x1024.Idx → EReal) (Wt : S16x64x1024.Idx → EReal)
    (x : Fin 2 → Fin 2048 → Fin 1024 → EReal) (w : Fin 3072 → Fin 1024 → EReal) (part : Fin 3)
    (hA : ∀ (b : Fin 2) (n : Fin 2048) (k : Fin 1024), A (ix3 b n k) = x b n k)
    (hW : ∀ (h : Fin 16) (d : Fin 64) (k : Fin 1024), Wt (ix3 h d k) = w (wrow part h d) k)
    (b : Fin 2) (h : Fin 16) (n : Fin 2048) (d : Fin 64) :
    headProj A Wt (ix4 b h n d) = proj x w part b h n d := by
  rw [headProj_apply]
  unfold proj
  exact Finset.sum_congr rfl fun k _ => by rw [hA, hW]

variable (m : (ℓ : Loc nD τ sig) → Buf (Elt Ideal) ℓ) (ρ : Dev nD → PrngReg) (c : Dev nD)

/-! ## What the first kernel reads -/

/-- The input as the first kernel finds it is the input. -/
theorem V1_v0 : (V1 (F := Ideal) m ρ c main_v0 : S2x2048x1024.Idx → EReal) = m ((c.tc : Thread nD τ).loc main_arg0) :=
  host0_v0 (W0 m ρ c)

/-- The three regrouped weight blocks as the first kernel finds them are the projection weight's rows. -/
theorem V1_v4 (h : Fin 16) (d : Fin 64) (k : Fin 1024) :
    (V1 (F := Ideal) m ρ c main_v4 : S16x64x1024.Idx → EReal) (ix3 h d k)
      = (m ((c.tc : Thread nD τ).loc main_arg1) : S3072x1024.Idx → EReal) (ix2 (wrow 0 h d) k) :=
  host0_v4 (W0 m ρ c) h d k
theorem V1_v6 (h : Fin 16) (d : Fin 64) (k : Fin 1024) :
    (V1 (F := Ideal) m ρ c main_v6 : S16x64x1024.Idx → EReal) (ix3 h d k)
      = (m ((c.tc : Thread nD τ).loc main_arg1) : S3072x1024.Idx → EReal) (ix2 (wrow 1 h d) k) :=
  host0_v6 (W0 m ρ c) h d k
theorem V1_v8 (h : Fin 16) (d : Fin 64) (k : Fin 1024) :
    (V1 (F := Ideal) m ρ c main_v8 : S16x64x1024.Idx → EReal) (ix3 h d k)
      = (m ((c.tc : Thread nD τ).loc main_arg1) : S3072x1024.Idx → EReal) (ix2 (wrow 2 h d) k) :=
  host0_v8 (W0 m ρ c) h d k

/-! ## The output weight and the bias where the third kernel reads them -/

/-- The output weight as the third kernel finds it is the output weight: written once, before the first kernel. -/
theorem V4_v2 : (V4 (F := Ideal) m ρ c main_v2 : S1024x1024.Idx → EReal) = m ((c.tc : Thread nD τ).loc main_arg2) :=
  calc (V4 (F := Ideal) m ρ c main_v2 : S1024x1024.Idx → EReal)
    _ = W3 m ρ c (Proc.devRef .tc main_v2) := StableHlo.after_of_writes_sub hostOps2 _ hostOps2_writes (by decide)
    _ = W2 m ρ c (Proc.devRef .tc main_v2) := W3_of_ne m ρ c main_v2 (by decide)
    _ = W1 m ρ c (Proc.devRef .tc main_v2) := W2_of_ne m ρ c main_v2 (by decide)
    _ = m ((c.tc : Thread nD τ).loc main_arg2) := host0_v2 (W0 m ρ c)

/-- The bias row as the third kernel finds it is the bias. -/
theorem V4_v13 (f : Fin 1024) :
    (V4 (F := Ideal) m ρ c main_v13 : S1x1024.Idx → EReal) (ix2 (0 : Fin 1) f)
      = (m ((c.tc : Thread nD τ).loc main_arg3) : S1024.Idx → EReal) (ix1 f) := by
  refine (host2_v13 (W3 m ρ c) 0 f).trans ?_
  have e : (W3 (F := Ideal) m ρ c (Proc.devRef .tc main_arg3) : S1024.Idx → EReal) = m ((c.tc : Thread nD τ).loc main_arg3) :=
    calc (W3 (F := Ideal) m ρ c (Proc.devRef .tc main_arg3) : S1024.Idx → EReal)
      _ = W2 m ρ c (Proc.devRef .tc main_arg3) := W3_of_ne m ρ c main_arg3 (by decide)
      _ = W1 m ρ c (Proc.devRef .tc main_arg3) := W2_of_ne m ρ c main_arg3 (by decide)
      _ = W0 m ρ c (Proc.devRef .tc main_arg3) := StableHlo.after_of_writes_sub hostOps0 _ hostOps0_writes (by decide)
      _ = m ((c.tc : Thread nD τ).loc main_arg3) := rfl
  rw [e]

/-! ## The chain -/

section Chain

/-- The specification's arguments: the four argument arrays by coordinates. -/
abbrev xA : Fin 2 → Fin 2048 → Fin 1024 → EReal := Cert.ReferenceIdeal.RefValue.X (m ((c.tc : Thread nD τ).loc main_arg0))
abbrev wA : Fin 3072 → Fin 1024 → EReal := Cert.ReferenceIdeal.RefValue.W (m ((c.tc : Thread nD τ).loc main_arg1))
abbrev woA : Fin 1024 → Fin 1024 → EReal := Cert.ReferenceIdeal.RefValue.Wo (m ((c.tc : Thread nD τ).loc main_arg2))
abbrev boA : Fin 1024 → EReal := Cert.ReferenceIdeal.RefValue.Bo (m ((c.tc : Thread nD τ).loc main_arg3))

/-- The second kernel's output, stated of its value at the arrays it finds, for real queries, keys and values. -/
def AttnHyp : Prop :=
  (∀ i : S2x16x2048x64.Idx, ∃ r : ℝ, (V2 (F := Ideal) m ρ c main_v9_0 : S2x16x2048x64.Idx → EReal) i = (r : EReal))
  → (∀ i : S2x16x2048x64.Idx, ∃ r : ℝ, (V2 (F := Ideal) m ρ c main_v9_1 : S2x16x2048x64.Idx → EReal) i = (r : EReal))
  → (∀ i : S2x16x2048x64.Idx, ∃ r : ℝ, (V2 (F := Ideal) m ρ c main_v9_2 : S2x16x2048x64.Idx → EReal) i = (r : EReal))
  → (dat1 (F := Ideal) (V2 m ρ) c).arrAt 3 cfg1.N
      = attnOf (V2 (F := Ideal) m ρ c main_v9_0) (V2 (F := Ideal) m ρ c main_v9_1) (V2 (F := Ideal) m ρ c main_v9_2)

/-- The queries, keys and values the second kernel finds are the specification's projections. -/
theorem V2_part (b : Fin 2) (h : Fin 16) (n : Fin 2048) (d : Fin 64) :
    (V2 (F := Ideal) m ρ c main_v9_0 : S2x16x2048x64.Idx → EReal) (ix4 b h n d) = proj (xA m c) (wA m c) 0 b h n d
    ∧ (V2 (F := Ideal) m ρ c main_v9_1 : S2x16x2048x64.Idx → EReal) (ix4 b h n d) = proj (xA m c) (wA m c) 1 b h n d
    ∧ (V2 (F := Ideal) m ρ c main_v9_2 : S2x16x2048x64.Idx → EReal) (ix4 b h n d) = proj (xA m c) (wA m c) 2 b h n d := by
  have e4 : (V2 (F := Ideal) m ρ c main_v9_0 : S2x16x2048x64.Idx → EReal) = headProj (V1 m ρ c main_v0) (V1 m ρ c main_v4) :=
    (W2_arr m ρ c 4).trans (final0_4 (V1 m ρ) c)
  have e5 : (V2 (F := Ideal) m ρ c main_v9_1 : S2x16x2048x64.Idx → EReal) = headProj (V1 m ρ c main_v0) (V1 m ρ c main_v6) :=
    (W2_arr m ρ c 5).trans (final0_5 (V1 m ρ) c)
  have e6 : (V2 (F := Ideal) m ρ c main_v9_2 : S2x16x2048x64.Idx → EReal) = headProj (V1 m ρ c main_v0) (V1 m ρ c main_v8) :=
    (W2_arr m ρ c 6).trans (final0_6 (V1 m ρ) c)
  have hA : ∀ (b : Fin 2) (n : Fin 2048) (k : Fin 1024),
      (V1 (F := Ideal) m ρ c main_v0 : S2x2048x1024.Idx → EReal) (ix3 b n k) = xA m c b n k :=
    fun b n k => congrFun (V1_v0 m ρ c) (ix3 b n k)
  exact ⟨(congrFun e4 (ix4 b h n d)).trans (headProj_eq_proj _ _ (xA m c) (wA m c) 0 hA (V1_v4 m ρ c) b h n d),
    (congrFun e5 (ix4 b h n d)).trans (headProj_eq_proj _ _ (xA m c) (wA m c) 1 hA (V1_v6 m ρ c) b h n d),
    (congrFun e6 (ix4 b h n d)).trans (headProj_eq_proj _ _ (xA m c) (wA m c) 2 hA (V1_v8 m ρ c) b h n d)⟩

variable {m ρ c}

/-- The attention output as the host finds it after the second kernel is the specification's attention. -/
theorem W3_v10 (hpre : Cert.Pre_KernelIdeal m) (ha : AttnHyp m ρ c)
    (b : Fin 2) (h : Fin 16) (q : Fin 2048) (d : Fin 64) :
    (W3 (F := Ideal) m ρ c (Proc.devRef .tc main_v10) : S2x16x2048x64.Idx → EReal) (ix4 b h q d)
      = attnRef (xA m c) (wA m c) b h q d := by
  obtain ⟨r0, r1, -, -⟩ := Cert.Finite.real_inputs m hpre c
  have hx : ∀ (b : Fin 2) (n : Fin 2048) (k : Fin 1024), ∃ r : ℝ, (xA m c) b n k = (r : EReal) := fun b n k => r0 (ix3 b n k)
  have hw : ∀ (f : Fin 3072) (k : Fin 1024), ∃ r : ℝ, (wA m c) f k = (r : EReal) := fun f k => r1 (ix2 f k)
  have hQ : ∀ i : S2x16x2048x64.Idx, ∃ r : ℝ, (V2 (F := Ideal) m ρ c main_v9_0 : S2x16x2048x64.Idx → EReal) i = (r : EReal) :=
    fun i => by
      obtain ⟨b', h', n', d', rfl⟩ : ∃ (b' : Fin 2) (h' : Fin 16) (n' : Fin 2048) (d' : Fin 64), i = ix4 b' h' n' d' :=
        ⟨i 0, i 1, i 2, i 3, eq_ix4 i⟩
      obtain ⟨r, hr⟩ := proj_real (xA m c) (wA m c) hx hw 0 b' h' n' d'
      exact ⟨r, ((V2_part m ρ c b' h' n' d').1).trans hr⟩
  have hK : ∀ i : S2x16x2048x64.Idx, ∃ r : ℝ, (V2 (F := Ideal) m ρ c main_v9_1 : S2x16x2048x64.Idx → EReal) i = (r : EReal) :=
    fun i => by
      obtain ⟨b', h', n', d', rfl⟩ : ∃ (b' : Fin 2) (h' : Fin 16) (n' : Fin 2048) (d' : Fin 64), i = ix4 b' h' n' d' :=
        ⟨i 0, i 1, i 2, i 3, eq_ix4 i⟩
      obtain ⟨r, hr⟩ := proj_real (xA m c) (wA m c) hx hw 1 b' h' n' d'
      exact ⟨r, ((V2_part m ρ c b' h' n' d').2.1).trans hr⟩
  have hV : ∀ i : S2x16x2048x64.Idx, ∃ r : ℝ, (V2 (F := Ideal) m ρ c main_v9_2 : S2x16x2048x64.Idx → EReal) i = (r : EReal) :=
    fun i => by
      obtain ⟨b', h', n', d', rfl⟩ : ∃ (b' : Fin 2) (h' : Fin 16) (n' : Fin 2048) (d' : Fin 64), i = ix4 b' h' n' d' :=
        ⟨i 0, i 1, i 2, i 3, eq_ix4 i⟩
      obtain ⟨r, hr⟩ := proj_real (xA m c) (wA m c) hx hw 2 b' h' n' d'
      exact ⟨r, ((V2_part m ρ c b' h' n' d').2.2).trans hr⟩
  have e : (W3 (F := Ideal) m ρ c (Proc.devRef .tc main_v10) : S2x16x2048x64.Idx → EReal)
      = (dat1 (V2 m ρ) c).arrAt 3 cfg1.N := W3_arr m ρ c 3
  rw [e, ha hQ hK hV, attnOf_apply]
  exact attnAt_eq_attnRef _ _ _ (xA m c) (wA m c) (fun b h n d => (V2_part m ρ c b h n d).1) (fun b h n d => (V2_part m ρ c b h n d).2.1)
    (fun b h n d => (V2_part m ρ c b h n d).2.2) b h q d

/-- The merged attention rows as the third kernel finds them: row b · 2048 + n, column k is the attention of head k / 64
    at token (b, n), coordinate k mod 64. -/
theorem V4_v12 (hpre : Cert.Pre_KernelIdeal m) (ha : AttnHyp m ρ c)
    (b : Fin 2) (n : Fin 2048) (k : Fin 1024) :
    (V4 (F := Ideal) m ρ c main_v12 : S4096x1024.Idx → EReal)
        (ix2 (⟨b.val * 2048 + n.val, by have := b.isLt; have := n.isLt; omega⟩ : Fin 4096) k)
      = attnRef (xA m c) (wA m c) b (headOf k) n (coordOf k) := by
  have hb := b.isLt; have hn := n.isLt
  refine (host2_v12 (W3 m ρ c) _ k).trans ?_
  refine (congrArg (W3 (F := Ideal) m ρ c (Proc.devRef .tc main_v10) : S2x16x2048x64.Idx → EReal)
    (?_ : _ = ix4 b (headOf k) n (coordOf k))).trans (W3_v10 hpre ha b (headOf k) n (coordOf k))
  funext a
  apply Fin.ext
  match a with
  | ⟨0, _⟩ => show (b.val * 2048 + n.val) / 2048 = b.val; omega
  | ⟨1, _⟩ => rfl
  | ⟨2, _⟩ => show (b.val * 2048 + n.val) % 2048 = n.val; omega
  | ⟨3, _⟩ => rfl

/-- THE KERNEL PROGRAM'S RESULT IS THE SPECIFICATION, given the second kernel's value at the arrays it finds. -/
theorem kernel_is_G (hpre : Cert.Pre_KernelIdeal m) (ha : AttnHyp m ρ c) :
    (W6 (F := Ideal) m ρ c (Proc.devRef .tc main_v15) : S2x2048x1024.Idx → EReal)
      = fun i => G (Cert.ReferenceIdeal.RefValue.X (m ((c.tc : Thread nD τ).loc main_arg0)))
          (Cert.ReferenceIdeal.RefValue.W (m ((c.tc : Thread nD τ).loc main_arg1)))
          (Cert.ReferenceIdeal.RefValue.Wo (m ((c.tc : Thread nD τ).loc main_arg2)))
          (Cert.ReferenceIdeal.RefValue.Bo (m ((c.tc : Thread nD τ).loc main_arg3))) (i 0) (i 1) (i 2) := by
  funext i
  obtain ⟨b, n, f, rfl⟩ : ∃ (b : Fin 2) (n : Fin 2048) (f : Fin 1024), i = ix3 b n f := ⟨i 0, i 1, i 2, eq_ix3 i⟩
  refine (host3_v15 (W5 m ρ c) b n f).trans ?_
  have e : (W5 (F := Ideal) m ρ c (Proc.devRef .tc main_v14) : S4096x1024.Idx → EReal)
      = (dat2 (V4 m ρ) c).arrAt 3 cfg2.N := W5_arr m ρ c 3
  rw [e, final2_3 (V4 m ρ) c, linBias_apply]
  exact congrArg₂ (fun (u v : EReal) => u + v)
    (Finset.sum_congr rfl fun k _ => congrArg₂ (fun (u v : EReal) => u * v) (V4_v12 hpre ha b n k) (congrFun (V4_v2 m ρ c) (ix2 f k)))
    (V4_v13 m ρ c f)

end Chain

end Cert.KernelIdeal.HandValue

end
-- ==== Proof.Assemble.lean ====
/-
  The five conjuncts of the claim, from the runs and the values.

  Each program's frame is its run with everything but the argument arrays forgotten. The idealization rewrote nothing, so
  what it preserves is trivially true. For the equivalence at the extended reals both runs end with their result array
  equal to one and the same function of the four argument arrays, the specification: the kernel program's by the chain
  through its three kernels and the host operations between them, the reference's by reading its operations entry by
  entry; the two memories agree on the arguments, so the two functions are the same term.
-/
import proofs.«108477_j14860586844639_2_alg».proof.Defs
import proofs.«108477_j14860586844639_2_alg».proof.Proof.Gen.Kernel
import proofs.«108477_j14860586844639_2_alg».proof.Proof.Gen.KernelIdeal
import proofs.«108477_j14860586844639_2_alg».proof.Proof.Gen.ReferenceIdeal
import proofs.«108477_j14860586844639_2_alg».proof.Proof.Gen.Pre_finite_inputs
import proofs.«108477_j14860586844639_2_alg».proof.Proof.Gen.ReferenceIdeal.Run
import proofs.«108477_j14860586844639_2_alg».proof.Proof.KRun
import proofs.«108477_j14860586844639_2_alg».proof.Proof.Chain

noncomputable section

namespace Cert.Proof.Parts

open Idealize.ShloMosaic Idealize.ShloMosaic.TcCoe Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized program runs and leaves its arguments unchanged. -/
theorem frame_ki : Cert.frame_KernelIdeal (hKernelIdeal := Cert.KernelIdeal.Gen.facts)
    (hPre_finite_inputs := Cert.Pre_finite_inputs.Gen.facts) :=
  fun m ρ _ => Cert.KernelIdeal.Hand.frame (F := Ideal) m ρ

/-- The reference runs and leaves its arguments unchanged: its run with the result forgotten. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- The two idealized programs, from memories agreeing on the arguments, end with the same result: the specification of the
    arguments. Given the attention kernel's value at the arrays it finds. -/
theorem algebraic_of
    (ha : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.Pre_KernelIdeal (hPre_finite_inputs := Cert.Pre_finite_inputs.Gen.facts) m →
        Cert.KernelIdeal.HandValue.AttnHyp m ρ c) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c i => Cert.Spec.G
      (Cert.ReferenceIdeal.RefValue.X (m ((c.tc : Thread Cert.KernelIdeal.nD Cert.KernelIdeal.τ).loc Cert.KernelIdeal.main_arg0)))
      (Cert.ReferenceIdeal.RefValue.W (m ((c.tc : Thread Cert.KernelIdeal.nD Cert.KernelIdeal.τ).loc Cert.KernelIdeal.main_arg1)))
      (Cert.ReferenceIdeal.RefValue.Wo (m ((c.tc : Thread Cert.KernelIdeal.nD Cert.KernelIdeal.τ).loc Cert.KernelIdeal.main_arg2)))
      (Cert.ReferenceIdeal.RefValue.Bo (m ((c.tc : Thread Cert.KernelIdeal.nD Cert.KernelIdeal.τ).loc Cert.KernelIdeal.main_arg3))) (i 0) (i 1) (i 2), ?_, ?_⟩
  · refine (θ_run Cert.KernelIdeal.defs _ _).mono (fun r h c => ⟨?_, ?_, ?_, ?_, ?_⟩)
      (Cert.KernelIdeal.Hand.run_all (F := Ideal) m ρ)
    · exact (h c _ (Cert.KernelIdeal.Hand.mem_uc Cert.KernelIdeal.main_v15 (by decide))).trans
        (Cert.KernelIdeal.HandValue.kernel_is_G hpre (ha m ρ c hpre))
    · exact (h c _ (Cert.KernelIdeal.Hand.mem_uc Cert.KernelIdeal.main_arg0 (by decide))).trans
        (Cert.KernelIdeal.Hand.W6_arg m ρ c Cert.KernelIdeal.main_arg0 (by decide) (by decide) (by decide) (by decide) (by decide) (by decide))
    · exact (h c _ (Cert.KernelIdeal.Hand.mem_uc Cert.KernelIdeal.main_arg1 (by decide))).trans
        (Cert.KernelIdeal.Hand.W6_arg m ρ c Cert.KernelIdeal.main_arg1 (by decide) (by decide) (by decide) (by decide) (by decide) (by decide))
    · exact (h c _ (Cert.KernelIdeal.Hand.mem_uc Cert.KernelIdeal.main_arg2 (by decide))).trans
        (Cert.KernelIdeal.Hand.W6_arg m ρ c Cert.KernelIdeal.main_arg2 (by decide) (by decide) (by decide) (by decide) (by decide) (by decide))
    · exact (h c _ (Cert.KernelIdeal.Hand.mem_uc Cert.KernelIdeal.main_arg3 (by decide))).trans
        (Cert.KernelIdeal.Hand.W6_arg m ρ c Cert.KernelIdeal.main_arg3 (by decide) (by decide) (by decide) (by decide) (by decide) (by decide))
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_is_G, (hagree c).1, (hagree c).2.1, (hagree c).2.2.1, (hagree c).2.2.2]
    rfl

end Cert.Proof.Parts

end
-- ==== Proof.IVal1a.lean ====
/-
  The attention body's one step as pure functions of vectors, and each case's buffers read back as those functions.
  One step takes the query block, one key tile and one value tile, and the running maximum m, denominator l and
  numerator acc, to:  m' = max(m, row maximum of the tile's scaled scores);  l' = e^(m - m') l + row sums of
  e^(score - m');  acc' = e^(m - m') acc + (e^(score - m')) · values.  At a first tile the step starts from
  m = -inf, l = 0, acc = 0; at a last tile the output block is acc' / l'.
-/
import proofs.«108477_j14860586844639_2_alg».proof.Proof.IReg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One step -/

def stepM (x0 : Vec F S1x4x2048x64 .bf16) (x1 : Vec F S1x4x512x64 .bf16) (m : Vec F S4x2048x1 .f32) : Vec F S4x2048x1 .f32 :=
  k1_pay3 (k1_pay10 x0 x1 m)
def stepL (x0 : Vec F S1x4x2048x64 .bf16) (x1 : Vec F S1x4x512x64 .bf16) (m l : Vec F S4x2048x1 .f32) : Vec F S4x2048x1 .f32 :=
  k1_pay1 (k1_pay13 x0 x1 m m l)
def stepAcc (x0 : Vec F S1x4x2048x64 .bf16) (x1 x2 : Vec F S1x4x512x64 .bf16) (m : Vec F S4x2048x1 .f32) (acc : Vec F S4x2048x64 .f32) : Vec F S4x2048x64 .f32 :=
  k1_pay2 (k1_pay8 x2) (k1_pay11 x0 x1 m m) (k1_pay12 x0 x1 m) acc
def finOut (acc : Vec F S4x2048x64 .f32) (l : Vec F S4x2048x1 .f32) : Vec F S1x4x2048x64 .bf16 :=
  k1_pay4 acc l

theorem hz3 : (![0, 0, 0] : Fin 3 → ℕ) = fun _ => 0 := by funext a; fin_cases a <;> rfl
theorem hz4 : (![0, 0, 0, 0] : Fin 4 → ℕ) = fun _ => 0 := by funext a; fin_cases a <;> rfl

/-! ## Each case's buffers are the step -/

section
variable (c : Dev nD) (i : grid1.Coords) (arg3 : Memref sig .tc .vmem S1x4x2048x64 .bf16) (harg3 : arg3.IsWhole) (arg4 : Memref sig .tc .vmem S1x4x512x64 .bf16) (harg4 : arg4.IsWhole) (arg5 : Memref sig .tc .vmem S1x4x512x64 .bf16) (harg5 : arg5.IsWhole) (arg6 : Memref sig .tc .vmem S1x4x2048x64 .bf16) (harg6 : arg6.IsWhole) (arg7 : Memref sig .tc .vmem S4x2048x1 .f32) (harg7 : arg7.IsWhole) (arg8 : Memref sig .tc .vmem S4x2048x1 .f32) (harg8 : arg8.IsWhole) (arg9 : Memref sig .tc .vmem S4x2048x64 .f32) (harg9 : arg9.IsWhole)
  (x0 : Vec F S1x4x2048x64 .bf16) (x1 : Vec F S1x4x512x64 .bf16) (x2 : Vec F S1x4x512x64 .bf16)
  (xs0 : Vec F S4x2048x1 .f32) (xs1 : Vec F S4x2048x1 .f32) (xs2 : Vec F S4x2048x64 .f32)

theorem sout1_B_0_eq (hc0 : ¬cond1_0 i) (hc1 : ¬cond1_1 i) :
    sout1_B_0 c i arg3 harg3 arg4 harg4 arg5 harg5 arg6 harg6 arg7 harg7 arg8 harg8 arg9 harg9 x0 x1 x2 xs0 xs1 xs2 hc0 hc1 = stepM x0 x1 xs0 := by
  unfold sout1_B_0
  rw [View.read_writes_eq_canon _ _ _ (scover1_B_0 c i arg3 harg3 arg4 harg4 arg5 harg5 arg6 harg6 arg7 harg7 arg8 harg8 arg9 harg9 x0 x1 x2 xs0 xs1 xs2 hc0 hc1)]
  unfold rB kernelRun1_B
  dsimp only
  sl_unfold_words
  rw [View.canon_unit_zero hz3]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4]
  rfl

theorem sout1_B_1_eq (hc0 : ¬cond1_0 i) (hc1 : ¬cond1_1 i) :
    sout1_B_1 c i arg3 harg3 arg4 harg4 arg5 harg5 arg6 harg6 arg7 harg7 arg8 harg8 arg9 harg9 x0 x1 x2 xs0 xs1 xs2 hc0 hc1 = stepL x0 x1 xs0 xs1 := by
  unfold sout1_B_1
  rw [View.read_writes_eq_canon _ _ _ (scover1_B_1 c i arg3 harg3 arg4 harg4 arg5 harg5 arg6 harg6 arg7 harg7 arg8 harg8 arg9 harg9 x0 x1 x2 xs0 xs1 xs2 hc0 hc1)]
  unfold rB kernelRun1_B
  dsimp only
  sl_unfold_words
  rw [View.canon_unit_zero hz3]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4]
  rfl

theorem sout1_B_2_eq (hc0 : ¬cond1_0 i) (hc1 : ¬cond1_1 i) :
    sout1_B_2 c i arg3 harg3 arg4 harg4 arg5 harg5 arg6 harg6 arg7 harg7 arg8 harg8 arg9 harg9 x0 x1 x2 xs0 xs1 xs2 hc0 hc1 = stepAcc x0 x1 x2 xs0 xs2 := by
  unfold sout1_B_2
  rw [View.read_writes_eq_canon _ _ _ (scover1_B_2 c i arg3 harg3 arg4 harg4 arg5 harg5 arg6 harg6 arg7 harg7 arg8 harg8 arg9 harg9 x0 x1 x2 xs0 xs1 xs2 hc0 hc1)]
  unfold rB kernelRun1_B
  dsimp only
  sl_unfold_words
  rw [View.canon_unit_zero hz3]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4]
  rfl

theorem sout1_C_0_eq (hc0 : ¬cond1_0 i) (hc1 : cond1_1 i) :
    sout1_C_0 c i arg3 harg3 arg4 harg4 arg5 harg5 arg6 harg6 arg7 harg7 arg8 harg8 arg9 harg9 x0 x1 x2 xs0 xs1 xs2 hc0 hc1 = stepM x0 x1 xs0 := by
  unfold sout1_C_0
  rw [View.read_writes_eq_canon _ _ _ (scover1_C_0 c i arg3 harg3 arg4 harg4 arg5 harg5 arg6 harg6 arg7 harg7 arg8 harg8 arg9 harg9 x0 x1 x2 xs0 xs1 xs2 hc0 hc1)]
  unfold rC kernelRun1_C
  dsimp only
  sl_unfold_words
  rw [View.canon_unit_zero hz3]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4]
  rfl

theorem sout1_C_1_eq (hc0 : ¬cond1_0 i) (hc1 : cond1_1 i) :
    sout1_C_1 c i arg3 harg3 arg4 harg4 arg5 harg5 arg6 harg6 arg7 harg7 arg8 harg8 arg9 harg9 x0 x1 x2 xs0 xs1 xs2 hc0 hc1 = stepL x0 x1 xs0 xs1 := by
  unfold sout1_C_1
  rw [View.read_writes_eq_canon _ _ _ (scover1_C_1 c i arg3 harg3 arg4 harg4 arg5 harg5 arg6 harg6 arg7 harg7 arg8 harg8 arg9 harg9 x0 x1 x2 xs0 xs1 xs2 hc0 hc1)]
  unfold rC kernelRun1_C
  dsimp only
  sl_unfold_words
  rw [View.canon_unit_zero hz3]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4]
  rfl

theorem sout1_C_2_eq (hc0 : ¬cond1_0 i) (hc1 : cond1_1 i) :
    sout1_C_2 c i arg3 harg3 arg4 harg4 arg5 harg5 arg6 harg6 arg7 harg7 arg8 harg8 arg9 harg9 x0 x1 x2 xs0 xs1 xs2 hc0 hc1 = stepAcc x0 x1 x2 xs0 xs2 := by
  unfold sout1_C_2
  rw [View.read_writes_eq_canon _ _ _ (scover1_C_2 c i arg3 harg3 arg4 harg4 arg5 harg5 arg6 harg6 arg7 harg7 arg8 harg8 arg9 harg9 x0 x1 x2 xs0 xs1 xs2 hc0 hc1)]
  unfold rC kernelRun1_C
  dsimp only
  sl_unfold_words
  rw [View.canon_unit_zero hz3]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4]
  rfl

theorem out1_C_3_eq (hc0 : ¬cond1_0 i) (hc1 : cond1_1 i) :
    out1_C_3 c i arg3 harg3 arg4 harg4 arg5 harg5 arg6 harg6 arg7 harg7 arg8 harg8 arg9 harg9 x0 x1 x2 xs0 xs1 xs2 hc0 hc1 = finOut (stepAcc x0 x1 x2 xs0 xs2) (stepL x0 x1 xs0 xs1) := by
  unfold out1_C_3
  rw [View.read_writes_eq_canon _ _ _ (cover1_C_3 c i arg3 harg3 arg4 harg4 arg5 harg5 arg6 harg6 arg7 harg7 arg8 harg8 arg9 harg9 x0 x1 x2 xs0 xs1 xs2 hc0 hc1)]
  unfold rC kernelRun1_C
  dsimp only
  sl_unfold_words
  rw [View.canon_unit_zero hz4]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4,
    View.readCov_unit_zero (S := S4x2048x1) _ hz3, View.readCov_unit_zero (S := S4x2048x64) _ hz3]
  rfl

theorem sout1_A_0_eq (hc0 : cond1_0 i) (hc1 : ¬cond1_1 i) :
    sout1_A_0 c i arg3 harg3 arg4 harg4 arg5 harg5 arg6 harg6 arg7 harg7 arg8 harg8 arg9 harg9 x0 x1 x2 hc0 hc1 = stepM x0 x1 (k1_pay5 (F := F)) := by
  unfold sout1_A_0
  rw [View.read_writes_eq_canon _ _ _ (scover1_A_0 c i arg3 harg3 arg4 harg4 arg5 harg5 arg6 harg6 arg7 harg7 arg8 harg8 arg9 harg9 x0 x1 x2 hc0 hc1)]
  unfold rA kernelRun1_A
  dsimp only
  sl_unfold_words
  rw [View.canon_cons_unit_zero hz3]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4,
    View.readCov_unit_zero (S := S4x2048x1) _ hz3, View.readCov_unit_zero (S := S4x2048x64) _ hz3]
  rfl

theorem sout1_A_1_eq (hc0 : cond1_0 i) (hc1 : ¬cond1_1 i) :
    sout1_A_1 c i arg3 harg3 arg4 harg4 arg5 harg5 arg6 harg6 arg7 harg7 arg8 harg8 arg9 harg9 x0 x1 x2 hc0 hc1 = stepL x0 x1 (k1_pay5 (F := F)) (k1_pay6 (F := F)) := by
  unfold sout1_A_1
  rw [View.read_writes_eq_canon _ _ _ (scover1_A_1 c i arg3 harg3 arg4 harg4 arg5 harg5 arg6 harg6 arg7 harg7 arg8 harg8 arg9 harg9 x0 x1 x2 hc0 hc1)]
  unfold rA kernelRun1_A
  dsimp only
  sl_unfold_words
  rw [View.canon_cons_unit_zero hz3]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4,
    View.readCov_unit_zero (S := S4x2048x1) _ hz3, View.readCov_unit_zero (S := S4x2048x64) _ hz3]
  rfl

theorem sout1_A_2_eq (hc0 : cond1_0 i) (hc1 : ¬cond1_1 i) :
    sout1_A_2 c i arg3 harg3 arg4 harg4 arg5 harg5 arg6 harg6 arg7 harg7 arg8 harg8 arg9 harg9 x0 x1 x2 hc0 hc1 = stepAcc x0 x1 x2 (k1_pay5 (F := F)) (k1_pay7 (F := F)) := by
  unfold sout1_A_2
  rw [View.read_writes_eq_canon _ _ _ (scover1_A_2 c i arg3 harg3 arg4 harg4 arg5 harg5 arg6 harg6 arg7 harg7 arg8 harg8 arg9 harg9 x0 x1 x2 hc0 hc1)]
  unfold rA kernelRun1_A
  dsimp only
  sl_unfold_words
  rw [View.canon_cons_unit_zero hz3]
  simp only [View.readAt_eq_ld, Memref.IsWhole.read_unread, View.ld_unit_zero (S := S4x2048x1) hz3, View.ld_unit_zero (S := S4x2048x64) hz3,
    View.ld_unit_zero (S := S1x4x2048x64) hz4, View.ld_unit_zero (S := S1x4x512x64) hz4,
    View.readCov_unit_zero (S := S4x2048x1) _ hz3, View.readCov_unit_zero (S := S4x2048x64) _ hz3]
  rfl

end

/-! ## The state after a point is one step from the state before it -/

section
variable (V : (c : Dev nD) → (b : Ref sig .tc) → Buf (Elt F) ((c : Thread nD τ).loc b)) (c : Dev nD) (t : Fin cfg1.N)

/-- The query block, the key tile and the value tile of point `t`, as vectors. -/
abbrev qB : Vec F S1x4x2048x64 .bf16 := iblk1 V c 0 t
abbrev kB : Vec F S1x4x512x64 .bf16 := iblk1 V c 1 t
abbrev vB : Vec F S1x4x512x64 .bf16 := iblk1 V c 2 t

theorem stA_eq (h0 : t.val % 4 = 0) :
    stA V c t h0 = (VO1_3.read (Elt F) VO1_3.junk, stepM (qB V c t) (kB V c t) (k1_pay5 (F := F)),
      stepL (qB V c t) (kB V c t) (k1_pay5 (F := F)) (k1_pay6 (F := F)),
      stepAcc (qB V c t) (kB V c t) (vB V c t) (k1_pay5 (F := F)) (k1_pay7 (F := F))) := by
  unfold stA
  rw [sout1_A_0_eq, sout1_A_1_eq, sout1_A_2_eq]
theorem stB_eq (h0 : t.val % 4 ≠ 0) (h1 : t.val % 4 ≠ 3) (p : St F) :
    stB V c t h0 h1 p = (VO1_3.read (Elt F) VO1_3.junk, stepM (qB V c t) (kB V c t) p.2.1,
      stepL (qB V c t) (kB V c t) p.2.1 p.2.2.1,
      stepAcc (qB V c t) (kB V c t) (vB V c t) p.2.1 p.2.2.2) := by
  unfold stB
  rw [sout1_B_0_eq, sout1_B_1_eq, sout1_B_2_eq]
theorem stC_eq (h0 : t.val % 4 ≠ 0) (h1 : t.val % 4 = 3) (p : St F) :
    stC V c t h0 h1 p = (finOut (stepAcc (qB V c t) (kB V c t) (vB V c t) p.2.1 p.2.2.2) (stepL (qB V c t) (kB V c t) p.2.1 p.2.2.1),
      stepM (qB V c t) (kB V c t) p.2.1,
      stepL (qB V c t) (kB V c t) p.2.1 p.2.2.1,
      stepAcc (qB V c t) (kB V c t) (vB V c t) p.2.1 p.2.2.2) := by
  unfold stC
  rw [out1_C_3_eq, sout1_C_0_eq, sout1_C_1_eq, sout1_C_2_eq]
end

end Cert.KernelIdeal.Hand

end
-- ==== Proof.IVal1b.lean ====
/-
  The attention region, block by block. Point t of the grid [2, 4, 4] is batch t / 16, head group (t / 4) % 4,
  key/value tile t % 4. Its query block is rows (batch, 4 group + h) of the query array whole; its key and value tiles
  are rows 512 (t % 4) .. 512 (t % 4) + 511 of the same heads. The output block of a head group is written back at
  its last tile only, and those blocks tile the output array. What the last tile writes is four steps of the body from
  the fresh start, one per tile of the group.
-/
import proofs.«108477_j14860586844639_2_alg».proof.Proof.IVal1a
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

variable {F : FTy → Type} [FloatOps F]

/-! ## The printed index maps, decided over the grid -/

theorem idx_facts1 : ∀ t : Fin cfg1.N,
    (win1_0.index t (0 : Fin 4) = t.val / 16 ∧ win1_0.index t (1 : Fin 4) = (t.val / 4) % 4 ∧ win1_0.index t (2 : Fin 4) = 0 ∧ win1_0.index t (3 : Fin 4) = 0)
    ∧ (win1_1.index t (0 : Fin 4) = t.val / 16 ∧ win1_1.index t (1 : Fin 4) = (t.val / 4) % 4 ∧ win1_1.index t (2 : Fin 4) = t.val % 4 ∧ win1_1.index t (3 : Fin 4) = 0)
    ∧ (win1_2.index t (0 : Fin 4) = t.val / 16 ∧ win1_2.index t (1 : Fin 4) = (t.val / 4) % 4 ∧ win1_2.index t (2 : Fin 4) = t.val % 4 ∧ win1_2.index t (3 : Fin 4) = 0)
    ∧ (win1_3.index t (0 : Fin 4) = t.val / 16 ∧ win1_3.index t (1 : Fin 4) = (t.val / 4) % 4 ∧ win1_3.index t (2 : Fin 4) = 0 ∧ win1_3.index t (3 : Fin 4) = 0) :=
  (by decide +kernel : ∀ t : Fin grid1.N, _)

theorem tlt (t : Fin cfg1.N) : t.val < 32 := lt_of_lt_of_eq t.isLt (show cfg1.N = 32 from N_1)

/-- The batch of point `t`, the head `h` of its group, row `k` of its key/value tile. -/
def cellB (t : Fin cfg1.N) : Fin 2 := ⟨t.val / 16, by have := tlt t; omega⟩
def cellH (t : Fin cfg1.N) (h : Fin 4) : Fin 16 := ⟨4 * ((t.val / 4) % 4) + h.val, by have := h.isLt; omega⟩
def tileRow (t : Fin cfg1.N) (k : Fin 512) : Fin 2048 := ⟨512 * (t.val % 4) + k.val, by have := k.isLt; omega⟩

section
variable (V : (c : Dev nD) → (b : Ref sig .tc) → Buf (Elt F) ((c : Thread nD τ).loc b)) (c : Dev nD)

/-! ## The blocks as array entries -/

/-- Where a block's entry sits in its array. -/
theorem emb1_0 (t : Fin cfg1.N) (h : Fin 4) (q : Fin 2048) (e : Fin 64) :
    ((cfg1.win 0).blk t).view.emb (ix4 (0 : Fin 1) h q e) = (ix4 (cellB t) (cellH t h) q e : S2x16x2048x64.Idx) := by
  obtain ⟨⟨f0, f1, f2, f3⟩, -⟩ := idx_facts1 t
  funext a; apply Fin.ext
  match a with
  | ⟨0, _⟩ => show win1_0.index t (0 : Fin 4) * 1 + 1 * 0 = t.val / 16; omega
  | ⟨1, _⟩ => show win1_0.index t (1 : Fin 4) * 4 + 1 * h.val = 4 * ((t.val / 4) % 4) + h.val; omega
  | ⟨2, _⟩ => show win1_0.index t (2 : Fin 4) * 2048 + 1 * q.val = q.val; omega
  | ⟨3, _⟩ => show win1_0.index t (3 : Fin 4) * 64 + 1 * e.val = e.val; omega

theorem emb1_1 (t : Fin cfg1.N) (h : Fin 4) (k : Fin 512) (e : Fin 64) :
    ((cfg1.win 1).blk t).view.emb (ix4 (0 : Fin 1) h k e) = (ix4 (cellB t) (cellH t h) (tileRow t k) e : S2x16x2048x64.Idx) := by
  obtain ⟨-, ⟨f0, f1, f2, f3⟩, -⟩ := idx_facts1 t
  funext a; apply Fin.ext
  match a with
  | ⟨0, _⟩ => show win1_1.index t (0 : Fin 4) * 1 + 1 * 0 = t.val / 16; omega
  | ⟨1, _⟩ => show win1_1.index t (1 : Fin 4) * 4 + 1 * h.val = 4 * ((t.val / 4) % 4) + h.val; omega
  | ⟨2, _⟩ => show win1_1.index t (2 : Fin 4) * 512 + 1 * k.val = 512 * (t.val % 4) + k.val; omega
  | ⟨3, _⟩ => show win1_1.index t (3 : Fin 4) * 64 + 1 * e.val = e.val; omega

theorem emb1_2 (t : Fin cfg1.N) (h : Fin 4) (k : Fin 512) (e : Fin 64) :
    ((cfg1.win 2).blk t).view.emb (ix4 (0 : Fin 1) h k e) = (ix4 (cellB t) (cellH t h) (tileRow t k) e : S2x16x2048x64.Idx) := by
  obtain ⟨-, -, ⟨f0, f1, f2, f3⟩, -⟩ := idx_facts1 t
  funext a; apply Fin.ext
  match a with
  | ⟨0, _⟩ => show win1_2.index t (0 : Fin 4) * 1 + 1 * 0 = t.val / 16; omega
  | ⟨1, _⟩ => show win1_2.index t (1 : Fin 4) * 4 + 1 * h.val = 4 * ((t.val / 4) % 4) + h.val; omega
  | ⟨2, _⟩ => show win1_2.index t (2 : Fin 4) * 512 + 1 * k.val = 512 * (t.val % 4) + k.val; omega
  | ⟨3, _⟩ => show win1_2.index t (3 : Fin 4) * 64 + 1 * e.val = e.val; omega

theorem emb1_3 (t : Fin cfg1.N) (h : Fin 4) (q : Fin 2048) (e : Fin 64) :
    ((cfg1.win 3).blk t).view.emb (ix4 (0 : Fin 1) h q e) = (ix4 (cellB t) (cellH t h) q e : S2x16x2048x64.Idx) := by
  obtain ⟨-, -, -, ⟨f0, f1, f2, f3⟩⟩ := idx_facts1 t
  funext a; apply Fin.ext
  match a with
  | ⟨0, _⟩ => show win1_3.index t (0 : Fin 4) * 1 + 1 * 0 = t.val / 16; omega
  | ⟨1, _⟩ => show win1_3.index t (1 : Fin 4) * 4 + 1 * h.val = 4 * ((t.val / 4) % 4) + h.val; omega
  | ⟨2, _⟩ => show win1_3.index t (2 : Fin 4) * 2048 + 1 * q.val = q.val; omega
  | ⟨3, _⟩ => show win1_3.index t (3 : Fin 4) * 64 + 1 * e.val = e.val; omega

theorem qB_apply (t : Fin cfg1.N) (h : Fin 4) (q : Fin 2048) (e : Fin 64) :
    qB V c t (ix4 0 h q e) = (V c main_v9_0 : S2x16x2048x64.Idx → Elt F .bf16) (ix4 (cellB t) (cellH t h) q e) := by
  show (V c main_v9_0 : S2x16x2048x64.Idx → Elt F .bf16) (((cfg1.win 0).blk t).view.emb (ix4 0 h q e)) = _
  rw [emb1_0]
theorem kB_apply (t : Fin cfg1.N) (h : Fin 4) (k : Fin 512) (e : Fin 64) :
    kB V c t (ix4 0 h k e) = (V c main_v9_1 : S2x16x2048x64.Idx → Elt F .bf16) (ix4 (cellB t) (cellH t h) (tileRow t k) e) := by
  show (V c main_v9_1 : S2x16x2048x64.Idx → Elt F .bf16) (((cfg1.win 1).blk t).view.emb (ix4 0 h k e)) = _
  rw [emb1_1]
theorem vB_apply (t : Fin cfg1.N) (h : Fin 4) (k : Fin 512) (e : Fin 64) :
    vB V c t (ix4 0 h k e) = (V c main_v9_2 : S2x16x2048x64.Idx → Elt F .bf16) (ix4 (cellB t) (cellH t h) (tileRow t k) e) := by
  show (V c main_v9_2 : S2x16x2048x64.Idx → Elt F .bf16) (((cfg1.win 2).blk t).view.emb (ix4 0 h k e)) = _
  rw [emb1_2]

/-! ## The output's blocks tile its array -/

theorem mem_blk1_3 (t : Fin cfg1.N) (i : S2x16x2048x64.Idx) :
    i ∈ ((cfg1.win 3).blk t).view.set ↔ ∀ a : Fin 4, win1_3.index t a * S1x4x2048x64.size a ≤ (i a).val ∧ (i a).val < win1_3.index t a * S1x4x2048x64.size a + S1x4x2048x64.size a := by
  show i ∈ ((View.whole main_v10).slice (win1_3.rect t)).set ↔ _
  rw [View.set_slice_whole, Rect.mem_set_unit]
  exact Iff.rfl

/-- Every entry of the output array is in the block some last-tile point writes back. -/
theorem cover1_3 (i : S2x16x2048x64.Idx) :
    ∃ t : Fin cfg1.N, (cfg1.win 3).flush t = true ∧ i ∈ ((cfg1.win 3).blk t).view.set := by
  have h0 : (i 0).val < 2 := (i 0).isLt
  have h1 : (i 1).val < 16 := (i 1).isLt
  have h2 : (i 2).val < 2048 := (i 2).isLt
  have h3 : (i 3).val < 64 := (i 3).isLt
  have hN : cfg1.N = 32 := N_1
  refine ⟨⟨16 * (i 0).val + 4 * ((i 1).val / 4) + 3, by rw [hN]; omega⟩, ?_, ?_⟩
  · exact (flush1_3 _).mpr (by show (16 * (i 0).val + 4 * ((i 1).val / 4) + 3) % 4 = 3; omega)
  · rw [mem_blk1_3]
    obtain ⟨-, -, -, ⟨f0, f1, f2, f3⟩⟩ := idx_facts1 ⟨16 * (i 0).val + 4 * ((i 1).val / 4) + 3, by rw [hN]; omega⟩
    have g0 : (16 * (i 0).val + 4 * ((i 1).val / 4) + 3) / 16 = (i 0).val := by omega
    have g1 : ((16 * (i 0).val + 4 * ((i 1).val / 4) + 3) / 4) % 4 = (i 1).val / 4 := by omega
    intro a
    match a with
    | ⟨0, _⟩ => rw [show ((⟨0, _⟩ : Fin 4)) = (0 : Fin 4) from rfl, f0]; show (16 * (i 0).val + 4 * ((i 1).val / 4) + 3) / 16 * 1 ≤ (i 0).val ∧ (i 0).val < (16 * (i 0).val + 4 * ((i 1).val / 4) + 3) / 16 * 1 + 1; omega
    | ⟨1, _⟩ => rw [show ((⟨1, _⟩ : Fin 4)) = (1 : Fin 4) from rfl, f1]; show ((16 * (i 0).val + 4 * ((i 1).val / 4) + 3) / 4) % 4 * 4 ≤ (i 1).val ∧ (i 1).val < ((16 * (i 0).val + 4 * ((i 1).val / 4) + 3) / 4) % 4 * 4 + 4; omega
    | ⟨2, _⟩ => rw [show ((⟨2, _⟩ : Fin 4)) = (2 : Fin 4) from rfl, f2]; show 0 * 2048 ≤ (i 2).val ∧ (i 2).val < 0 * 2048 + 2048; omega
    | ⟨3, _⟩ => rw [show ((⟨3, _⟩ : Fin 4)) = (3 : Fin 4) from rfl, f3]; show 0 * 64 ≤ (i 3).val ∧ (i 3).val < 0 * 64 + 64; omega

end

end Cert.KernelIdeal.Hand

end
-- ==== Proof.IVal1c.lean ====
/-
  The attention region's carried state along one head group: three vectors (running maximum, denominator, numerator),
  started afresh at the group's first tile and stepped once per tile; the output block of the group's last tile is
  numerator over denominator after the fourth step.
-/
import proofs.«108477_j14860586844639_2_alg».proof.Proof.IVal1b

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

variable {F : FTy → Type} [FloatOps F]

/-- The carried state: running maximum, denominator, numerator. -/
abbrev Tri (F : FTy → Type) [FloatOps F] : Type := Vec F S4x2048x1 .f32 × Vec F S4x2048x1 .f32 × Vec F S4x2048x64 .f32

section
variable (V : (c : Dev nD) → (b : Ref sig .tc) → Buf (Elt F) ((c : Thread nD τ).loc b)) (c : Dev nD)

/-- The state after a first tile. -/
def tri0 (t : Fin cfg1.N) : Tri F :=
  (stepM (qB V c t) (kB V c t) (k1_pay5 (F := F)), stepL (qB V c t) (kB V c t) (k1_pay5 (F := F)) (k1_pay6 (F := F)),
   stepAcc (qB V c t) (kB V c t) (vB V c t) (k1_pay5 (F := F)) (k1_pay7 (F := F)))
/-- One more tile folded in. -/
def triNext (t : Fin cfg1.N) (p : Tri F) : Tri F :=
  (stepM (qB V c t) (kB V c t) p.1, stepL (qB V c t) (kB V c t) p.1 p.2.1, stepAcc (qB V c t) (kB V c t) (vB V c t) p.1 p.2.2)

theorem outs_base (n : ℕ) (hn : n < cfg1.N) (h0 : n % 4 = 0) : (outsAt1 V c n hn).2 = tri0 V c ⟨n, hn⟩ := by
  have e := outsAt1_A V c ⟨n, hn⟩ h0
  rw [stA_eq] at e
  exact congrArg Prod.snd e

theorem outs_step (n : ℕ) (hn : n + 1 < cfg1.N) (h0 : (n + 1) % 4 ≠ 0) :
    (outsAt1 V c (n + 1) hn).2 = triNext V c ⟨n + 1, hn⟩ (outsAt1 V c n (Nat.lt_of_succ_lt hn)).2 := by
  by_cases h1 : (n + 1) % 4 = 3
  · have e := outsAt1_C V c ⟨n + 1, hn⟩ h0 h1
    rw [stC_eq] at e
    exact congrArg Prod.snd e
  · have e := outsAt1_B V c ⟨n + 1, hn⟩ h0 h1
    rw [stB_eq] at e
    exact congrArg Prod.snd e

theorem outs_last (n : ℕ) (hn : n + 1 < cfg1.N) (h3 : (n + 1) % 4 = 3) :
    (outsAt1 V c (n + 1) hn).1 =
      finOut (stepAcc (qB V c ⟨n + 1, hn⟩) (kB V c ⟨n + 1, hn⟩) (vB V c ⟨n + 1, hn⟩) (outsAt1 V c n (Nat.lt_of_succ_lt hn)).2.1 (outsAt1 V c n (Nat.lt_of_succ_lt hn)).2.2.2)
        (stepL (qB V c ⟨n + 1, hn⟩) (kB V c ⟨n + 1, hn⟩) (outsAt1 V c n (Nat.lt_of_succ_lt hn)).2.1 (outsAt1 V c n (Nat.lt_of_succ_lt hn)).2.2.1) := by
  have e := outsAt1_C V c ⟨n + 1, hn⟩ (by show (n + 1) % 4 ≠ 0; omega) h3
  rw [stC_eq] at e
  exact congrArg Prod.fst e

/-- What a group's last tile (point `t0 + 3`, `t0` a multiple of 4) leaves in the output block: four steps. -/
theorem outs_group (t0 : ℕ) (hn : t0 + 3 < cfg1.N) (h0 : t0 % 4 = 0) :
    (outsAt1 V c (t0 + 3) hn).1 =
      finOut (stepAcc (qB V c ⟨t0 + 3, hn⟩) (kB V c ⟨t0 + 3, hn⟩) (vB V c ⟨t0 + 3, hn⟩)
          (triNext V c ⟨t0 + 2, by omega⟩ (triNext V c ⟨t0 + 1, by omega⟩ (tri0 V c ⟨t0, by omega⟩))).1
          (triNext V c ⟨t0 + 2, by omega⟩ (triNext V c ⟨t0 + 1, by omega⟩ (tri0 V c ⟨t0, by omega⟩))).2.2)
        (stepL (qB V c ⟨t0 + 3, hn⟩) (kB V c ⟨t0 + 3, hn⟩)
          (triNext V c ⟨t0 + 2, by omega⟩ (triNext V c ⟨t0 + 1, by omega⟩ (tri0 V c ⟨t0, by omega⟩))).1
          (triNext V c ⟨t0 + 2, by omega⟩ (triNext V c ⟨t0 + 1, by omega⟩ (tri0 V c ⟨t0, by omega⟩))).2.1) := by
  have e3 := outs_last V c (t0 + 2) hn (by omega)
  have e2 := outs_step V c (t0 + 1) (by omega) (by omega)
  have e1 := outs_step V c t0 (by omega) (by omega)
  have e0 := outs_base V c t0 (by omega) h0
  rw [e3, e2, e1, e0]

end

end Cert.KernelIdeal.Hand

end
-- ==== Proof.AttnReal.lean ====
/-
  The attention specification on real inputs.

  When the queries, keys and values are (coercions of) real numbers, every scaled score is a real number: a dot
  product of 64 real products, times one eighth. The specification's row maximum, normaliser and output are then
  the same expressions written over those real scores. This is the form in which the softmax algebra, which
  holds over the reals, can be applied to the specification.
-/
import proofs.«108477_j14860586844639_2_alg».proof.Proof.AttnSpec
import proofs.«108477_j14860586844639_2_alg».proof.Proof.SoftmaxLaw

noncomputable section

namespace Cert.KernelIdeal.HandValue

open Cert.KernelIdeal Idealize.ShloMosaic Idealize.ShloMosaic.ValueIdx

/-- The scaled score of query row `q` against key row `kk` in head `(b, h)`, over the reals. -/
def scReal (Qr Kr : S2x16x2048x64.Idx → ℝ) (b : Fin 2) (h : Fin 16) (q kk : Fin 2048) : ℝ :=
  (∑ e : Fin 64, Qr (ix4 b h q e) * Kr (ix4 b h kk e)) * 0.125

theorem scReal_def (Qr Kr : S2x16x2048x64.Idx → ℝ) (b : Fin 2) (h : Fin 16) (q kk : Fin 2048) :
    scReal Qr Kr b h q kk = (∑ e : Fin 64, Qr (ix4 b h q e) * Kr (ix4 b h kk e)) * 0.125 := rfl

/-- The row's maximum of the real scores, folded from the word of -inf as the specification folds it. -/
def mxReal (Qr Kr : S2x16x2048x64.Idx → ℝ) (b : Fin 2) (h : Fin 16) (q : Fin 2048) : EReal :=
  max (Ideal.ofBits .f32 0xFF800000#32)
    ((Finset.univ : Finset (Fin 2048)).fold max (Ideal.ofBits .f32 0xFF800000#32) fun kk => ((scReal Qr Kr b h q kk : ℝ) : EReal))

theorem mxReal_def (Qr Kr : S2x16x2048x64.Idx → ℝ) (b : Fin 2) (h : Fin 16) (q : Fin 2048) :
    mxReal Qr Kr b h q = max (Ideal.ofBits .f32 0xFF800000#32)
      ((Finset.univ : Finset (Fin 2048)).fold max (Ideal.ofBits .f32 0xFF800000#32) fun kk => ((scReal Qr Kr b h q kk : ℝ) : EReal)) := rfl

/-- A family of extended reals each of which is a real is the coercion of a family of reals. -/
theorem exists_real (A : S2x16x2048x64.Idx → EReal) (h : ∀ i, ∃ r : ℝ, A i = (r : EReal)) :
    ∃ Ar : S2x16x2048x64.Idx → ℝ, ∀ i, A i = ((Ar i : ℝ) : EReal) :=
  ⟨fun i => Classical.choose (h i), fun i => Classical.choose_spec (h i)⟩

section
variable (Q K Vv : S2x16x2048x64.Idx → EReal) (Qr Kr Vr : S2x16x2048x64.Idx → ℝ)
variable (hQ : ∀ i, Q i = ((Qr i : ℝ) : EReal)) (hK : ∀ i, K i = ((Kr i : ℝ) : EReal)) (hV : ∀ i, Vv i = ((Vr i : ℝ) : EReal))
include hQ hK

/-- On real queries and keys a scaled score is the real dot product times one eighth. -/
theorem scOf_real (b : Fin 2) (h : Fin 16) (q kk : Fin 2048) :
    scOf Q K b h q kk = (((∑ e : Fin 64, Qr (ix4 b h q e) * Kr (ix4 b h kk e)) * 0.125 : ℝ) : EReal) := by
  unfold scOf
  simp only [hQ, hK]
  exact (congrArg (· * Ideal.ofBits .f32 0x3E000000#32)
    (Cert.SoftmaxLaw.dot_coe (fun e => Qr (ix4 b h q e)) (fun e => Kr (ix4 b h kk e)))).trans (Cert.SoftmaxLaw.mul_eighth _)

/-- The same through the name `scReal`. -/
theorem scOf_scReal (b : Fin 2) (h : Fin 16) (q kk : Fin 2048) :
    scOf Q K b h q kk = ((scReal Qr Kr b h q kk : ℝ) : EReal) := scOf_real Q K Qr Kr hQ hK b h q kk

/-- The row of scores as a function of the key row. -/
theorem scOf_row (b : Fin 2) (h : Fin 16) (q : Fin 2048) :
    (fun kk => scOf Q K b h q kk) = fun kk => ((scReal Qr Kr b h q kk : ℝ) : EReal) :=
  funext fun kk => scOf_scReal Q K Qr Kr hQ hK b h q kk

/-- The row maximum is the maximum of the real scores. -/
theorem mxOf_real (b : Fin 2) (h : Fin 16) (q : Fin 2048) : mxOf Q K b h q = mxReal Qr Kr b h q :=
  congrArg (fun f : Fin 2048 → EReal => max (Ideal.ofBits .f32 0xFF800000#32)
      ((Finset.univ : Finset (Fin 2048)).fold max (Ideal.ofBits .f32 0xFF800000#32) f))
    (scOf_row Q K Qr Kr hQ hK b h q)

/-- The normaliser over the real scores. -/
theorem znOf_real (b : Fin 2) (h : Fin 16) (q : Fin 2048) :
    znOf Q K b h q = Ideal.ofBits .f32 0x00000000#32
      + ∑ kk : Fin 2048, Ideal.exp (((scReal Qr Kr b h q kk : ℝ) : EReal) - mxReal Qr Kr b h q) := by
  unfold znOf
  rw [mxOf_real Q K Qr Kr hQ hK]
  exact congrArg (fun f : Fin 2048 → EReal => Ideal.ofBits .f32 0x00000000#32
      + ∑ kk : Fin 2048, Ideal.exp (f kk - mxReal Qr Kr b h q))
    (scOf_row Q K Qr Kr hQ hK b h q)

include hV

/-- The attention output on real inputs: the softmax weights of the real scores against the real values. -/
theorem attnAt_real (b : Fin 2) (h : Fin 16) (q : Fin 2048) (d : Fin 64) :
    attnAt Q K Vv b h q d = ∑ kk : Fin 2048,
      Ideal.div (Ideal.exp (((scReal Qr Kr b h q kk : ℝ) : EReal) - mxReal Qr Kr b h q))
          (Ideal.ofBits .f32 0x00000000#32
            + ∑ kk' : Fin 2048, Ideal.exp (((scReal Qr Kr b h q kk' : ℝ) : EReal) - mxReal Qr Kr b h q))
        * ((Vr (ix4 b h kk d) : ℝ) : EReal) := by
  unfold attnAt
  rw [znOf_real Q K Qr Kr hQ hK, mxOf_real Q K Qr Kr hQ hK]
  refine Finset.sum_congr rfl fun kk _ => ?_
  rw [scOf_scReal Q K Qr Kr hQ hK, hV]

end

end Cert.KernelIdeal.HandValue

end
-- ==== Proof.AttnPayloads.lean ====
/-
  The attention kernel's pure values, read entry by entry over the extended reals.

  One step of the kernel takes a block of queries x0 (4 heads, 2048 rows, 64 coordinates), a tile of keys x1 and of
  values x2 (4 heads, 512 rows, 64 coordinates) and the carried state: the running maximum m and the denominator l,
  one number per head and query row, and the numerator acc, 64 numbers per head and query row. Its values are built from
  two batched matrix products, a maximum and a sum along the 512 keys, exponentials, and casts and broadcasts between
  the shapes [4, 2048], [4, 2048, 1], [4, 2048, 512] and [4, 2048, 64]. Read at a head h, a query row q (and a key k or a
  coordinate d) each of them is a plain expression in the entries of the operands:

    score      sc h q k  = (∑ e, x0 (0, h, q, e) · x1 (0, h, k, e)) · 1/8
    maximum    m'  h q   = max (m h q) (the maximum, taken from −∞, of sc h q k over k)
    factor     a   h q   = exp (m h q − m' h q)
    weight     p   h q k = exp (sc h q k − m' h q)
    denominator          = a h q · l h q + ∑ k, p h q k
    numerator  (h, q, d) = a h q · acc h q d + ∑ k, p h q k · x2 (0, h, k, d)
    result     (h, q, d) = acc h q d / l h q.

  These are the steps of the online softmax; the last section says so for real operands.
-/
import proofs.«108477_j14860586844639_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«108477_j14860586844639_2_alg».proof.Proof.SoftmaxLaw

noncomputable section

namespace Cert.KernelIdeal.HandValue

open Cert.KernelIdeal Cert.KernelIdeal.Gen Idealize.ShloMosaic Idealize.ShloMosaic.ValueIdx

/-- The f32 word of −∞. -/
local notation "NEG" => Ideal.ofBits FTy.f32 0xFF800000#32
/-- The f32 word of zero. -/
local notation "ZERO" => Ideal.ofBits FTy.f32 0x00000000#32
/-- The f32 word of one eighth. -/
local notation "EIGHTH" => Ideal.ofBits FTy.f32 0x3E000000#32

/-! ## Casts and broadcasts that add a trailing unit axis, read at an entry -/

section Layout
variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## The two matrix products, read at an entry

Both are batched over the head: the entry (h, q, k) of queries against keys contracts the 64 coordinates of query row q
and key row k of head h; the entry (h, q, d) of weights against values contracts the 512 keys. First, axis by axis, where
each operand is read. -/

theorem qk_lhs_0 (i : S4x2048x512.Idx) (c : dot_S4x2048x64_S4x512x64_S4x2048x512_2_2_1_1_0_0.contr.Idx) :
    (dot_S4x2048x64_S4x512x64_S4x2048x512_2_2_1_1_0_0.lhsIdx i c 0).val = (i 0).val := by
  unfold DotDims.lhsIdx
  rw [dif_pos (show (0 : Fin S4x2048x64.rank) ∈ dot_S4x2048x64_S4x512x64_S4x2048x512_2_2_1_1_0_0.lhsBatch by decide)]
  rfl
theorem qk_lhs_1 (i : S4x2048x512.Idx) (c : dot_S4x2048x64_S4x512x64_S4x2048x512_2_2_1_1_0_0.contr.Idx) :
    (dot_S4x2048x64_S4x512x64_S4x2048x512_2_2_1_1_0_0.lhsIdx i c 1).val = (i 1).val := by
  unfold DotDims.lhsIdx
  rw [dif_neg (show ¬(1 : Fin S4x2048x64.rank) ∈ dot_S4x2048x64_S4x512x64_S4x2048x512_2_2_1_1_0_0.lhsBatch by decide),
    dif_pos (show (1 : Fin S4x2048x64.rank) ∈ dot_S4x2048x64_S4x512x64_S4x2048x512_2_2_1_1_0_0.lhsNonContracting by decide)]
  rfl
theorem qk_lhs_2 (i : S4x2048x512.Idx) (c : dot_S4x2048x64_S4x512x64_S4x2048x512_2_2_1_1_0_0.contr.Idx) :
    (dot_S4x2048x64_S4x512x64_S4x2048x512_2_2_1_1_0_0.lhsIdx i c 2).val = (c ⟨0, by decide⟩).val :=
  dot_S4x2048x64_S4x512x64_S4x2048x512_2_2_1_1_0_0.lhsIdx_val_of_single rfl i c
theorem qk_rhs_0 (i : S4x2048x512.Idx) (c : dot_S4x2048x64_S4x512x64_S4x2048x512_2_2_1_1_0_0.contr.Idx) :
    (dot_S4x2048x64_S4x512x64_S4x2048x512_2_2_1_1_0_0.rhsIdx i c 0).val = (i 0).val := by
  unfold DotDims.rhsIdx
  rw [dif_pos (show (0 : Fin S4x512x64.rank) ∈ dot_S4x2048x64_S4x512x64_S4x2048x512_2_2_1_1_0_0.rhsBatch by decide)]
  rfl
theorem qk_rhs_1 (i : S4x2048x512.Idx) (c : dot_S4x2048x64_S4x512x64_S4x2048x512_2_2_1_1_0_0.contr.Idx) :
    (dot_S4x2048x64_S4x512x64_S4x2048x512_2_2_1_1_0_0.rhsIdx i c 1).val = (i 2).val := by
  unfold DotDims.rhsIdx
  rw [dif_neg (show ¬(1 : Fin S4x512x64.rank) ∈ dot_S4x2048x64_S4x512x64_S4x2048x512_2_2_1_1_0_0.rhsBatch by decide),
    dif_pos (show (1 : Fin S4x512x64.rank) ∈ dot_S4x2048x64_S4x512x64_S4x2048x512_2_2_1_1_0_0.rhsNonContracting by decide)]
  rfl
theorem qk_rhs_2 (i : S4x2048x512.Idx) (c : dot_S4x2048x64_S4x512x64_S4x2048x512_2_2_1_1_0_0.contr.Idx) :
    (dot_S4x2048x64_S4x512x64_S4x2048x512_2_2_1_1_0_0.rhsIdx i c 2).val = (c ⟨0, by decide⟩).val :=
  dot_S4x2048x64_S4x512x64_S4x2048x512_2_2_1_1_0_0.rhsIdx_val_of_single rfl i c

/-- The product of the queries with the keys, into a zero accumulator: at (h, q, k) the inner product over the 64
    coordinates of row q of head h of the queries with row k of head h of the keys. -/
theorem qk_apply (A : FVec Ideal S4x2048x64 .bf16) (B : FVec Ideal S4x512x64 .bf16) (h : Fin 4) (q : Fin 2048) (k : Fin 512) :
    matmul dot_S4x2048x64_S4x512x64_S4x2048x512_2_2_1_1_0_0 none A B (constant (F := Ideal) S4x2048x512 .f32 0x00000000#32) (ix3 h q k)
      = ∑ e : Fin 64, A (ix3 h q e) * B (ix3 h k e) := by
  simp only [matmul]
  rw [Ideal.matmul_constant_zero_apply, ← Equiv.sum_comp (contrEquiv1 dot_S4x2048x64_S4x512x64_S4x2048x512_2_2_1_1_0_0 64 rfl rfl).symm]
  refine Finset.sum_congr rfl fun e _ => ?_
  have hk := contrEquiv1_symm_val dot_S4x2048x64_S4x512x64_S4x2048x512_2_2_1_1_0_0 64 rfl rfl e
  have el : dot_S4x2048x64_S4x512x64_S4x2048x512_2_2_1_1_0_0.lhsIdx (ix3 h q k) ((contrEquiv1 dot_S4x2048x64_S4x512x64_S4x2048x512_2_2_1_1_0_0 64 rfl rfl).symm e) = ix3 h q e :=
    funext fun a => Fin.ext (by
      match a with
      | ⟨0, _⟩ => exact qk_lhs_0 _ _
      | ⟨1, _⟩ => exact qk_lhs_1 _ _
      | ⟨2, _⟩ => exact (qk_lhs_2 _ _).trans hk)
  have er : dot_S4x2048x64_S4x512x64_S4x2048x512_2_2_1_1_0_0.rhsIdx (ix3 h q k) ((contrEquiv1 dot_S4x2048x64_S4x512x64_S4x2048x512_2_2_1_1_0_0 64 rfl rfl).symm e) = ix3 h k e :=
    funext fun a => Fin.ext (by
      match a with
      | ⟨0, _⟩ => exact qk_rhs_0 _ _
      | ⟨1, _⟩ => exact qk_rhs_1 _ _
      | ⟨2, _⟩ => exact (qk_rhs_2 _ _).trans hk)
  rw [el, er]

theorem pv_lhs_0 (i : S4x2048x64.Idx) (c : dot_S4x2048x512_S4x512x64_S4x2048x64_2_1_1_2_0_0.contr.Idx) :
    (dot_S4x2048x512_S4x512x64_S4x2048x64_2_1_1_2_0_0.lhsIdx i c 0).val = (i 0).val := by
  unfold DotDims.lhsIdx
  rw [dif_pos (show (0 : Fin S4x2048x512.rank) ∈ dot_S4x2048x512_S4x512x64_S4x2048x64_2_1_1_2_0_0.lhsBatch by decide)]
  rfl
theorem pv_lhs_1 (i : S4x2048x64.Idx) (c : dot_S4x2048x512_S4x512x64_S4x2048x64_2_1_1_2_0_0.contr.Idx) :
    (dot_S4x2048x512_S4x512x64_S4x2048x64_2_1_1_2_0_0.lhsIdx i c 1).val = (i 1).val := by
  unfold DotDims.lhsIdx
  rw [dif_neg (show ¬(1 : Fin S4x2048x512.rank) ∈ dot_S4x2048x512_S4x512x64_S4x2048x64_2_1_1_2_0_0.lhsBatch by decide),
    dif_pos (show (1 : Fin S4x2048x512.rank) ∈ dot_S4x2048x512_S4x512x64_S4x2048x64_2_1_1_2_0_0.lhsNonContracting by decide)]
  rfl
theorem pv_lhs_2 (i : S4x2048x64.Idx) (c : dot_S4x2048x512_S4x512x64_S4x2048x64_2_1_1_2_0_0.contr.Idx) :
    (dot_S4x2048x512_S4x512x64_S4x2048x64_2_1_1_2_0_0.lhsIdx i c 2).val = (c ⟨0, by decide⟩).val :=
  dot_S4x2048x512_S4x512x64_S4x2048x64_2_1_1_2_0_0.lhsIdx_val_of_single rfl i c
theorem pv_rhs_0 (i : S4x2048x64.Idx) (c : dot_S4x2048x512_S4x512x64_S4x2048x64_2_1_1_2_0_0.contr.Idx) :
    (dot_S4x2048x512_S4x512x64_S4x2048x64_2_1_1_2_0_0.rhsIdx i c 0).val = (i 0).val := by
  unfold DotDims.rhsIdx
  rw [dif_pos (show (0 : Fin S4x512x64.rank) ∈ dot_S4x2048x512_S4x512x64_S4x2048x64_2_1_1_2_0_0.rhsBatch by decide)]
  rfl
theorem pv_rhs_1 (i : S4x2048x64.Idx) (c : dot_S4x2048x512_S4x512x64_S4x2048x64_2_1_1_2_0_0.contr.Idx) :
    (dot_S4x2048x512_S4x512x64_S4x2048x64_2_1_1_2_0_0.rhsIdx i c 1).val = (c ⟨0, by decide⟩).val :=
  dot_S4x2048x512_S4x512x64_S4x2048x64_2_1_1_2_0_0.rhsIdx_val_of_single rfl i c
theorem pv_rhs_2 (i : S4x2048x64.Idx) (c : dot_S4x2048x512_S4x512x64_S4x2048x64_2_1_1_2_0_0.contr.Idx) :
    (dot_S4x2048x512_S4x512x64_S4x2048x64_2_1_1_2_0_0.rhsIdx i c 2).val = (i 2).val := by
  unfold DotDims.rhsIdx
  rw [dif_neg (show ¬(2 : Fin S4x512x64.rank) ∈ dot_S4x2048x512_S4x512x64_S4x2048x64_2_1_1_2_0_0.rhsBatch by decide),
    dif_pos (show (2 : Fin S4x512x64.rank) ∈ dot_S4x2048x512_S4x512x64_S4x2048x64_2_1_1_2_0_0.rhsNonContracting by decide)]
  rfl

/-- The product of the weights with the values, into a zero accumulator: at (h, q, d) the sum over the 512 keys of the
    weight of key k in row q of head h times coordinate d of value row k of head h. -/
theorem pv_apply (A : FVec Ideal S4x2048x512 .bf16) (B : FVec Ideal S4x512x64 .bf16) (h : Fin 4) (q : Fin 2048) (d : Fin 64) :
    matmul dot_S4x2048x512_S4x512x64_S4x2048x64_2_1_1_2_0_0 none A B (constant (F := Ideal) S4x2048x64 .f32 0x00000000#32) (ix3 h q d)
      = ∑ k : Fin 512, A (ix3 h q k) * B (ix3 h k d) := by
  simp only [matmul]
  rw [Ideal.matmul_constant_zero_apply, ← Equiv.sum_comp (contrEquiv1 dot_S4x2048x512_S4x512x64_S4x2048x64_2_1_1_2_0_0 512 rfl rfl).symm]
  refine Finset.sum_congr rfl fun k _ => ?_
  have hk := contrEquiv1_symm_val dot_S4x2048x512_S4x512x64_S4x2048x64_2_1_1_2_0_0 512 rfl rfl k
  have el : dot_S4x2048x512_S4x512x64_S4x2048x64_2_1_1_2_0_0.lhsIdx (ix3 h q d) ((contrEquiv1 dot_S4x2048x512_S4x512x64_S4x2048x64_2_1_1_2_0_0 512 rfl rfl).symm k) = ix3 h q k :=
    funext fun a => Fin.ext (by
      match a with
      | ⟨0, _⟩ => exact pv_lhs_0 _ _
      | ⟨1, _⟩ => exact pv_lhs_1 _ _
      | ⟨2, _⟩ => exact (pv_lhs_2 _ _).trans hk)
  have er : dot_S4x2048x512_S4x512x64_S4x2048x64_2_1_1_2_0_0.rhsIdx (ix3 h q d) ((contrEquiv1 dot_S4x2048x512_S4x512x64_S4x2048x64_2_1_1_2_0_0 512 rfl rfl).symm k) = ix3 h k d :=
    funext fun a => Fin.ext (by
      match a with
      | ⟨0, _⟩ => exact pv_rhs_0 _ _
      | ⟨1, _⟩ => exact (pv_rhs_1 _ _).trans hk
      | ⟨2, _⟩ => exact pv_rhs_2 _ _)
  rw [el, er]

/-! ## The maximum and the sum along the keys, read at a row -/

/-- The entry over row (h, q) of the reduced array with key k put back on the reduced axis. -/
theorem lift_row (h : Fin 4) (q : Fin 2048) (k : Fin 512) :
    reduces_S4x2048x512_S4x2048.lift (ix2 h q) k = ix3 h q k :=
  funext fun c => Fin.ext (by
    match c with
    | ⟨0, _⟩ => rfl
    | ⟨1, _⟩ => rfl
    | ⟨2, _⟩ => rfl)

/-- The maximum along the keys, taken from the word of −∞: at row (h, q) the fold of max from that word over the 512
    entries of the row. -/
theorem rowmax_apply (src : FVec Ideal S4x2048x512 .f32) (hφ : FKind.Formats .f32)
    (hacc : (0xFF800000#32 : BitVec 32) = FKind.maximumf.neutral .f32 hφ) (h : Fin 4) (q : Fin 2048) :
    multiReduction (F := Ideal) .maximumf [2] S4x2048 src 0xFF800000#32 reduces_S4x2048x512_S4x2048 hφ hacc (ix2 h q)
      = (Finset.univ : Finset (Fin 512)).fold max NEG fun k => src (ix3 h q k) := by
  refine (Ideal.multiReduction_maximumf_single src 0xFF800000#32 reduces_S4x2048x512_S4x2048 hφ hacc (ix2 h q)).trans ?_
  show (Finset.univ : Finset (Fin 512)).fold max NEG (src ∘ reduces_S4x2048x512_S4x2048.lift (ix2 h q)) = _
  exact congrArg (fun f => (Finset.univ : Finset (Fin 512)).fold max NEG f)
    (funext fun k => congrArg src (lift_row h q k))

/-- The sum along the keys, taken from the word of zero: at row (h, q) the sum of the 512 entries of the row. -/
theorem rowsum_apply (src : FVec Ideal S4x2048x512 .f32) (hφ : FKind.Formats .f32)
    (hacc : (0x00000000#32 : BitVec 32) = FKind.add.neutral .f32 hφ) (h : Fin 4) (q : Fin 2048) :
    multiReduction (F := Ideal) .add [2] S4x2048 src 0x00000000#32 reduces_S4x2048x512_S4x2048 hφ hacc (ix2 h q)
      = ∑ k : Fin 512, src (ix3 h q k) := by
  refine (Ideal.multiReduction_add_single src 0x00000000#32 reduces_S4x2048x512_S4x2048 hφ hacc (ix2 h q)).trans ?_
  show ∑ k : Fin 512, src (reduces_S4x2048x512_S4x2048.lift (ix2 h q) k) = _
  exact Finset.sum_congr rfl fun k _ => congrArg src (lift_row h q k)

/-! ## The kernel's values at an entry -/

section Payloads

variable (x0 : Vec Ideal S1x4x2048x64 .bf16) (x1 x2 : Vec Ideal S1x4x512x64 .bf16)
  (m m' l : Vec Ideal S4x2048x1 .f32) (acc : Vec Ideal S4x2048x64 .f32)
  (h : Fin 4) (q : Fin 2048) (k : Fin 512) (d : Fin 64)

/-- The scaled score of query row q against key row k of head h. -/
def sc (x0 : Vec Ideal S1x4x2048x64 .bf16) (x1 : Vec Ideal S1x4x512x64 .bf16) (h : Fin 4) (q : Fin 2048) (k : Fin 512) :
    EReal :=
  (∑ e : Fin 64, x0 (ix4 (0 : Fin 1) h q e) * x1 (ix4 (0 : Fin 1) h k e)) * EIGHTH

/-- The scores: the product of the queries with the keys, times one eighth. -/
theorem k1_pay9_apply : k1_pay9 (F := Ideal) x0 x1 (ix3 h q k) = sc x0 x1 h q k := by
  unfold k1_pay9 sc
  refine (congrArg (· * EIGHTH) (qk_apply _ _ h q k)).trans ?_
  refine congrArg (· * EIGHTH) (Finset.sum_congr rfl fun e _ => ?_)
  exact congrArg₂ (· * ·) (shapeCast_1abc_abc_apply x0 _ h q e) (shapeCast_1abc_abc_apply x1 _ h k e)

/-- The new running maximum: the old one against the largest score of the tile, taken from −∞. -/
theorem k1_pay10_apply :
    k1_pay10 (F := Ideal) x0 x1 m (ix3 h q (0 : Fin 1))
      = max (m (ix3 h q (0 : Fin 1))) ((Finset.univ : Finset (Fin 512)).fold max NEG fun k => sc x0 x1 h q k) := by
  unfold k1_pay10
  refine congrArg (max (m (ix3 h q (0 : Fin 1)))) ?_
  refine (shapeCast_ab_ab1_apply _ _ h q (0 : Fin 1)).trans ?_
  refine (rowmax_apply (k1_pay9 (F := Ideal) x0 x1) _ _ h q).trans ?_
  exact congrArg (fun f => (Finset.univ : Finset (Fin 512)).fold max NEG f) (funext fun k => k1_pay9_apply x0 x1 h q k)

/-- The factor: the exponential of the old maximum minus the new one. -/
theorem k1_pay11_apply :
    k1_pay11 (F := Ideal) x0 x1 m m' (ix3 h q (0 : Fin 1))
      = Ideal.exp (m' (ix3 h q (0 : Fin 1)) - k1_pay10 (F := Ideal) x0 x1 m (ix3 h q (0 : Fin 1))) := by
  unfold k1_pay11; rfl

/-- The weights: the exponential of each score minus the new maximum of its row. -/
theorem k1_pay12_apply :
    k1_pay12 (F := Ideal) x0 x1 m (ix3 h q k)
      = Ideal.exp (sc x0 x1 h q k - k1_pay10 (F := Ideal) x0 x1 m (ix3 h q (0 : Fin 1))) := by
  unfold k1_pay12
  exact congrArg₂ (fun a b => Ideal.exp (a - b)) (k1_pay9_apply x0 x1 h q k)
    (broadcastTo_ab1_abc_apply (k1_pay10 (F := Ideal) x0 x1 m) _ h q k)

/-- The new denominator: the old one times the factor, plus the sum of the weights of the row. -/
theorem k1_pay13_apply :
    k1_pay13 (F := Ideal) x0 x1 m m' l (ix3 h q (0 : Fin 1))
      = k1_pay11 (F := Ideal) x0 x1 m m' (ix3 h q (0 : Fin 1)) * l (ix3 h q (0 : Fin 1))
        + ∑ k : Fin 512, k1_pay12 (F := Ideal) x0 x1 m (ix3 h q k) := by
  unfold k1_pay13
  refine congrArg (k1_pay11 (F := Ideal) x0 x1 m m' (ix3 h q (0 : Fin 1)) * l (ix3 h q (0 : Fin 1)) + ·) ?_
  exact (shapeCast_ab_ab1_apply _ _ h q (0 : Fin 1)).trans (rowsum_apply (k1_pay12 (F := Ideal) x0 x1 m) _ _ h q)

/-- The values tile with its leading unit axis dropped. -/
theorem k1_pay8_apply : k1_pay8 (F := Ideal) x2 (ix3 h k d) = x2 (ix4 (0 : Fin 1) h k d) := by
  unfold k1_pay8
  exact shapeCast_1abc_abc_apply x2 _ h k d

/-- The new numerator: the old one times the factor, plus the weights against the values. -/
theorem k1_pay2_apply (v8 : FVec Ideal S4x512x64 .bf16) (a : FVec Ideal S4x2048x1 .f32) (p : FVec Ideal S4x2048x512 .f32) :
    k1_pay2 (F := Ideal) v8 a p acc (ix3 h q d)
      = a (ix3 h q (0 : Fin 1)) * acc (ix3 h q d) + ∑ k : Fin 512, p (ix3 h q k) * v8 (ix3 h k d) := by
  unfold k1_pay2
  refine (congrFun (shapeCast_self _ _) _).trans ?_
  exact congrArg₂ (· + ·) (congrArg (· * acc (ix3 h q d)) (broadcastTo_ab1_abc_apply a _ h q d))
    (pv_apply _ v8 h q d)

/-- The result: the numerator divided by the denominator of its row. -/
theorem k1_pay4_apply :
    k1_pay4 (F := Ideal) acc l (ix4 (0 : Fin 1) h q d) = Ideal.div (acc (ix3 h q d)) (l (ix3 h q (0 : Fin 1))) := by
  unfold k1_pay4
  refine (shapeCast_abc_1abc_apply _ _ (0 : Fin 1) h q d).trans ?_
  exact congrArg (Ideal.div (acc (ix3 h q d))) (broadcastTo_ab1_abc_apply l _ h q d)

/-- Casts to the same shape change nothing. -/
theorem k1_pay1_eq (v : FVec Ideal S4x2048x1 .f32) : k1_pay1 (F := Ideal) v = v := shapeCast_self v _
theorem k1_pay3_eq (v : FVec Ideal S4x2048x1 .f32) : k1_pay3 (F := Ideal) v = v := shapeCast_self v _

/-- The initial running maximum is the word of −∞ everywhere, the initial sums the word of zero. -/
theorem k1_pay5_apply (i : S4x2048x1.Idx) : k1_pay5 (F := Ideal) i = NEG := by
  unfold k1_pay5
  exact congrFun (shapeCast_self (fun _ : S4x2048x1.Idx => (NEG : EReal)) _) i
theorem k1_pay6_apply (i : S4x2048x1.Idx) : k1_pay6 (F := Ideal) i = ZERO := by
  unfold k1_pay6
  exact congrFun (shapeCast_self (fun _ : S4x2048x1.Idx => (ZERO : EReal)) _) i
theorem k1_pay7_apply (i : S4x2048x64.Idx) : k1_pay7 (F := Ideal) i = ZERO := by
  unfold k1_pay7
  exact congrFun (shapeCast_self (fun _ : S4x2048x64.Idx => (ZERO : EReal)) _) i

end Payloads

/-! ## One step of the kernel on real operands is one step of the online softmax

With real queries, keys and values the scores and the values are reals, and the kernel's new maximum, denominator and
numerator at a head h, a query row q (and a coordinate d) are the online softmax's step applied to the state read there,
with the tile's real scores of the row and the tile's real values at the coordinate. -/

section Step

open Cert.SoftmaxLaw

variable (x0 : Vec Ideal S1x4x2048x64 .bf16) (x1 x2 : Vec Ideal S1x4x512x64 .bf16)
  (x0r : S1x4x2048x64.Idx → ℝ) (x1r x2r : S1x4x512x64.Idx → ℝ)
  (m m' l : Vec Ideal S4x2048x1 .f32) (acc : Vec Ideal S4x2048x64 .f32)
  (h : Fin 4) (q : Fin 2048) (d : Fin 64)

/-- The real scores of query row q of head h against the 512 keys of the tile. -/
def scoreR (x0r : S1x4x2048x64.Idx → ℝ) (x1r : S1x4x512x64.Idx → ℝ) (h : Fin 4) (q : Fin 2048) : Fin 512 → ℝ :=
  fun k => (∑ e : Fin 64, x0r (ix4 (0 : Fin 1) h q e) * x1r (ix4 (0 : Fin 1) h k e)) * 0.125

/-- The real values of the tile's 512 rows at coordinate d of head h. -/
def valueR (x2r : S1x4x512x64.Idx → ℝ) (h : Fin 4) (d : Fin 64) : Fin 512 → ℝ :=
  fun k => x2r (ix4 (0 : Fin 1) h k d)

/-- A score of real operands is the real score. -/
theorem sc_real (hx0 : ∀ i, x0 i = ((x0r i : ℝ) : EReal)) (hx1 : ∀ i, x1 i = ((x1r i : ℝ) : EReal)) (k : Fin 512) :
    sc x0 x1 h q k = ((scoreR x0r x1r h q k : ℝ) : EReal) := by
  unfold sc scoreR
  simp only [hx0, hx1]
  rw [dot_coe, mul_eighth]

/-- The new running maximum is the online step's. -/
theorem step_m (hx0 : ∀ i, x0 i = ((x0r i : ℝ) : EReal)) (hx1 : ∀ i, x1 i = ((x1r i : ℝ) : EReal)) :
    k1_pay10 (F := Ideal) x0 x1 m (ix3 h q (0 : Fin 1)) = mNext (m (ix3 h q (0 : Fin 1))) (scoreR x0r x1r h q) := by
  rw [k1_pay10_apply]
  unfold mNext bmax
  simp only [sc_real x0 x1 x0r x1r h q hx0 hx1]

/-- The factor is the online step's. -/
theorem step_a (hx0 : ∀ i, x0 i = ((x0r i : ℝ) : EReal)) (hx1 : ∀ i, x1 i = ((x1r i : ℝ) : EReal))
    (hmm : m' (ix3 h q (0 : Fin 1)) = m (ix3 h q (0 : Fin 1))) :
    k1_pay11 (F := Ideal) x0 x1 m m' (ix3 h q (0 : Fin 1)) = aFac (m (ix3 h q (0 : Fin 1))) (scoreR x0r x1r h q) := by
  rw [k1_pay11_apply, step_m x0 x1 x0r x1r m h q hx0 hx1, hmm]; rfl

/-- The weights are the online step's. -/
theorem step_p (hx0 : ∀ i, x0 i = ((x0r i : ℝ) : EReal)) (hx1 : ∀ i, x1 i = ((x1r i : ℝ) : EReal)) (k : Fin 512) :
    k1_pay12 (F := Ideal) x0 x1 m (ix3 h q k) = pW (m (ix3 h q (0 : Fin 1))) (scoreR x0r x1r h q) k := by
  rw [k1_pay12_apply, step_m x0 x1 x0r x1r m h q hx0 hx1, sc_real x0 x1 x0r x1r h q hx0 hx1]; rfl

/-- The new denominator is the online step's. -/
theorem step_l (hx0 : ∀ i, x0 i = ((x0r i : ℝ) : EReal)) (hx1 : ∀ i, x1 i = ((x1r i : ℝ) : EReal))
    (hmm : m' (ix3 h q (0 : Fin 1)) = m (ix3 h q (0 : Fin 1))) :
    k1_pay13 (F := Ideal) x0 x1 m m' l (ix3 h q (0 : Fin 1))
      = lNext (m (ix3 h q (0 : Fin 1))) (l (ix3 h q (0 : Fin 1))) (scoreR x0r x1r h q) := by
  rw [k1_pay13_apply, step_a x0 x1 x0r x1r m m' h q hx0 hx1 hmm]
  simp only [step_p x0 x1 x0r x1r m h q hx0 hx1]
  unfold lNext
  rw [zero_word, zero_add]

/-- The new numerator is the online step's. -/
theorem step_acc (hx0 : ∀ i, x0 i = ((x0r i : ℝ) : EReal)) (hx1 : ∀ i, x1 i = ((x1r i : ℝ) : EReal))
    (hx2 : ∀ i, x2 i = ((x2r i : ℝ) : EReal)) (hmm : m' (ix3 h q (0 : Fin 1)) = m (ix3 h q (0 : Fin 1))) :
    k1_pay2 (F := Ideal) (k1_pay8 (F := Ideal) x2) (k1_pay11 (F := Ideal) x0 x1 m m') (k1_pay12 (F := Ideal) x0 x1 m) acc
        (ix3 h q d)
      = accNext (m (ix3 h q (0 : Fin 1))) (acc (ix3 h q d)) (scoreR x0r x1r h q) (valueR x2r h d) := by
  rw [k1_pay2_apply, step_a x0 x1 x0r x1r m m' h q hx0 hx1 hmm]
  simp only [step_p x0 x1 x0r x1r m h q hx0 hx1, k1_pay8_apply, hx2]
  unfold accNext valueR
  rw [zero_word, zero_add]

end Step

end Cert.KernelIdeal.HandValue

end
-- ==== Proof.AttnFour.lean ====
/-
  Four tiles of keys and values against one block of queries: the attention kernel's output entry is the softmax.

  The kernel visits the 2048 keys of a head in four tiles of 512. At each tile it updates, for every head h and query
  row q, the running maximum and the denominator, and for every coordinate d the numerator, by one step of the online
  softmax; after the fourth tile it divides the numerator by the denominator. For real queries, keys and values, and a
  fixed (h, q, d), the scores of the row against tile j are the entries j · 512 + k of the row's 2048 scores
  S kk = (∑ e, Q e · K kk e) / 8, and the values at coordinate d likewise of the column V. The entry of the result is then
  the normalised softmax of S against V: ∑ kk, (e^{S kk − M} / ∑ kk', e^{S kk' − M}) · V kk, M the row's maximum.
-/
import proofs.«108477_j14860586844639_2_alg».proof.Proof.AttnPayloads
import proofs.«108477_j14860586844639_2_alg».proof.Proof.IVal1a

noncomputable section

namespace Cert.KernelIdeal.HandValue

open Cert.KernelIdeal Cert.KernelIdeal.Gen Cert.KernelIdeal.Hand Idealize.ShloMosaic Idealize.ShloMosaic.ValueIdx
open Cert.SoftmaxLaw

/-- The f32 word of −∞. -/
local notation "NEG" => Ideal.ofBits FTy.f32 0xFF800000#32
/-- The f32 word of zero. -/
local notation "ZERO" => Ideal.ofBits FTy.f32 0x00000000#32

/-! ## One step, read at an entry, for real operands -/

section OneStep

variable (x0 : Vec Ideal S1x4x2048x64 .bf16) (x1 x2 : Vec Ideal S1x4x512x64 .bf16)
  (x0r : S1x4x2048x64.Idx → ℝ) (x1r x2r : S1x4x512x64.Idx → ℝ)
  (m l : Vec Ideal S4x2048x1 .f32) (acc : Vec Ideal S4x2048x64 .f32)
  (h : Fin 4) (q : Fin 2048) (d : Fin 64)

/-- The new running maximum at (h, q). -/
theorem stepM_apply (hx0 : ∀ i, x0 i = ((x0r i : ℝ) : EReal)) (hx1 : ∀ i, x1 i = ((x1r i : ℝ) : EReal)) :
    stepM (F := Ideal) x0 x1 m (ix3 h q (0 : Fin 1)) = mNext (m (ix3 h q (0 : Fin 1))) (scoreR x0r x1r h q) := by
  unfold stepM
  exact (congrFun (k1_pay3_eq _) _).trans (step_m x0 x1 x0r x1r m h q hx0 hx1)

/-- The new denominator at (h, q). -/
theorem stepL_apply (hx0 : ∀ i, x0 i = ((x0r i : ℝ) : EReal)) (hx1 : ∀ i, x1 i = ((x1r i : ℝ) : EReal)) :
    stepL (F := Ideal) x0 x1 m l (ix3 h q (0 : Fin 1))
      = lNext (m (ix3 h q (0 : Fin 1))) (l (ix3 h q (0 : Fin 1))) (scoreR x0r x1r h q) := by
  unfold stepL
  exact (congrFun (k1_pay1_eq _) _).trans (step_l x0 x1 x0r x1r m m l h q hx0 hx1 rfl)

/-- The new numerator at (h, q, d). -/
theorem stepAcc_apply (hx0 : ∀ i, x0 i = ((x0r i : ℝ) : EReal)) (hx1 : ∀ i, x1 i = ((x1r i : ℝ) : EReal))
    (hx2 : ∀ i, x2 i = ((x2r i : ℝ) : EReal)) :
    stepAcc (F := Ideal) x0 x1 x2 m acc (ix3 h q d)
      = accNext (m (ix3 h q (0 : Fin 1))) (acc (ix3 h q d)) (scoreR x0r x1r h q) (valueR x2r h d) := by
  unfold stepAcc
  exact step_acc x0 x1 x2 x0r x1r x2r m m acc h q d hx0 hx1 hx2 rfl

/-- The output block at (0, h, q, d): the numerator over the denominator of its row. -/
theorem finOut_apply :
    finOut (F := Ideal) acc l (ix4 (0 : Fin 1) h q d) = Ideal.div (acc (ix3 h q d)) (l (ix3 h q (0 : Fin 1))) := by
  unfold finOut
  exact k1_pay4_apply l acc h q d

end OneStep

/-! ## Four steps -/

/-- One output entry after the four tiles. The four grid points see query blocks xq j, key tiles xk j and value tiles
    xv j, all real; row q of head h of every query block is the row Q, row k of head h of key tile j is row
    j · 512 + k of K, and coordinate d of row k of head h of value tile j is entry j · 512 + k of the column V. The state
    after tiles 0, 1, 2 is given by its entries at (h, q) and (h, q, d). The output entry is then the normalised softmax
    of the row's scores S against V. -/
theorem attn_four (h : Fin 4) (q : Fin 2048) (d : Fin 64)
    (xq : Fin 4 → Vec Ideal S1x4x2048x64 .bf16) (xk xv : Fin 4 → Vec Ideal S1x4x512x64 .bf16)
    (xqr : Fin 4 → S1x4x2048x64.Idx → ℝ) (xkr xvr : Fin 4 → S1x4x512x64.Idx → ℝ)
    (hq : ∀ j i, xq j i = ((xqr j i : ℝ) : EReal)) (hk : ∀ j i, xk j i = ((xkr j i : ℝ) : EReal))
    (hv : ∀ j i, xv j i = ((xvr j i : ℝ) : EReal))
    (Qrow : Fin 64 → ℝ) (Krow : Fin 2048 → Fin 64 → ℝ) (Vcol : Fin 2048 → ℝ) (S : Fin 2048 → ℝ)
    (hQ : ∀ j e, xqr j (ix4 (0 : Fin 1) h q e) = Qrow e)
    (hK : ∀ j k e, xkr j (ix4 (0 : Fin 1) h k e) = Krow (tile j k) e)
    (hV : ∀ j k, xvr j (ix4 (0 : Fin 1) h k d) = Vcol (tile j k))
    (hS : ∀ kk, S kk = (∑ e : Fin 64, Qrow e * Krow kk e) * 0.125)
    (m0 l0 m1 l1 m2 l2 : Vec Ideal S4x2048x1 .f32) (a0 a1 a2 : Vec Ideal S4x2048x64 .f32)
    (hm0 : m0 (ix3 h q (0 : Fin 1)) = stepM (F := Ideal) (xq 0) (xk 0) (k1_pay5 (F := Ideal)) (ix3 h q (0 : Fin 1)))
    (hl0 : l0 (ix3 h q (0 : Fin 1)) = stepL (F := Ideal) (xq 0) (xk 0) (k1_pay5 (F := Ideal)) (k1_pay6 (F := Ideal)) (ix3 h q (0 : Fin 1)))
    (ha0 : a0 (ix3 h q d) = stepAcc (F := Ideal) (xq 0) (xk 0) (xv 0) (k1_pay5 (F := Ideal)) (k1_pay7 (F := Ideal)) (ix3 h q d))
    (hm1 : m1 (ix3 h q (0 : Fin 1)) = stepM (F := Ideal) (xq 1) (xk 1) m0 (ix3 h q (0 : Fin 1)))
    (hl1 : l1 (ix3 h q (0 : Fin 1)) = stepL (F := Ideal) (xq 1) (xk 1) m0 l0 (ix3 h q (0 : Fin 1)))
    (ha1 : a1 (ix3 h q d) = stepAcc (F := Ideal) (xq 1) (xk 1) (xv 1) m0 a0 (ix3 h q d))
    (hm2 : m2 (ix3 h q (0 : Fin 1)) = stepM (F := Ideal) (xq 2) (xk 2) m1 (ix3 h q (0 : Fin 1)))
    (hl2 : l2 (ix3 h q (0 : Fin 1)) = stepL (F := Ideal) (xq 2) (xk 2) m1 l1 (ix3 h q (0 : Fin 1)))
    (ha2 : a2 (ix3 h q d) = stepAcc (F := Ideal) (xq 2) (xk 2) (xv 2) m1 a1 (ix3 h q d)) :
    finOut (F := Ideal) (stepAcc (F := Ideal) (xq 3) (xk 3) (xv 3) m2 a2) (stepL (F := Ideal) (xq 3) (xk 3) m2 l2)
        (ix4 (0 : Fin 1) h q d)
      = ∑ kk : Fin 2048,
          Ideal.div
            (Ideal.exp (((S kk : ℝ) : EReal)
              - max NEG ((Finset.univ : Finset (Fin 2048)).fold max NEG fun kk => ((S kk : ℝ) : EReal))))
            (ZERO + ∑ kk' : Fin 2048, Ideal.exp (((S kk' : ℝ) : EReal)
              - max NEG ((Finset.univ : Finset (Fin 2048)).fold max NEG fun kk => ((S kk : ℝ) : EReal))))
            * ((Vcol kk : ℝ) : EReal) := by
  -- the tiles' scores of the row and values of the column
  have hs : ∀ j : Fin 4, scoreR (xqr j) (xkr j) h q = fun k => S (tile j k) := fun j => funext fun k => by
    unfold scoreR; simp only [hQ, hK, hS]
  have hvv : ∀ j : Fin 4, valueR (xvr j) h d = fun k => Vcol (tile j k) := fun j => funext fun k => by
    unfold valueR; exact hV j k
  -- the state after each tile, at the entry
  have e0m : m0 (ix3 h q (0 : Fin 1)) = mNext NEG fun k => S (tile 0 k) := by
    rw [hm0, stepM_apply _ _ (xqr 0) (xkr 0) _ h q (hq 0) (hk 0), k1_pay5_apply, hs]
  have e0l : l0 (ix3 h q (0 : Fin 1)) = lNext NEG ZERO fun k => S (tile 0 k) := by
    rw [hl0, stepL_apply _ _ (xqr 0) (xkr 0) _ _ h q (hq 0) (hk 0), k1_pay5_apply, k1_pay6_apply, hs]
  have e0a : a0 (ix3 h q d) = accNext NEG ZERO (fun k => S (tile 0 k)) fun k => Vcol (tile 0 k) := by
    rw [ha0, stepAcc_apply _ _ _ (xqr 0) (xkr 0) (xvr 0) _ _ h q d (hq 0) (hk 0) (hv 0), k1_pay5_apply, k1_pay7_apply,
      hs, hvv]
  have e1m : m1 (ix3 h q (0 : Fin 1)) = mNext (m0 (ix3 h q (0 : Fin 1))) fun k => S (tile 1 k) := by
    rw [hm1, stepM_apply _ _ (xqr 1) (xkr 1) _ h q (hq 1) (hk 1), hs]
  have e1l : l1 (ix3 h q (0 : Fin 1))
      = lNext (m0 (ix3 h q (0 : Fin 1))) (l0 (ix3 h q (0 : Fin 1))) fun k => S (tile 1 k) := by
    rw [hl1, stepL_apply _ _ (xqr 1) (xkr 1) _ _ h q (hq 1) (hk 1), hs]
  have e1a : a1 (ix3 h q d)
      = accNext (m0 (ix3 h q (0 : Fin 1))) (a0 (ix3 h q d)) (fun k => S (tile 1 k)) fun k => Vcol (tile 1 k) := by
    rw [ha1, stepAcc_apply _ _ _ (xqr 1) (xkr 1) (xvr 1) _ _ h q d (hq 1) (hk 1) (hv 1), hs, hvv]
  have e2m : m2 (ix3 h q (0 : Fin 1)) = mNext (m1 (ix3 h q (0 : Fin 1))) fun k => S (tile 2 k) := by
    rw [hm2, stepM_apply _ _ (xqr 2) (xkr 2) _ h q (hq 2) (hk 2), hs]
  have e2l : l2 (ix3 h q (0 : Fin 1))
      = lNext (m1 (ix3 h q (0 : Fin 1))) (l1 (ix3 h q (0 : Fin 1))) fun k => S (tile 2 k) := by
    rw [hl2, stepL_apply _ _ (xqr 2) (xkr 2) _ _ h q (hq 2) (hk 2), hs]
  have e2a : a2 (ix3 h q d)
      = accNext (m1 (ix3 h q (0 : Fin 1))) (a1 (ix3 h q d)) (fun k => S (tile 2 k)) fun k => Vcol (tile 2 k) := by
    rw [ha2, stepAcc_apply _ _ _ (xqr 2) (xkr 2) (xvr 2) _ _ h q d (hq 2) (hk 2) (hv 2), hs, hvv]
  rw [finOut_apply, stepAcc_apply _ _ _ (xqr 3) (xkr 3) (xvr 3) _ _ h q d (hq 3) (hk 3) (hv 3),
    stepL_apply _ _ (xqr 3) (xkr 3) _ _ h q (hq 3) (hk 3), hs, hvv, e2m, e2l, e2a, e1m, e1l, e1a, e0m, e0l, e0a]
  exact (outKernel_four (fun (j : Fin 4) (k : Fin 512) => S (tile j k)) fun (j : Fin 4) (k : Fin 512) => Vcol (tile j k)).symm.trans
    (online_eq_softmax S Vcol)

end Cert.KernelIdeal.HandValue

end
-- ==== Proof.IVal1d.lean ====
/-
  What the attention call leaves in its output array: the softmax attention of its three input arrays, entry by entry.
  A head group's output block is written back at the group's last tile, where it holds numerator over denominator after
  four steps of the online recurrence over the group's four key/value tiles; on real data that quotient is the
  normalised softmax over all 2048 keys. The blocks written back tile the output array.
-/
import proofs.«108477_j14860586844639_2_alg».proof.Proof.IVal1c
import proofs.«108477_j14860586844639_2_alg».proof.Proof.AttnSpec
import proofs.«108477_j14860586844639_2_alg».proof.Proof.AttnReal
import proofs.«108477_j14860586844639_2_alg».proof.Proof.AttnFour
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window BodyObligation cellOf)

variable (V : (c : Dev nD) → (b : Ref sig .tc) → Buf (Elt Ideal) ((c : Thread nD τ).loc b)) (c : Dev nD)

/-! ## The four points of a head group share their batch and heads; tile j holds key rows 512 j .. 512 j + 511 -/

theorem cellB_group (t0 : ℕ) (j : ℕ) (h0 : t0 % 4 = 0) (hj : j ≤ 3) (h1 : t0 + j < cfg1.N) (h2 : t0 + 3 < cfg1.N) :
    cellB ⟨t0 + j, h1⟩ = cellB ⟨t0 + 3, h2⟩ := Fin.ext (by show (t0 + j) / 16 = (t0 + 3) / 16; omega)
theorem cellH_group (t0 : ℕ) (j : ℕ) (h0 : t0 % 4 = 0) (hj : j ≤ 3) (h1 : t0 + j < cfg1.N) (h2 : t0 + 3 < cfg1.N) (h : Fin 4) :
    cellH ⟨t0 + j, h1⟩ h = cellH ⟨t0 + 3, h2⟩ h :=
  Fin.ext (by show 4 * (((t0 + j) / 4) % 4) + h.val = 4 * (((t0 + 3) / 4) % 4) + h.val; omega)
theorem tileRow_group (t0 : ℕ) (j : Fin 4) (h0 : t0 % 4 = 0) (h1 : t0 + j.val < cfg1.N) (k : Fin 512) :
    tileRow ⟨t0 + j.val, h1⟩ k = Cert.SoftmaxLaw.tile j k :=
  Fin.ext (by show 512 * ((t0 + j.val) % 4) + k.val = j.val * 512 + k.val; have := j.isLt; omega)

/-! ## What a last-tile point writes back -/

set_option maxHeartbeats 1600000 in
theorem flushed1_eq (Qr Kr Vr : S2x16x2048x64.Idx → ℝ)
    (hQ : ∀ i, (V c main_v9_0 : S2x16x2048x64.Idx → EReal) i = ((Qr i : ℝ) : EReal))
    (hK : ∀ i, (V c main_v9_1 : S2x16x2048x64.Idx → EReal) i = ((Kr i : ℝ) : EReal))
    (hV : ∀ i, (V c main_v9_2 : S2x16x2048x64.Idx → EReal) i = ((Vr i : ℝ) : EReal))
    (t : Fin cfg1.N) (hf : (cfg1.win 3).flush t = true) :
    (dat1 (F := Ideal) V c).flushed 3 t
      = ((cfg1.win 3).blk t).view.read (Elt Ideal) (attnOf (V c main_v9_0) (V c main_v9_1) (V c main_v9_2)) := by
  have h3 : t.val % 4 = 3 := (flush1_3 t).mp hf
  show (cfg1.win 3).cut (grid1.coords t) ((dat1 (F := Ideal) V c).after 3 t) = _
  rw [after1_3]
  obtain ⟨n, hn⟩ := t
  obtain ⟨t0, rfl⟩ : ∃ t0, n = t0 + 3 := ⟨n - 3, by have : n % 4 = 3 := h3; omega⟩
  have h0 : t0 % 4 = 0 := by have : (t0 + 3) % 4 = 3 := h3; omega
  have hN : cfg1.N = 32 := N_1
  rw [outs_group V c t0 hn h0]
  funext y
  obtain ⟨u, h, q, d, rfl⟩ : ∃ (u : Fin 1) (h : Fin 4) (q : Fin 2048) (d : Fin 64), y = ix4 u h q d :=
    ⟨y 0, y 1, y 2, y 3, eq_ix4 y⟩
  obtain rfl : u = 0 := Subsingleton.elim _ _
  -- the right side: the array entry under the block's entry
  have hR : ((cfg1.win 3).blk ⟨t0 + 3, hn⟩).view.read (Elt Ideal) (attnOf (V c main_v9_0) (V c main_v9_1) (V c main_v9_2)) (ix4 (0 : Fin 1) h q d)
      = attnAt (V c main_v9_0) (V c main_v9_1) (V c main_v9_2) (cellB ⟨t0 + 3, hn⟩) (cellH ⟨t0 + 3, hn⟩ h) q d := by
    show attnOf (V c main_v9_0) (V c main_v9_1) (V c main_v9_2) (((cfg1.win 3).blk ⟨t0 + 3, hn⟩).view.emb (ix4 (0 : Fin 1) h q d)) = _
    rw [emb1_3, attnOf_apply]
  rw [hR, attnAt_real _ _ _ Qr Kr Vr hQ hK hV]
  -- the left side: four steps on real data
  have pj : ∀ j : Fin 4, t0 + j.val < cfg1.N := fun j => by have := j.isLt; omega
  refine attn_four h q d
    (fun j => qB V c ⟨t0 + j.val, pj j⟩) (fun j => kB V c ⟨t0 + j.val, pj j⟩) (fun j => vB V c ⟨t0 + j.val, pj j⟩)
    (fun j i => Qr (((cfg1.win 0).blk ⟨t0 + j.val, pj j⟩).view.emb i))
    (fun j i => Kr (((cfg1.win 1).blk ⟨t0 + j.val, pj j⟩).view.emb i))
    (fun j i => Vr (((cfg1.win 2).blk ⟨t0 + j.val, pj j⟩).view.emb i))
    (fun j i => hQ _) (fun j i => hK _) (fun j i => hV _)
    (fun e => Qr (ix4 (cellB ⟨t0 + 3, hn⟩) (cellH ⟨t0 + 3, hn⟩ h) q e))
    (fun kk e => Kr (ix4 (cellB ⟨t0 + 3, hn⟩) (cellH ⟨t0 + 3, hn⟩ h) kk e))
    (fun kk => Vr (ix4 (cellB ⟨t0 + 3, hn⟩) (cellH ⟨t0 + 3, hn⟩ h) kk d))
    (fun kk => scReal Qr Kr (cellB ⟨t0 + 3, hn⟩) (cellH ⟨t0 + 3, hn⟩ h) q kk)
    (fun j e => ?hQ') (fun j k e => ?hK') (fun j k => ?hV') (fun kk => rfl)
    _ _ _ _ _ _ _ _ _ rfl rfl rfl rfl rfl rfl rfl rfl rfl
  case hQ' =>
    show Qr (((cfg1.win 0).blk ⟨t0 + j.val, pj j⟩).view.emb (ix4 (0 : Fin 1) h q e)) = _
    rw [emb1_0, cellB_group t0 j.val h0 (by have := j.isLt; omega) (pj j) hn, cellH_group t0 j.val h0 (by have := j.isLt; omega) (pj j) hn]
  case hK' =>
    show Kr (((cfg1.win 1).blk ⟨t0 + j.val, pj j⟩).view.emb (ix4 (0 : Fin 1) h k e)) = _
    rw [emb1_1, cellB_group t0 j.val h0 (by have := j.isLt; omega) (pj j) hn, cellH_group t0 j.val h0 (by have := j.isLt; omega) (pj j) hn,
      tileRow_group t0 j h0 (pj j)]
  case hV' =>
    show Vr (((cfg1.win 2).blk ⟨t0 + j.val, pj j⟩).view.emb (ix4 (0 : Fin 1) h k d)) = _
    rw [emb1_2, cellB_group t0 j.val h0 (by have := j.isLt; omega) (pj j) hn, cellH_group t0 j.val h0 (by have := j.isLt; omega) (pj j) hn,
      tileRow_group t0 j h0 (pj j)]

/-! ## The output array after the call -/

theorem final1_3
    (hQ : ∀ i : S2x16x2048x64.Idx, ∃ r : ℝ, (V c main_v9_0 : S2x16x2048x64.Idx → EReal) i = (r : EReal))
    (hK : ∀ i : S2x16x2048x64.Idx, ∃ r : ℝ, (V c main_v9_1 : S2x16x2048x64.Idx → EReal) i = (r : EReal))
    (hV : ∀ i : S2x16x2048x64.Idx, ∃ r : ℝ, (V c main_v9_2 : S2x16x2048x64.Idx → EReal) i = (r : EReal)) :
    (dat1 (F := Ideal) V c).arrAt 3 cfg1.N = attnOf (V c main_v9_0) (V c main_v9_1) (V c main_v9_2) := by
  obtain ⟨Qr, hQr⟩ := exists_real _ hQ
  obtain ⟨Kr, hKr⟩ := exists_real _ hK
  obtain ⟨Vr, hVr⟩ := exists_real _ hV
  exact (dat1 (F := Ideal) V c).arrAt_eq_of_cover 3 _ (fun t hf => flushed1_eq V c Qr Kr Vr hQr hKr hVr t hf) cover1_3

end Cert.KernelIdeal.HandValue

end
-- ==== Proof.lean ====
/-
  Multi-head attention (batch 2, 2048 tokens, width 1024, 16 heads of 64) computed by three kernel calls — the query,
  key and value projections head by head; attention by an online softmax over four key/value tiles of 512, with the
  running maximum, denominator and numerator carried between grid points; the output projection with its bias —
  against the plain reference  softmax((q kᵀ) / 8) v  followed by the same projection.

  Frames. Each program runs to the end, faults nowhere and leaves its four argument arrays as launched: for the
  kernel program (read at words and read at extended reals alike) through the several-regions launch, each call a
  segment entered from and left at named buffer contents; for the reference through its run of host operations.

  Values at the extended reals. Rounding to bf16 is the identity there, so the projection calls leave
  x · Wᵀ head by head and the last call leaves  a · W_outᵀ + b. A head group's attention block is written back at the
  group's last tile, holding numerator / denominator after four steps of
      m' = max(m, max_k s_k),   l' = e^(m - m') l + Σ_k e^(s_k - m'),   acc' = e^(m - m') acc + Σ_k e^(s_k - m') v_k
  from m = -inf, l = 0, acc = 0. On finite inputs every score is a real number, each rescaling is by a positive real,
  and the quotient equals  Σ_k (e^(s_k - M) / Σ_j e^(s_j - M)) v_k  with M the row maximum over all 2048 keys: the
  reference's normalise-then-contract. That law is the one place the precondition (finite inputs) is used: moving the
  common factor across the two sums is distributivity, which fails at the infinities. The scale 1/8 is the same float
  word on both sides and is never evaluated apart from that law.

  Nothing was rewritten by the idealization, so "the idealized kernel is the kernel's sanctioned idealization" asks nothing.
-/
import proofs.«108477_j14860586844639_2_alg».proof.Defs
import proofs.«108477_j14860586844639_2_alg».proof.Proof.Assemble
import proofs.«108477_j14860586844639_2_alg».proof.Proof.IVal1d

noncomputable section

namespace Cert.Proof

open Idealize.ShloMosaic Idealize.SL.Sem

/-- The attention call's output array is the softmax attention of the arrays it finds, whenever those hold real numbers. -/
theorem attn_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) : Cert.KernelIdeal.HandValue.AttnHyp m ρ c :=
  fun hQ hK hV => Cert.KernelIdeal.HandValue.final1_3 (Cert.KernelIdeal.Hand.V2 m ρ) c hQ hK hV

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves,
    Parts.algebraic_of (fun m ρ c _ => attn_value m ρ c)⟩

end Cert.Proof

end
